-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v4_3)) (v2 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v4_3) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256 : Shape := ⟨2, ![16, 256]⟩
abbrev S16x8192x256 : Shape := ⟨3, ![16, 8192, 256]⟩
abbrev S256x256 : Shape := ⟨2, ![256, 256]⟩
abbrev S1x256 : Shape := ⟨2, ![1, 256]⟩
abbrev S_ : Shape := ⟨0, ![]⟩

class Facts : Prop where
  bcast_S_S16x256 : S_.BroadcastsInDim S16x256 (![] : Fin 0 → Fin S16x256.rank)
  reducesTo_S16x256_S_d0_1 : S16x256.ReducesTo [0, 1] S_
  h_S_ : 0 < S_.numel
  bcast_S_S16x8192x256 : S_.BroadcastsInDim S16x8192x256 (![] : Fin 0 → Fin S16x8192x256.rank)
  reducesTo_S16x8192x256_S_d0_1_2 : S16x8192x256.ReducesTo [0, 1, 2] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  main_v23

def fn {F : FTy → Type} [FloatOps F] (main_arg0 : FVec F S16x256 .f32) (main_arg1 : FVec F S16x8192x256 .f32) (main_arg2 : FVec F S256x256 .f32) (main_arg3 : FVec F S256x256 .f32) (main_arg4 : FVec F S1x256 .f32) : IVec S_ 1 :=
  let main_v0 : FVec F S16x256 .f32 := Host.absf main_arg0
  let main_cst : FVec F S_ .f32 := constant S_ .f32 0x7F800000#32
  let main_v1 : FVec F S16x256 .f32 := broadcastInDim S16x256 ![] bcast_S_S16x256 main_cst
  let main_v2 : IVec S16x256 1 := cmpf .olt main_v0 main_v1
  let main_c : IVec S_ 1 := constantI S_ 1 1#1
  let main_v3 : IVec S_ 1 := (fun x v => Host.reduce IntOp.andi x v reducesTo_S16x256_S_d0_1 h_S_) main_v2 main_c
  let main_v4 : FVec F S16x8192x256 .f32 := Host.absf main_arg1
  let main_cst_0 : FVec F S_ .f32 := constant S_ .f32 0x7F800000#32
  let main_v5 : FVec F S16x8192x256 .f32 := broadcastInDim S16x8192x256 ![] bcast_S_S16x8192x256 main_cst_0
  let main_v6 : IVec S16x8192x256 1 := cmpf .olt main_v4 main_v5
  let main_c_1 : IVec S_ 1 := constantI S_ 1 1#1
  let main_v7 : IVec S_ 1 := (fun x v => Host.reduce IntOp.andi x v reducesTo_S16x8192x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S16x256 : Shape := ⟨2, ![16, 256]⟩
abbrev S16x8192x256 : Shape := ⟨3, ![16, 8192, 256]⟩
abbrev S256x256 : Shape := ⟨2, ![256, 256]⟩
abbrev S1x256 : Shape := ⟨2, ![1, 256]⟩
abbrev S16x8192 : Shape := ⟨2, ![16, 8192]⟩
abbrev S16x1 : Shape := ⟨2, ![16, 1]⟩
abbrev S8x256 : Shape := ⟨2, ![8, 256]⟩
abbrev S8x512x256 : Shape := ⟨3, ![8, 512, 256]⟩
abbrev S8x512 : Shape := ⟨2, ![8, 512]⟩
abbrev S8x1 : Shape := ⟨2, ![8, 1]⟩
abbrev S4096x256 : Shape := ⟨2, ![4096, 256]⟩
abbrev S8x1x256 : Shape := ⟨3, ![8, 1, 256]⟩
abbrev S1x1x256 : Shape := ⟨3, ![1, 1, 256]⟩
abbrev S8 : Shape := ⟨1, ![8]⟩
abbrev S8x512x1 : Shape := ⟨3, ![8, 512, 1]⟩
abbrev S16x256x8192 : Shape := ⟨3, ![16, 256, 8192]⟩
abbrev S16x512 : Shape := ⟨2, ![16, 512]⟩
abbrev S16x256x512 : Shape := ⟨3, ![16, 256, 512]⟩
abbrev S16x256x1 : Shape := ⟨3, ![16, 256, 1]⟩

abbrev nBuf : Space → Nat
  | .hbm => 15
  | .vmem => 22
  | .smem => 0
  | _ => 0

abbrev bufTy : (tb : Table) → Fin (tcTables nBuf tb) → BufTy
  | .hbm, ⟨0, _⟩ => ⟨S16x256, .f32⟩
  | .hbm, ⟨1, _⟩ => ⟨S16x8192x256, .f32⟩
  | .hbm, ⟨2, _⟩ => ⟨S256x256, .f32⟩
  | .hbm, ⟨3, _⟩ => ⟨S256x256, .f32⟩
  | .hbm, ⟨4, _⟩ => ⟨S1x256, .f32⟩
  | .hbm, ⟨5, _⟩ => ⟨S256x256, .f32⟩
  | .hbm, ⟨6, _⟩ => ⟨S16x256, .f32⟩
  | .hbm, ⟨7, _⟩ => ⟨S256x256, .f32⟩
  | .hbm, ⟨8, _⟩ => ⟨S256x256, .bf16⟩
  | .hbm, ⟨9, _⟩ => ⟨S16x8192, .f32⟩
  | .hbm, ⟨10, _⟩ => ⟨S16x1, .f32⟩
  | .hbm, ⟨11, _⟩ => ⟨S16x1, .f32⟩
  | .hbm, ⟨12, _⟩ => ⟨S16x256, .f32⟩
  | .hbm, ⟨13, _⟩ => ⟨S16x256x8192, .f32⟩
  | .hbm, ⟨14, _⟩ => ⟨S16x8192, .f32⟩
  | .local _ .vmem, ⟨0, _⟩ => ⟨S8x256, .f32⟩
  | .local _ .vmem, ⟨1, _⟩ => ⟨S256x256, .bf16⟩
  | .local _ .vmem, ⟨2, _⟩ => ⟨S1x256, .f32⟩
  | .local _ .vmem, ⟨3, _⟩ => ⟨S8x512x256, .f32⟩
  | .local _ .vmem, ⟨4, _⟩ => ⟨S8x512x256, .f32⟩
  | .local _ .vmem, ⟨5, _⟩ => ⟨S8x512, .f32⟩
  | .local _ .vmem, ⟨6, _⟩ => ⟨S8x512, .f32⟩
  | .local _ .vmem, ⟨7, _⟩ => ⟨S8x1, .f32⟩
  | .local _ .vmem, ⟨8, _⟩ => ⟨S8x1, .f32⟩
  | .local _ .vmem, ⟨9, _⟩ => ⟨S8x1, .f32⟩
  | .local _ .vmem, ⟨10, _⟩ => ⟨S8x1, .f32⟩
  | .local _ .vmem, ⟨11, _⟩ => ⟨S8x256, .f32⟩
  | .local _ .vmem, ⟨12, _⟩ => ⟨S8x256, .f32⟩
  | .local _ .vmem, ⟨13, _⟩ => ⟨S16x1, .f32⟩
  | .local _ .vmem, ⟨14, _⟩ => ⟨S16x1, .f32⟩
  | .local _ .vmem, ⟨15, _⟩ => ⟨S16x512, .f32⟩
  | .local _ .vmem, ⟨16, _⟩ => ⟨S16x512, .f32⟩
  | .local _ .vmem, ⟨17, _⟩ => ⟨S16x256, .f32⟩
  | .local _ .vmem, ⟨18, _⟩ => ⟨S16x256x512, .f32⟩
  | .local _ .vmem, ⟨19, _⟩ => ⟨S16x256x512, .f32⟩
  | .local _ .vmem, ⟨20, _⟩ => ⟨S16x512, .f32⟩
  | .local _ .vmem, ⟨21, _⟩ => ⟨S16x512, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S16x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S16x256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S16x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S256x256_S256x256_1_0 : S256x256.Transposes [1, 0] S256x256
  bitsLt_bf16_f32 : FTy.bits .bf16 < FTy.bits .f32
  inb_S8x1_S8x1_0_0 : ∀ a, (![0, 0] : Fin 2 → Nat) a + S8x1.size a ≤ S8x1.size a
  h_S8x1 : 0 < S8x1.numel
  inb_S8x256_S8x256_0_0 : ∀ a, (![0, 0] : Fin 2 → Nat) a + S8x256.size a ≤ S8x256.size a
  h_S8x256 : 0 < S8x256.numel
  inb_S8x512x256_S8x512x256_0_0_0 : ∀ a, (![0, 0, 0] : Fin 3 → Nat) a + S8x512x256.size a ≤ S8x512x256.size a
  h_S8x512x256 : 0 < S8x512x256.numel
  shapeCasts_S8x512x256_S4096x256 : S8x512x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S4096x256_S8x512x256 : S4096x256.ShapeCasts S8x512x256
  shapeCasts_S8x256_S8x256 : S8x256.ShapeCasts S8x256
  shapeCasts_S8x256_S8x1x256 : S8x256.ShapeCasts S8x1x256
  broadcasts_S8x1x256_S8x512x256 : S8x1x256.Broadcasts S8x512x256
  inb_S1x256_S1x256_0_0 : ∀ a, (![0, 0] : Fin 2 → Nat) a + S1x256.size a ≤ S1x256.size a
  h_S1x256 : 0 < S1x256.numel
  shapeCasts_S1x256_S1x1x256 : S1x256.ShapeCasts S1x1x256
  broadcasts_S1x1x256_S8x512x256 : S1x1x256.Broadcasts S8x512x256
  reduces_S8x512x256_S8x512 : S8x512x256.Reduces [2] S8x512
  inb_S8x512_S8x512_0_0 : ∀ a, (![0, 0] : Fin 2 → Nat) a + S8x512.size a ≤ S8x512.size a
  h_S8x512 : 0 < S8x512.numel
  reduces_S8x512_S8 : S8x512.Reduces [1] S8
  shapeCasts_S8_S8x1 : S8.ShapeCasts S8x1
  shapeCasts_S8x1_S8x1 : S8x1.ShapeCasts S8x1
  broadcasts_S8x1_S8x512 : S8x1.Broadcasts S8x512
  broadcasts_S8x1_S8x256 : S8x1.Broadcasts S8x256
  shapeCasts_S8x512_S8x512x1 : S8x512.ShapeCasts S8x512x1
  broadcasts_S8x512x1_S8x512x256 : S8x512x1.Broadcasts S8x512x256
  reduces_S8x512x256_S8x256 : S8x512x256.Reduces [1] S8x256
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x512 : S16x1.Broadcasts S16x512
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S16x256_S16x256x1 : S16x256.ShapeCasts S16x256x1
  shapeCasts_S16x256x1_S16x256x1 : S16x256x1.ShapeCasts S16x256x1
  broadcasts_S16x256x1_S16x256x512 : S16x256x1.Broadcasts S16x256x512
  inb_S16x256x512_S16x256x512_0_0_0 : ∀ a, (![0, 0, 0] : Fin 3 → Nat) a + S16x256x512.size a ≤ S16x256x512.size a
  h_S16x256x512 : 0 < S16x256x512.numel
  dot_S16x256_S256x256_S16x256_1_0_0_1_n_n_wf : DotDims.WF S16x256 S256x256 S16x256 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S16x256.size a
  hwx0_0 : ∀ i : grid0.Coords, EltTy.bits .f32 = 32 ∨ (Rect.block (s := S16x256) S8x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512x256.size a ≤ S16x8192x256.size a
  hwx0_3 : ∀ i : grid0.Coords, EltTy.bits .f32 = 32 ∨ (Rect.block (s := S16x8192x256) S8x512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S16x8192.size a
  hwx0_4 : ∀ i : grid0.Coords, EltTy.bits .f32 = 32 ∨ (Rect.block (s := S16x8192) S8x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S16x1.size a
  hwx0_5 : ∀ i : grid0.Coords, EltTy.bits .f32 = 32 ∨ (Rect.block (s := S16x1) S8x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S16x1.size a
  hwx0_6 : ∀ i : grid0.Coords, EltTy.bits .f32 = 32 ∨ (Rect.block (s := S16x1) S8x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x256.size a ≤ S16x256.size a
  hwx0_7 : ∀ i : grid0.Coords, EltTy.bits .f32 = 32 ∨ (Rect.block (s := S16x256) S8x256.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x1.size a ≤ S16x1.size a
  hwx1_0 : ∀ i : grid1.Coords, EltTy.bits .f32 = 32 ∨ (Rect.block (s := S16x1) S16x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x1.size a ≤ S16x1.size a
  hwx1_1 : ∀ i : grid1.Coords, EltTy.bits .f32 = 32 ∨ (Rect.block (s := S16x1) S16x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x512.size a ≤ S16x8192.size a
  hwx1_2 : ∀ i : grid1.Coords, EltTy.bits .f32 = 32 ∨ (Rect.block (s := S16x8192) S16x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x256.size a ≤ S16x256.size a
  hwx1_3 : ∀ i : grid1.Coords, EltTy.bits .f32 = 32 ∨ (Rect.block (s := S16x256) S16x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x256x512.size a ≤ S16x256x8192.size a
  hwx1_4 : ∀ i : grid1.Coords, EltTy.bits .f32 = 32 ∨ (Rect.block (s := S16x256x8192) S16x256x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16x512.size a ≤ S16x8192.size a
  hwx1_5 : ∀ i : grid1.Coords, EltTy.bits .f32 = 32 ∨ (Rect.block (s := S16x8192) S16x512.size (cc1_transform_5 i) (hinb1_5 i)).WholeWords (EltTy.packing .f32)

variable [Facts₀]

def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v1) S8x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8x512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S8x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S8x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S8x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_3) S8x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4_1) S16x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4_2) S16x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4_0) S16x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_3) S16x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5_0) S16x256x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5_1) S16x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x256 : Shape := ⟨2, ![16, 256]⟩
abbrev S16x8192x256 : Shape := ⟨3, ![16, 8192, 256]⟩
abbrev S256x256 : Shape := ⟨2, ![256, 256]⟩
abbrev S1x256 : Shape := ⟨2, ![1, 256]⟩
abbrev S16x1x256 : Shape := ⟨3, ![16, 1, 256]⟩
abbrev S16x8192x1 : Shape := ⟨3, ![16, 8192, 1]⟩
abbrev S_ : Shape := ⟨0, ![]⟩
abbrev S16x1 : Shape := ⟨2, ![16, 1]⟩
abbrev S16x1x1 : Shape := ⟨3, ![16, 1, 1]⟩
abbrev S16x256x1 : Shape := ⟨3, ![16, 256, 1]⟩
abbrev S16x256x8192 : Shape := ⟨3, ![16, 256, 8192]⟩
abbrev S16x8192 : Shape := ⟨2, ![16, 8192]⟩

abbrev nBuf : Space → Nat
  | .hbm => 33
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x8192x256, .f32⟩
  | .hbm, ⟨2, _⟩ => ⟨S256x256, .f32⟩
  | .hbm, ⟨3, _⟩ => ⟨S256x256, .f32⟩
  | .hbm, ⟨4, _⟩ => ⟨S1x256, .f32⟩
  | .hbm, ⟨5, _⟩ => ⟨S16x256, .f32⟩
  | .hbm, ⟨6, _⟩ => ⟨S16x1x256, .f32⟩
  | .hbm, ⟨7, _⟩ => ⟨S16x8192x256, .f32⟩
  | .hbm, ⟨8, _⟩ => ⟨S16x8192x256, .f32⟩
  | .hbm, ⟨9, _⟩ => ⟨S16x8192x256, .f32⟩
  | .hbm, ⟨10, _⟩ => ⟨S16x8192x256, .f32⟩
  | .hbm, ⟨11, _⟩ => ⟨S16x8192x1, .f32⟩
  | .hbm, ⟨12, _⟩ => ⟨S_, .f32⟩
  | .hbm, ⟨13, _⟩ => ⟨S16x1, .f32⟩
  | .hbm, ⟨14, _⟩ => ⟨S_, .f32⟩
  | .hbm, ⟨15, _⟩ => ⟨S16x1, .f32⟩
  | .hbm, ⟨16, _⟩ => ⟨S16x1, .f32⟩
  | .hbm, ⟨17, _⟩ => ⟨S16x1x1, .f32⟩
  | .hbm, ⟨18, _⟩ => ⟨S16x8192x1, .f32⟩
  | .hbm, ⟨19, _⟩ => ⟨S16x8192x1, .f32⟩
  | .hbm, ⟨20, _⟩ => ⟨S16x8192x1, .f32⟩
  | .hbm, ⟨21, _⟩ => ⟨S_, .f32⟩
  | .hbm, ⟨22, _⟩ => ⟨S16x1, .f32⟩
  | .hbm, ⟨23, _⟩ => ⟨S16x1x1, .f32⟩
  | .hbm, ⟨24, _⟩ => ⟨S16x8192x1, .f32⟩
  | .hbm, ⟨25, _⟩ => ⟨S16x8192x1, .f32⟩
  | .hbm, ⟨26, _⟩ => ⟨S16x8192x256, .f32⟩
  | .hbm, ⟨27, _⟩ => ⟨S16x8192x256, .f32⟩
  | .hbm, ⟨28, _⟩ => ⟨S_, .f32⟩
  | .hbm, ⟨29, _⟩ => ⟨S16x256, .f32⟩
  | .hbm, ⟨30, _⟩ => ⟨S16x256x1, .f32⟩
  | .hbm, ⟨31, _⟩ => ⟨S16x256x8192, .f32⟩
  | .hbm, ⟨32, _⟩ => ⟨S16x8192, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S16x256_S16x1x256_0_2 : S16x256.BroadcastsInDim S16x1x256 (![0, 2] : Fin 2 → Fin S16x1x256.rank)
  bcast_S16x1x256_S16x8192x256_0_1_2 : S16x1x256.BroadcastsInDim S16x8192x256 (![0, 1, 2] : Fin 3 → Fin S16x8192x256.rank)
  reducesTo_S16x8192x1_S16x1_d1 : S16x8192x1.ReducesTo [1] S16x1
  h_S_ : 0 < S_.numel
  bcast_S_S16x1 : S_.BroadcastsInDim S16x1 (![] : Fin 0 → Fin S16x1.rank)
  bcast_S16x1_S16x1x1_0_2 : S16x1.BroadcastsInDim S16x1x1 (![0, 2] : Fin 2 → Fin S16x1x1.rank)
  bcast_S16x1x1_S16x8192x1_0_1_2 : S16x1x1.BroadcastsInDim S16x8192x1 (![0, 1, 2] : Fin 3 → Fin S16x8192x1.rank)
  bcast_S16x8192x1_S16x8192x256_0_1_2 : S16x8192x1.BroadcastsInDim S16x8192x256 (![0, 1, 2] : Fin 3 → Fin S16x8192x256.rank)
  reducesTo_S16x8192x256_S16x256_d1 : S16x8192x256.ReducesTo [1] S16x256
  bcast_S16x256_S16x256x1_0_1 : S16x256.BroadcastsInDim S16x256x1 (![0, 1] : Fin 2 → Fin S16x256x1.rank)
  bcast_S16x256x1_S16x256x8192_0_1_2 : S16x256x1.BroadcastsInDim S16x256x8192 (![0, 1, 2] : Fin 3 → Fin S16x256x8192.rank)
  shapeCasts_S16x8192x1_S16x8192 : S16x8192x1.ShapeCasts S16x8192
  dot_S16x256_S256x256_S16x256_1_1_0_0_n_n_wf : DotDims.WF S16x256 S256x256 S16x256 [1] [1] [0] [0] [] []
  dot_S16x8192x256_S256x256_S16x8192x256_2_1_01_0_n_n_wf : DotDims.WF S16x8192x256 S256x256 S16x8192x256 [2] [1] [0, 1] [0] [] []
  dot_S16x8192x256_S1x256_S16x8192x1_2_1_01_0_n_n_wf : DotDims.WF S16x8192x256 S1x256 S16x8192x1 [2] [1] [0, 1] [0] [] []

variable [Facts₀]

def dot_S16x256_S256x256_S16x256_1_1_0_0_n_n : DotDims S16x256 S256x256 S16x256 where
  lhsContracting := [1]
  rhsContracting := [1]
  lhsNonContracting := [0]
  rhsNonContracting := [0]
  lhsBatch := []
  rhsBatch := []
  wf := dot_S16x256_S256x256_S16x256_1_1_0_0_n_n_wf
def dot_S16x8192x256_S256x256_S16x8192x256_2_1_01_0_n_n : DotDims S16x8192x256 S256x256 S16x8192x256 where
  lhsContracting := [2]
  rhsContracting := [1]
  lhsNonContracting := [0, 1]
  rhsNonContracting := [0]
  lhsBatch := []
  rhsBatch := []
  wf := dot_S16x8192x256_S256x256_S16x8192x256_2_1_01_0_n_n_wf
def dot_S16x8192x256_S1x256_S16x8192x1_2_1_01_0_n_n : DotDims S16x8192x256 S1x256 S16x8192x1 where
  lhsContracting := [2]
  rhsContracting := [1]
  lhsNonContracting := [0, 1]
  rhsNonContracting := [0]
  lhsBatch := []
  rhsBatch := []
  wf := dot_S16x8192x256_S1x256_S16x8192x1_2_1_01_0_n_n_wf

class Facts : Prop extends Facts₀ where

variable [Facts]
-- ==== Proof.KRun.lean ====
/-
  The idealized kernel's whole run with its three results named.

  The program is a stretch of host operations (the two projections' operands: a transpose, a product, a
  transpose, a change of format) followed by two kernel launches. The buffer contents at the three
  boundaries are a fold from the launch memory: after the host stretch, after the first launch (its arrays
  at what its write-backs leave), after the second. Every weakly fair execution terminates with each
  result buffer, and each argument buffer, at the last boundary's contents; the arguments are the launch
  contents again.
-/
import proofs.«141412_j3788161155177_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the three result buffers at the last
    boundary's contents and the five argument buffers as launched. -/
theorem run : θ_run defs (onTc (τ := τ) (main (F := F))) ⟨m, fun _ => 0, ρ⟩ (fun r => ∀ c : Dev nD,
      r.2.mem ((c.tc : Thread nD τ).loc main_v5_0) = W3 m ρ c (Proc.devRef .tc main_v5_0)
      ∧ r.2.mem ((c.tc : Thread nD τ).loc main_v4_3) = W3 m ρ c (Proc.devRef .tc main_v4_3)
      ∧ r.2.mem ((c.tc : Thread nD τ).loc main_v5_1) = W3 m ρ c (Proc.devRef .tc main_v5_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v5_0 (by decide)),
       h c _ (mem_uc main_v4_3 (by decide)),
       h c _ (mem_uc main_v5_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Whole

end
-- ==== Proof.Region1.lean ====
/-
  The second kernel of the additive-attention block: normalizing the softmax and tiling the context.

  The kernel runs over 16 tiles of 512 consecutive sequence positions. At the tile holding position s it reads the
  scores of that tile, and the whole of three arrays that do not depend on the tile: the row maxima m, the row
  normalizers l and the context vectors. It writes
      attn[b, s]     = exp(scores[b, s] - m[b]) / l[b]
      tiled[b, h, s] = context[b, h]
  on the tile. The 16 tiles partition the sequence axis (position s lies in tile s / 512), so after the whole grid
  the two result arrays hold these two functions at every index: each is one function of the four input arrays,
  read index by index, and every tile writes the restriction of that function to itself.
-/
import proofs.«141412_j3788161155177_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R1

open Cert.KernelIdeal Cert.KernelIdeal.Gen Idealize.ShloMosaic Idealize.ShloMosaic.TcCoe Idealize.SL.Sem
open Idealize.ShloMosaic.Pipeline (Dat)
open Idealize.ShloMosaic.ValueIdx

/-! ## One column broadcast along a row, and a trailing unit axis -/

section Layout
variable {α : Type}

/-- An [a, 1] column broadcast to [a, b] reads, at (p, q), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An [a, b] array cast to [a, b, 1] reads, at (p, r, u), the operand at (p, r), whatever the unit coordinate u. -/
theorem shapeCast_ab_ab1_apply {a b : ℕ} (x : (⟨2, ![a, b]⟩ : Shape).Idx → α)
    (h : (⟨2, ![a, b]⟩ : Shape).ShapeCasts ⟨3, ![a, b, 1]⟩) (p : Fin a) (r : Fin b) (u : Fin 1) :
    shapeCast ⟨3, ![a, b, 1]⟩ x h (ix3 p r u) = x (ix2 p r) :=
  shapeCast_apply x h _ _ (by
    have hu : u.val = 0 := by omega
    rw [Shape.rowMajor_val_three, Shape.rowMajor_val_two]
    show p.val * b + r.val = (p.val * b + r.val) * 1 + u.val
    rw [hu, Nat.mul_one, Nat.add_zero])

/-- An [a, b, 1] array broadcast to [a, b, n] reads, at (p, r, q), the operand at (p, r, 0). -/
theorem broadcastTo_ab1_abn_apply {a b n : ℕ} (v : (⟨3, ![a, b, 1]⟩ : Shape).Idx → α)
    (h : (⟨3, ![a, b, 1]⟩ : Shape).Broadcasts ⟨3, ![a, b, n]⟩) (p : Fin a) (r : Fin b) (q : Fin n) :
    broadcastTo ⟨3, ![a, b, n]⟩ v h (ix3 p r q) = v (ix3 p r (0 : Fin 1)) := by
  refine broadcastTo_apply v h (ix3 p r q) (ix3 p r (0 : Fin 1)) fun ax => ?_
  match ax with
  | ⟨0, _⟩ =>
    show p.val = if a = 1 then 0 else p.val
    split
    · have := p.isLt; omega
    · rfl
  | ⟨1, _⟩ =>
    show r.val = if b = 1 then 0 else r.val
    split
    · have := r.isLt; omega
    · rfl
  | ⟨2, _⟩ => rfl

end Layout

/-! ## The attention weights -/

/-- The attention weights as one function of the scores, the row maxima and the row normalizers. -/
def attnOf (sc : S16x8192.Idx → EReal) (mx l : S16x1.Idx → EReal) : S16x8192.Idx → EReal :=
  fun i => Ideal.div (Ideal.exp (sc i - mx (ix2 (⟨(i 0).val, (i 0).isLt⟩ : Fin 16) (0 : Fin 1))))
    (l (ix2 (⟨(i 0).val, (i 0).isLt⟩ : Fin 16) (0 : Fin 1)))

/-- What the body computes on a tile, at row p and position q of the tile. -/
theorem attnTile_ix (x : Vec Ideal S16x512 .f32) (mx l : Vec Ideal S16x1 .f32) (p : Fin 16) (q : Fin 512) :
    k1_pay1 x mx l (ix2 p q) = Ideal.div (Ideal.exp (x (ix2 p q) - mx (ix2 p (0 : Fin 1)))) (l (ix2 p (0 : Fin 1))) := by
  unfold k1_pay1
  show Ideal.div (Ideal.exp (shapeCast S16x512 x _ (ix2 p q) - broadcastTo S16x512 (shapeCast S16x1 mx _) _ (ix2 p q)))
      (broadcastTo S16x512 (shapeCast S16x1 l _) _ (ix2 p q)) = _
  rw [shapeCast_self, shapeCast_self, shapeCast_self, broadcastTo_a1_ab_apply, broadcastTo_a1_ab_apply]

/-- The same at any index of the tile. -/
theorem attnTile_apply (x : Vec Ideal S16x512 .f32) (mx l : Vec Ideal S16x1 .f32) (j : S16x512.Idx) :
    k1_pay1 x mx l j = Ideal.div (Ideal.exp (x j - mx (ix2 (⟨(j 0).val, (j 0).isLt⟩ : Fin 16) (0 : Fin 1))))
      (l (ix2 (⟨(j 0).val, (j 0).isLt⟩ : Fin 16) (0 : Fin 1))) := by
  obtain ⟨p, q, rfl⟩ : ∃ (p : Fin 16) (q : Fin 512), j = ix2 p q := ⟨j 0, j 1, eq_ix2 j⟩
  exact attnTile_ix x mx l p q

/-- attnOf at an index, from the three entries it reads there. -/
theorem attnOf_of_entries (sc : S16x8192.Idx → EReal) (mx l : S16x1.Idx → EReal) (i : S16x8192.Idx) {x a b : EReal}
    (hx : x = sc i) (ha : a = mx (ix2 (⟨(i 0).val, (i 0).isLt⟩ : Fin 16) (0 : Fin 1)))
    (hb : b = l (ix2 (⟨(i 0).val, (i 0).isLt⟩ : Fin 16) (0 : Fin 1))) :
    Ideal.div (Ideal.exp (x - a)) b = attnOf sc mx l i := by
  subst hx ha hb; rfl

/-! ## The tiled context -/

/-- The context vectors repeated along a last axis, as one function of the context array. -/
def tiledOf (ctx : S16x256.Idx → EReal) : S16x256x8192.Idx → EReal :=
  fun i => ctx (ix2 (⟨(i 0).val, (i 0).isLt⟩ : Fin 16) (⟨(i 1).val, (i 1).isLt⟩ : Fin 256))

/-- What the body computes on a tile, at row p, feature r and position q of the tile: the context's entry (p, r). -/
theorem tiledTile_ix (x : Vec Ideal S16x256 .f32) (p : Fin 16) (r : Fin 256) (q : Fin 512) :
    k1_pay2 x (ix3 p r q) = x (ix2 p r) := by
  unfold k1_pay2
  show broadcastTo S16x256x512 (shapeCast S16x256x1 (shapeCast S16x256x1 (shapeCast S16x256 x _) _) _) _ (ix3 p r q) = _
  rw [broadcastTo_ab1_abn_apply, shapeCast_self, shapeCast_ab_ab1_apply, shapeCast_self]

/-- The same at any index of the tile. -/
theorem tiledTile_apply (x : Vec Ideal S16x256 .f32) (j : S16x256x512.Idx) :
    k1_pay2 x j = x (ix2 (⟨(j 0).val, (j 0).isLt⟩ : Fin 16) (⟨(j 1).val, (j 1).isLt⟩ : Fin 256)) := by
  obtain ⟨p, r, q, rfl⟩ : ∃ (p : Fin 16) (r : Fin 256) (q : Fin 512), j = ix3 p r q := ⟨j 0, j 1, j 2, eq_ix3 j⟩
  exact tiledTile_ix x p r q

/-! ## From tiles to the whole arrays -/

section Region

variable (V : (c : Dev nD) → (b : Ref sig .tc) → Buf (Elt Ideal) ((c : Thread nD τ).loc b))

theorem zero2 : (![0, 0] : Fin 2 → Nat) = fun _ => 0 := funext fun a => by fin_cases a <;> rfl

theorem zero3 : (![0, 0, 0] : Fin 3 → Nat) = fun _ => 0 := funext fun a => by fin_cases a <;> rfl

/-- Where each window's tile sits at grid point t: the row maxima, the normalizers and the context are read whole at
    every point; the scores and the two results move along the sequence axis, tile t at point t. -/
theorem tile_index : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = 0
    ∧ win1_4.index t (0 : Fin 3) = 0 ∧ win1_4.index t (1 : Fin 3) = 0 ∧ win1_4.index t (2 : Fin 3) = t.val
    ∧ win1_5.index t (0 : Fin 2) = 0 ∧ win1_5.index t (1 : Fin 2) = t.val :=
  (by decide +kernel : ∀ t : Fin grid1.N, _)

/-- What grid point t writes back to the attention array is the tile of attnOf of the arrays the region finds. -/
theorem attn_written (c : Dev nD) (t : Fin cfg1.N) :
    (dat1 V c).flushed 5 t
      = ((cfg1.win 5).blk t).view.read (Elt Ideal) (attnOf (V c main_v4_0) (V c main_v4_1) (V c main_v4_2)) := by
  show (cfg1.win 5).cut (grid1.coords t) ((dat1 V c).after 5 t) = _
  rw [after1_5]
  unfold out1_5
  rw [View.canon_unit_zero zero2]
  simp only [View.ld_unit_zero (S := S16x512) zero2, View.ld_unit_zero (S := S16x1) zero2]
  obtain ⟨e00, e01, e10, e11, e20, e21, -, -, -, -, -, e50, e51⟩ := tile_index t
  funext j
  refine (attnTile_apply (iblk1 V c 2 t) (iblk1 V c 0 t) (iblk1 V c 1 t) j).trans ?_
  have hj0 : (j 0).val < 16 := (j 0).isLt
  have hj1 : (j 1).val < 512 := (j 1).isLt
  -- the tile of the scores is the tile of the result
  have h2 : ((cfg1.win 2).blk t).view.emb j = ((cfg1.win 5).blk t).view.emb j := by
    funext a; apply Fin.ext
    match a with
    | ⟨0, _⟩ => show win1_2.index t (0 : Fin 2) * 16 + 1 * (j 0).val = win1_5.index t (0 : Fin 2) * 16 + 1 * (j 0).val; omega
    | ⟨1, _⟩ => show win1_2.index t (1 : Fin 2) * 512 + 1 * (j 1).val = win1_5.index t (1 : Fin 2) * 512 + 1 * (j 1).val; omega
  -- row p of the two columns, read whole, is the row of the array index under the tile
  have h0 : ((cfg1.win 0).blk t).view.emb (ix2 (⟨(j 0).val, (j 0).isLt⟩ : Fin 16) (0 : Fin 1))
      = ix2 (⟨((((cfg1.win 5).blk t).view.emb j) 0).val, ((((cfg1.win 5).blk t).view.emb j) 0).isLt⟩ : Fin 16) (0 : Fin 1) := by
    funext a; apply Fin.ext
    match a with
    | ⟨0, _⟩ => show win1_0.index t (0 : Fin 2) * 16 + 1 * (j 0).val = win1_5.index t (0 : Fin 2) * 16 + 1 * (j 0).val; omega
    | ⟨1, _⟩ => show win1_0.index t (1 : Fin 2) * 1 + 1 * 0 = 0; omega
  have h1 : ((cfg1.win 1).blk t).view.emb (ix2 (⟨(j 0).val, (j 0).isLt⟩ : Fin 16) (0 : Fin 1))
      = ix2 (⟨((((cfg1.win 5).blk t).view.emb j) 0).val, ((((cfg1.win 5).blk t).view.emb j) 0).isLt⟩ : Fin 16) (0 : Fin 1) := by
    funext a; apply Fin.ext
    match a with
    | ⟨0, _⟩ => show win1_1.index t (0 : Fin 2) * 16 + 1 * (j 0).val = win1_5.index t (0 : Fin 2) * 16 + 1 * (j 0).val; omega
    | ⟨1, _⟩ => show win1_1.index t (1 : Fin 2) * 1 + 1 * 0 = 0; omega
  show _ = attnOf (V c main_v4_0) (V c main_v4_1) (V c main_v4_2) (((cfg1.win 5).blk t).view.emb j)
  refine attnOf_of_entries (V c main_v4_0) (V c main_v4_1) (V c main_v4_2) (((cfg1.win 5).blk t).view.emb j) ?_ ?_ ?_
  · show V c main_v4_0 (((cfg1.win 2).blk t).view.emb j) = V c main_v4_0 (((cfg1.win 5).blk t).view.emb j)
    rw [h2]
  · show V c main_v4_1 (((cfg1.win 0).blk t).view.emb (ix2 (⟨(j 0).val, (j 0).isLt⟩ : Fin 16) (0 : Fin 1))) = _
    rw [h0]
  · show V c main_v4_2 (((cfg1.win 1).blk t).view.emb (ix2 (⟨(j 0).val, (j 0).isLt⟩ : Fin 16) (0 : Fin 1))) = _
    rw [h1]

/-- An index of the attention array lies in tile t iff each coordinate lies in the tile's range on its axis. -/
theorem mem_attnTile (t : Fin cfg1.N) (i : S16x8192.Idx) :
    i ∈ ((cfg1.win 5).blk t).view.set ↔ ∀ a : Fin 2, win1_5.index t a * S16x512.size a ≤ (i a).val
      ∧ (i a).val < win1_5.index t a * S16x512.size a + S16x512.size a := by
  show i ∈ ((View.whole main_v5_1).slice (win1_5.rect t)).set ↔ _
  rw [View.set_slice_whole, Rect.mem_set_unit]
  exact Iff.rfl

/-- The tiles cover the attention array: position s lies in tile s / 512. -/
theorem attn_cover (i : S16x8192.Idx) :
    ∃ t : Fin cfg1.N, (cfg1.win 5).flush t = true ∧ i ∈ ((cfg1.win 5).blk t).view.set := by
  have hi0 : (i 0).val < 16 := (i 0).isLt
  have hi1 : (i 1).val < 8192 := (i 1).isLt
  have hN : cfg1.N = 16 := N_1
  let t : Fin cfg1.N := ⟨(i 1).val / 512, by rw [hN]; omega⟩
  obtain ⟨-, -, -, -, -, -, -, -, -, -, -, e50, e51⟩ := tile_index t
  have ht : t.val = (i 1).val / 512 := rfl
  refine ⟨t, flush1_5 t, ?_⟩
  rw [mem_attnTile]
  intro a
  match a with
  | ⟨0, _⟩ => show win1_5.index t (0 : Fin 2) * 16 ≤ (i 0).val ∧ (i 0).val < win1_5.index t (0 : Fin 2) * 16 + 16; omega
  | ⟨1, _⟩ => show win1_5.index t (1 : Fin 2) * 512 ≤ (i 1).val ∧ (i 1).val < win1_5.index t (1 : Fin 2) * 512 + 512; omega

/-- THE ATTENTION ARRAY after the whole grid: exp(scores - m) / l at every index. -/
theorem attn_final (c : Dev nD) :
    (dat1 V c).arrAt 5 cfg1.N = attnOf (V c main_v4_0) (V c main_v4_1) (V c main_v4_2) :=
  (dat1 V c).arrAt_eq_of_cover 5 (attnOf (V c main_v4_0) (V c main_v4_1) (V c main_v4_2))
    (fun t _ => attn_written V c t) attn_cover

/-- What grid point t writes back to the tiled array is the tile of tiledOf of the context the region finds. -/
theorem tiled_written (c : Dev nD) (t : Fin cfg1.N) :
    (dat1 V c).flushed 4 t = ((cfg1.win 4).blk t).view.read (Elt Ideal) (tiledOf (V c main_v4_3)) := by
  show (cfg1.win 4).cut (grid1.coords t) ((dat1 V c).after 4 t) = _
  rw [after1_4]
  unfold out1_4
  rw [View.canon_unit_zero zero3]
  simp only [View.ld_unit_zero (S := S16x256) zero2]
  obtain ⟨-, -, -, -, -, -, e30, e31, e40, e41, -, -, -⟩ := tile_index t
  funext j
  refine (tiledTile_apply (iblk1 V c 3 t) j).trans ?_
  have hj0 : (j 0).val < 16 := (j 0).isLt
  have hj1 : (j 1).val < 256 := (j 1).isLt
  -- entry (p, r) of the context, read whole, is the entry under the first two coordinates of the array index
  have h3 : ((cfg1.win 3).blk t).view.emb (ix2 (⟨(j 0).val, (j 0).isLt⟩ : Fin 16) (⟨(j 1).val, (j 1).isLt⟩ : Fin 256))
      = ix2 (⟨((((cfg1.win 4).blk t).view.emb j) 0).val, ((((cfg1.win 4).blk t).view.emb j) 0).isLt⟩ : Fin 16)
          (⟨((((cfg1.win 4).blk t).view.emb j) 1).val, ((((cfg1.win 4).blk t).view.emb j) 1).isLt⟩ : Fin 256) := by
    funext a; apply Fin.ext
    match a with
    | ⟨0, _⟩ => show win1_3.index t (0 : Fin 2) * 16 + 1 * (j 0).val = win1_4.index t (0 : Fin 3) * 16 + 1 * (j 0).val; omega
    | ⟨1, _⟩ => show win1_3.index t (1 : Fin 2) * 256 + 1 * (j 1).val = win1_4.index t (1 : Fin 3) * 256 + 1 * (j 1).val; omega
  show V c main_v4_3 (((cfg1.win 3).blk t).view.emb (ix2 (⟨(j 0).val, (j 0).isLt⟩ : Fin 16) (⟨(j 1).val, (j 1).isLt⟩ : Fin 256)))
    = tiledOf (V c main_v4_3) (((cfg1.win 4).blk t).view.emb j)
  rw [h3]
  rfl

/-- An index of the tiled array lies in tile t iff each coordinate lies in the tile's range on its axis. -/
theorem mem_tiledTile (t : Fin cfg1.N) (i : S16x256x8192.Idx) :
    i ∈ ((cfg1.win 4).blk t).view.set ↔ ∀ a : Fin 3, win1_4.index t a * S16x256x512.size a ≤ (i a).val
      ∧ (i a).val < win1_4.index t a * S16x256x512.size a + S16x256x512.size a := by
  show i ∈ ((View.whole main_v5_0).slice (win1_4.rect t)).set ↔ _
  rw [View.set_slice_whole, Rect.mem_set_unit]
  exact Iff.rfl

/-- The tiles cover the tiled array: position s lies in tile s / 512. -/
theorem tiled_cover (i : S16x256x8192.Idx) :
    ∃ t : Fin cfg1.N, (cfg1.win 4).flush t = true ∧ i ∈ ((cfg1.win 4).blk t).view.set := by
  have hi0 : (i 0).val < 16 := (i 0).isLt
  have hi1 : (i 1).val < 256 := (i 1).isLt
  have hi2 : (i 2).val < 8192 := (i 2).isLt
  have hN : cfg1.N = 16 := N_1
  let t : Fin cfg1.N := ⟨(i 2).val / 512, by rw [hN]; omega⟩
  obtain ⟨-, -, -, -, -, -, -, -, e40, e41, e42, -, -⟩ := tile_index t
  have ht : t.val = (i 2).val / 512 := rfl
  refine ⟨t, flush1_4 t, ?_⟩
  rw [mem_tiledTile]
  intro a
  match a with
  | ⟨0, _⟩ => show win1_4.index t (0 : Fin 3) * 16 ≤ (i 0).val ∧ (i 0).val < win1_4.index t (0 : Fin 3) * 16 + 16; omega
  | ⟨1, _⟩ => show win1_4.index t (1 : Fin 3) * 256 ≤ (i 1).val ∧ (i 1).val < win1_4.index t (1 : Fin 3) * 256 + 256; omega
  | ⟨2, _⟩ => show win1_4.index t (2 : Fin 3) * 512 ≤ (i 2).val ∧ (i 2).val < win1_4.index t (2 : Fin 3) * 512 + 512; omega

/-- THE TILED ARRAY after the whole grid: the context's entry (b, h) at every index (b, h, s). -/
theorem tiled_final (c : Dev nD) : (dat1 V c).arrAt 4 cfg1.N = tiledOf (V c main_v4_3) :=
  (dat1 V c).arrAt_eq_of_cover 4 (tiledOf (V c main_v4_3)) (fun t _ => tiled_written V c t) tiled_cover

end Region

end Cert.KernelIdeal.R1

end
-- ==== Proof.LibWholeStore.lean ====
/-
  Whole-buffer stores and loads.

  A rectangle at offset zero whose extent is the whole shape is the whole index set. So a store through it,
  made last, leaves exactly its payload whatever the buffer held and whatever was stored before; and a load
  through it reads the contents as they are.
-/
import Idealize.ShloMosaic.Lib.Pipeline.FrameBody
import Idealize.ShloMosaic.Lib.Pipeline.Value

noncomputable section

namespace Idealize.ShloMosaic.View

open Idealize.ShloMosaic

variable {sig : RefSig} {κ : Kind} {sp : Space} {S : Shape} {e : EltTy} {Val : EltTy → Type} [∀ e, Nonempty (Val e)]

/-- Every index lies in the rectangle at offset zero of full extent. -/
theorem mem_unit_zero_full {off : Fin S.rank → Nat} (h : off = fun _ => 0) (inb : ∀ a, off a + S.size a ≤ S.size a) (y : S.Idx) :
    y ∈ (Rect.unit off S.size inb).set := by
  subst h
  show y ∈ (Rect.whole S).set
  rw [Rect.set_whole]; exact Finset.mem_univ y

/-- A store of the whole buffer, made last, leaves its payload. -/
theorem read_writes_cons_unit_zero (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  rw [read_writes_eq_canon v f _ (fun y => ⟨_, List.mem_cons_self, mem_unit_zero_full h inb y⟩), canon_cons_unit_zero h inb w L]

/-- A load of the whole buffer reads its contents. -/
theorem readAt_unit_zero (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [readAt_eq_ld, ld_unit_zero h inb]

end Idealize.ShloMosaic.View

end
-- ==== Proof.R0Pieces.lean ====
/-
  What one grid point of the first launch leaves in its four output blocks, as pure terms of the blocks it read.

  The body stores each output block whole, and reads back whole blocks it stored earlier in the same point.
  So each block after the body is the last payload stored into it, with every read-back replaced by the
  payload it reads. Three cases: the first sequence tile of a batch tile (the running maximum, normalizer and
  context are reset to -inf, 0, 0 before they are read), a middle tile (they are read as the point before left
  them), and the last tile (as a middle tile, and then the context is divided by the normalizer).
-/
import proofs.«141412_j3788161155177_2_alg».proof.Proof.Gen.KernelIdeal.Frame
import proofs.«141412_j3788161155177_2_alg».proof.Proof.LibWholeStore

set_option maxRecDepth 16384

noncomputable section

namespace Cert.KernelIdeal.R0

open Cert.KernelIdeal Cert.KernelIdeal.Gen
open Idealize.ShloMosaic Idealize.ShloMosaic.TcCoe Idealize.ShloMosaic.Tactic Idealize.SL.Sem

variable {F : FTy → Type} [FloatOps F]

theorem zero2 : (![0, 0] : Fin 2 → Nat) = fun _ => 0 := by funext a; fin_cases a <;> rfl
theorem zero3 : (![0, 0, 0] : Fin 3 → Nat) = fun _ => 0 := by funext a; fin_cases a <;> rfl

theorem out0_A_4_eq (c : Dev nD) (i : grid0.Coords) (arg2 : Memref sig .tc .vmem S8x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S8x512x256 .f32) (harg5 : arg5.IsWhole) (arg6 : Memref sig .tc .vmem S8x512 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x256 .f32) (harg9 : arg9.IsWhole) (hc0 : cond0_0 i) (hc1 : ¬cond0_1 i)
    (x0 : Vec F S8x256 .f32) (x1 : Vec F S256x256 .bf16) (x2 : Vec F S1x256 .f32) (x3 : Vec F S8x512x256 .f32)  :
    out0_A_4 c i arg2 harg2 arg3 harg3 arg4 harg4 arg5 harg5 arg6 harg6 arg7 harg7 arg8 harg8 arg9 harg9 hc0 hc1 x0 x1 x2 x3 = k0_pay7 x3 x1 x0 x2 := by
  unfold out0_A_4 kernelRun0_A
  dsimp only
  sl_unfold_words
  refine (View.read_writes_cons_unit_zero VO0_4 _ zero2 _ _ _).trans ?_
  simp only [View.readAt_eq_ld, harg2.read_unread, harg3.read_unread, harg4.read_unread, harg5.read_unread, harg7.read_unread, harg8.read_unread, harg9.read_unread,
    View.ld_unit_zero (S := S8x256) zero2, View.ld_unit_zero (S := S256x256) zero2, View.ld_unit_zero (S := S1x256) zero2, View.ld_unit_zero (S := S8x1) zero2, View.ld_unit_zero (S := S8x512) zero2,
    View.ld_unit_zero (S := S8x512x256) zero3, View.readCov_unit_zero (S := S8x1) arg7.view zero2, View.readCov_unit_zero (S := S8x1) arg8.view zero2, View.readCov_unit_zero (S := S8x256) arg9.view zero2]

theorem out0_A_5_eq (c : Dev nD) (i : grid0.Coords) (arg2 : Memref sig .tc .vmem S8x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S8x512x256 .f32) (harg5 : arg5.IsWhole) (arg6 : Memref sig .tc .vmem S8x512 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x256 .f32) (harg9 : arg9.IsWhole) (hc0 : cond0_0 i) (hc1 : ¬cond0_1 i)
    (x0 : Vec F S8x256 .f32) (x1 : Vec F S256x256 .bf16) (x2 : Vec F S1x256 .f32) (x3 : Vec F S8x512x256 .f32)  :
    out0_A_5 c i arg2 harg2 arg3 harg3 arg4 harg4 arg5 harg5 arg6 harg6 arg7 harg7 arg8 harg8 arg9 harg9 hc0 hc1 x0 x1 x2 x3 = k0_pay8 x3 x1 x0 x2 k0_pay4 := by
  unfold out0_A_5 kernelRun0_A
  dsimp only
  sl_unfold_words
  refine (View.read_writes_cons_unit_zero VO0_5 _ zero2 _ _ _).trans ?_
  simp only [View.readAt_eq_ld, harg2.read_unread, harg3.read_unread, harg4.read_unread, harg5.read_unread, harg7.read_unread, harg8.read_unread, harg9.read_unread,
    View.ld_unit_zero (S := S8x256) zero2, View.ld_unit_zero (S := S256x256) zero2, View.ld_unit_zero (S := S1x256) zero2, View.ld_unit_zero (S := S8x1) zero2, View.ld_unit_zero (S := S8x512) zero2,
    View.ld_unit_zero (S := S8x512x256) zero3, View.readCov_unit_zero (S := S8x1) arg7.view zero2, View.readCov_unit_zero (S := S8x1) arg8.view zero2, View.readCov_unit_zero (S := S8x256) arg9.view zero2]

theorem out0_A_6_eq (c : Dev nD) (i : grid0.Coords) (arg2 : Memref sig .tc .vmem S8x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S8x512x256 .f32) (harg5 : arg5.IsWhole) (arg6 : Memref sig .tc .vmem S8x512 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x256 .f32) (harg9 : arg9.IsWhole) (hc0 : cond0_0 i) (hc1 : ¬cond0_1 i)
    (x0 : Vec F S8x256 .f32) (x1 : Vec F S256x256 .bf16) (x2 : Vec F S1x256 .f32) (x3 : Vec F S8x512x256 .f32)  :
    out0_A_6 c i arg2 harg2 arg3 harg3 arg4 harg4 arg5 harg5 arg6 harg6 arg7 harg7 arg8 harg8 arg9 harg9 hc0 hc1 x0 x1 x2 x3 = k0_pay1 (k0_pay9 x3 x1 x0 x2 k0_pay4 k0_pay4) (k0_pay10 x3 x1 x0 x2 k0_pay4) k0_pay5 := by
  unfold out0_A_6 kernelRun0_A
  dsimp only
  sl_unfold_words
  refine (View.read_writes_cons_unit_zero VO0_6 _ zero2 _ _ _).trans ?_
  simp only [View.readAt_eq_ld, harg2.read_unread, harg3.read_unread, harg4.read_unread, harg5.read_unread, harg7.read_unread, harg8.read_unread, harg9.read_unread,
    View.ld_unit_zero (S := S8x256) zero2, View.ld_unit_zero (S := S256x256) zero2, View.ld_unit_zero (S := S1x256) zero2, View.ld_unit_zero (S := S8x1) zero2, View.ld_unit_zero (S := S8x512) zero2,
    View.ld_unit_zero (S := S8x512x256) zero3, View.readCov_unit_zero (S := S8x1) arg7.view zero2, View.readCov_unit_zero (S := S8x1) arg8.view zero2, View.readCov_unit_zero (S := S8x256) arg9.view zero2]

theorem out0_A_7_eq (c : Dev nD) (i : grid0.Coords) (arg2 : Memref sig .tc .vmem S8x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S8x512x256 .f32) (harg5 : arg5.IsWhole) (arg6 : Memref sig .tc .vmem S8x512 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x256 .f32) (harg9 : arg9.IsWhole) (hc0 : cond0_0 i) (hc1 : ¬cond0_1 i)
    (x0 : Vec F S8x256 .f32) (x1 : Vec F S256x256 .bf16) (x2 : Vec F S1x256 .f32) (x3 : Vec F S8x512x256 .f32)  :
    out0_A_7 c i arg2 harg2 arg3 harg3 arg4 harg4 arg5 harg5 arg6 harg6 arg7 harg7 arg8 harg8 arg9 harg9 hc0 hc1 x0 x1 x2 x3 = k0_pay2 x3 (k0_pay9 x3 x1 x0 x2 k0_pay4 k0_pay4) (k0_pay10 x3 x1 x0 x2 k0_pay4) k0_pay6 := by
  unfold out0_A_7 kernelRun0_A
  dsimp only
  sl_unfold_words
  refine (View.read_writes_cons_unit_zero VO0_7 _ zero2 _ _ _).trans ?_
  simp only [View.readAt_eq_ld, harg2.read_unread, harg3.read_unread, harg4.read_unread, harg5.read_unread, harg7.read_unread, harg8.read_unread, harg9.read_unread,
    View.ld_unit_zero (S := S8x256) zero2, View.ld_unit_zero (S := S256x256) zero2, View.ld_unit_zero (S := S1x256) zero2, View.ld_unit_zero (S := S8x1) zero2, View.ld_unit_zero (S := S8x512) zero2,
    View.ld_unit_zero (S := S8x512x256) zero3, View.readCov_unit_zero (S := S8x1) arg7.view zero2, View.readCov_unit_zero (S := S8x1) arg8.view zero2, View.readCov_unit_zero (S := S8x256) arg9.view zero2]

theorem out0_B_4_eq (c : Dev nD) (i : grid0.Coords) (arg2 : Memref sig .tc .vmem S8x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S8x512x256 .f32) (harg5 : arg5.IsWhole) (arg6 : Memref sig .tc .vmem S8x512 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x256 .f32) (harg9 : arg9.IsWhole) (hc0 : ¬cond0_0 i) (hc1 : ¬cond0_1 i)
    (x0 : Vec F S8x256 .f32) (x1 : Vec F S256x256 .bf16) (x2 : Vec F S1x256 .f32) (x3 : Vec F S8x512x256 .f32) (xo5 : Vec F S8x1 .f32) (xo6 : Vec F S8x1 .f32) (xo7 : Vec F S8x256 .f32) :
    out0_B_4 c i arg2 harg2 arg3 harg3 arg4 harg4 arg5 harg5 arg6 harg6 arg7 harg7 arg8 harg8 arg9 harg9 hc0 hc1 x0 x1 x2 x3 xo5 xo6 xo7 = k0_pay7 x3 x1 x0 x2 := by
  unfold out0_B_4 kernelRun0_B
  dsimp only
  sl_unfold_words
  refine (View.read_writes_cons_unit_zero VO0_4 _ zero2 _ _ _).trans ?_
  simp only [View.readAt_eq_ld, harg2.read_unread, harg3.read_unread, harg4.read_unread, harg5.read_unread, harg7.read_unread, harg8.read_unread, harg9.read_unread,
    View.ld_unit_zero (S := S8x256) zero2, View.ld_unit_zero (S := S256x256) zero2, View.ld_unit_zero (S := S1x256) zero2, View.ld_unit_zero (S := S8x1) zero2, View.ld_unit_zero (S := S8x512) zero2,
    View.ld_unit_zero (S := S8x512x256) zero3, View.readCov_unit_zero (S := S8x1) arg7.view zero2, View.readCov_unit_zero (S := S8x1) arg8.view zero2, View.readCov_unit_zero (S := S8x256) arg9.view zero2]

theorem out0_B_5_eq (c : Dev nD) (i : grid0.Coords) (arg2 : Memref sig .tc .vmem S8x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S8x512x256 .f32) (harg5 : arg5.IsWhole) (arg6 : Memref sig .tc .vmem S8x512 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x256 .f32) (harg9 : arg9.IsWhole) (hc0 : ¬cond0_0 i) (hc1 : ¬cond0_1 i)
    (x0 : Vec F S8x256 .f32) (x1 : Vec F S256x256 .bf16) (x2 : Vec F S1x256 .f32) (x3 : Vec F S8x512x256 .f32) (xo5 : Vec F S8x1 .f32) (xo6 : Vec F S8x1 .f32) (xo7 : Vec F S8x256 .f32) :
    out0_B_5 c i arg2 harg2 arg3 harg3 arg4 harg4 arg5 harg5 arg6 harg6 arg7 harg7 arg8 harg8 arg9 harg9 hc0 hc1 x0 x1 x2 x3 xo5 xo6 xo7 = k0_pay8 x3 x1 x0 x2 xo5 := by
  unfold out0_B_5 kernelRun0_B
  dsimp only
  sl_unfold_words
  refine (View.read_writes_cons_unit_zero VO0_5 _ zero2 _ _ _).trans ?_
  simp only [View.readAt_eq_ld, harg2.read_unread, harg3.read_unread, harg4.read_unread, harg5.read_unread, harg7.read_unread, harg8.read_unread, harg9.read_unread,
    View.ld_unit_zero (S := S8x256) zero2, View.ld_unit_zero (S := S256x256) zero2, View.ld_unit_zero (S := S1x256) zero2, View.ld_unit_zero (S := S8x1) zero2, View.ld_unit_zero (S := S8x512) zero2,
    View.ld_unit_zero (S := S8x512x256) zero3, View.readCov_unit_zero (S := S8x1) arg7.view zero2, View.readCov_unit_zero (S := S8x1) arg8.view zero2, View.readCov_unit_zero (S := S8x256) arg9.view zero2]

theorem out0_B_6_eq (c : Dev nD) (i : grid0.Coords) (arg2 : Memref sig .tc .vmem S8x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S8x512x256 .f32) (harg5 : arg5.IsWhole) (arg6 : Memref sig .tc .vmem S8x512 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x256 .f32) (harg9 : arg9.IsWhole) (hc0 : ¬cond0_0 i) (hc1 : ¬cond0_1 i)
    (x0 : Vec F S8x256 .f32) (x1 : Vec F S256x256 .bf16) (x2 : Vec F S1x256 .f32) (x3 : Vec F S8x512x256 .f32) (xo5 : Vec F S8x1 .f32) (xo6 : Vec F S8x1 .f32) (xo7 : Vec F S8x256 .f32) :
    out0_B_6 c i arg2 harg2 arg3 harg3 arg4 harg4 arg5 harg5 arg6 harg6 arg7 harg7 arg8 harg8 arg9 harg9 hc0 hc1 x0 x1 x2 x3 xo5 xo6 xo7 = k0_pay1 (k0_pay9 x3 x1 x0 x2 xo5 xo5) (k0_pay10 x3 x1 x0 x2 xo5) xo6 := by
  unfold out0_B_6 kernelRun0_B
  dsimp only
  sl_unfold_words
  refine (View.read_writes_cons_unit_zero VO0_6 _ zero2 _ _ _).trans ?_
  simp only [View.readAt_eq_ld, harg2.read_unread, harg3.read_unread, harg4.read_unread, harg5.read_unread, harg7.read_unread, harg8.read_unread, harg9.read_unread,
    View.ld_unit_zero (S := S8x256) zero2, View.ld_unit_zero (S := S256x256) zero2, View.ld_unit_zero (S := S1x256) zero2, View.ld_unit_zero (S := S8x1) zero2, View.ld_unit_zero (S := S8x512) zero2,
    View.ld_unit_zero (S := S8x512x256) zero3, View.readCov_unit_zero (S := S8x1) arg7.view zero2, View.readCov_unit_zero (S := S8x1) arg8.view zero2, View.readCov_unit_zero (S := S8x256) arg9.view zero2]

theorem out0_B_7_eq (c : Dev nD) (i : grid0.Coords) (arg2 : Memref sig .tc .vmem S8x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S8x512x256 .f32) (harg5 : arg5.IsWhole) (arg6 : Memref sig .tc .vmem S8x512 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x256 .f32) (harg9 : arg9.IsWhole) (hc0 : ¬cond0_0 i) (hc1 : ¬cond0_1 i)
    (x0 : Vec F S8x256 .f32) (x1 : Vec F S256x256 .bf16) (x2 : Vec F S1x256 .f32) (x3 : Vec F S8x512x256 .f32) (xo5 : Vec F S8x1 .f32) (xo6 : Vec F S8x1 .f32) (xo7 : Vec F S8x256 .f32) :
    out0_B_7 c i arg2 harg2 arg3 harg3 arg4 harg4 arg5 harg5 arg6 harg6 arg7 harg7 arg8 harg8 arg9 harg9 hc0 hc1 x0 x1 x2 x3 xo5 xo6 xo7 = k0_pay2 x3 (k0_pay9 x3 x1 x0 x2 xo5 xo5) (k0_pay10 x3 x1 x0 x2 xo5) xo7 := by
  unfold out0_B_7 kernelRun0_B
  dsimp only
  sl_unfold_words
  refine (View.read_writes_cons_unit_zero VO0_7 _ zero2 _ _ _).trans ?_
  simp only [View.readAt_eq_ld, harg2.read_unread, harg3.read_unread, harg4.read_unread, harg5.read_unread, harg7.read_unread, harg8.read_unread, harg9.read_unread,
    View.ld_unit_zero (S := S8x256) zero2, View.ld_unit_zero (S := S256x256) zero2, View.ld_unit_zero (S := S1x256) zero2, View.ld_unit_zero (S := S8x1) zero2, View.ld_unit_zero (S := S8x512) zero2,
    View.ld_unit_zero (S := S8x512x256) zero3, View.readCov_unit_zero (S := S8x1) arg7.view zero2, View.readCov_unit_zero (S := S8x1) arg8.view zero2, View.readCov_unit_zero (S := S8x256) arg9.view zero2]

theorem out0_C_4_eq (c : Dev nD) (i : grid0.Coords) (arg2 : Memref sig .tc .vmem S8x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S8x512x256 .f32) (harg5 : arg5.IsWhole) (arg6 : Memref sig .tc .vmem S8x512 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x256 .f32) (harg9 : arg9.IsWhole) (hc0 : ¬cond0_0 i) (hc1 : cond0_1 i)
    (x0 : Vec F S8x256 .f32) (x1 : Vec F S256x256 .bf16) (x2 : Vec F S1x256 .f32) (x3 : Vec F S8x512x256 .f32) (xo5 : Vec F S8x1 .f32) (xo6 : Vec F S8x1 .f32) (xo7 : Vec F S8x256 .f32) :
    out0_C_4 c i arg2 harg2 arg3 harg3 arg4 harg4 arg5 harg5 arg6 harg6 arg7 harg7 arg8 harg8 arg9 harg9 hc0 hc1 x0 x1 x2 x3 xo5 xo6 xo7 = k0_pay7 x3 x1 x0 x2 := by
  unfold out0_C_4 kernelRun0_C
  dsimp only
  sl_unfold_words
  refine (View.read_writes_cons_unit_zero VO0_4 _ zero2 _ _ _).trans ?_
  simp only [View.readAt_eq_ld, harg2.read_unread, harg3.read_unread, harg4.read_unread, harg5.read_unread, harg7.read_unread, harg8.read_unread, harg9.read_unread,
    View.ld_unit_zero (S := S8x256) zero2, View.ld_unit_zero (S := S256x256) zero2, View.ld_unit_zero (S := S1x256) zero2, View.ld_unit_zero (S := S8x1) zero2, View.ld_unit_zero (S := S8x512) zero2,
    View.ld_unit_zero (S := S8x512x256) zero3, View.readCov_unit_zero (S := S8x1) arg7.view zero2, View.readCov_unit_zero (S := S8x1) arg8.view zero2, View.readCov_unit_zero (S := S8x256) arg9.view zero2]

theorem out0_C_5_eq (c : Dev nD) (i : grid0.Coords) (arg2 : Memref sig .tc .vmem S8x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S8x512x256 .f32) (harg5 : arg5.IsWhole) (arg6 : Memref sig .tc .vmem S8x512 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x256 .f32) (harg9 : arg9.IsWhole) (hc0 : ¬cond0_0 i) (hc1 : cond0_1 i)
    (x0 : Vec F S8x256 .f32) (x1 : Vec F S256x256 .bf16) (x2 : Vec F S1x256 .f32) (x3 : Vec F S8x512x256 .f32) (xo5 : Vec F S8x1 .f32) (xo6 : Vec F S8x1 .f32) (xo7 : Vec F S8x256 .f32) :
    out0_C_5 c i arg2 harg2 arg3 harg3 arg4 harg4 arg5 harg5 arg6 harg6 arg7 harg7 arg8 harg8 arg9 harg9 hc0 hc1 x0 x1 x2 x3 xo5 xo6 xo7 = k0_pay8 x3 x1 x0 x2 xo5 := by
  unfold out0_C_5 kernelRun0_C
  dsimp only
  sl_unfold_words
  refine (View.read_writes_cons_unit_zero VO0_5 _ zero2 _ _ _).trans ?_
  simp only [View.readAt_eq_ld, harg2.read_unread, harg3.read_unread, harg4.read_unread, harg5.read_unread, harg7.read_unread, harg8.read_unread, harg9.read_unread,
    View.ld_unit_zero (S := S8x256) zero2, View.ld_unit_zero (S := S256x256) zero2, View.ld_unit_zero (S := S1x256) zero2, View.ld_unit_zero (S := S8x1) zero2, View.ld_unit_zero (S := S8x512) zero2,
    View.ld_unit_zero (S := S8x512x256) zero3, View.readCov_unit_zero (S := S8x1) arg7.view zero2, View.readCov_unit_zero (S := S8x1) arg8.view zero2, View.readCov_unit_zero (S := S8x256) arg9.view zero2]

theorem out0_C_6_eq (c : Dev nD) (i : grid0.Coords) (arg2 : Memref sig .tc .vmem S8x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S8x512x256 .f32) (harg5 : arg5.IsWhole) (arg6 : Memref sig .tc .vmem S8x512 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x256 .f32) (harg9 : arg9.IsWhole) (hc0 : ¬cond0_0 i) (hc1 : cond0_1 i)
    (x0 : Vec F S8x256 .f32) (x1 : Vec F S256x256 .bf16) (x2 : Vec F S1x256 .f32) (x3 : Vec F S8x512x256 .f32) (xo5 : Vec F S8x1 .f32) (xo6 : Vec F S8x1 .f32) (xo7 : Vec F S8x256 .f32) :
    out0_C_6 c i arg2 harg2 arg3 harg3 arg4 harg4 arg5 harg5 arg6 harg6 arg7 harg7 arg8 harg8 arg9 harg9 hc0 hc1 x0 x1 x2 x3 xo5 xo6 xo7 = k0_pay1 (k0_pay9 x3 x1 x0 x2 xo5 xo5) (k0_pay10 x3 x1 x0 x2 xo5) xo6 := by
  unfold out0_C_6 kernelRun0_C
  dsimp only
  sl_unfold_words
  refine (View.read_writes_cons_unit_zero VO0_6 _ zero2 _ _ _).trans ?_
  simp only [View.readAt_eq_ld, harg2.read_unread, harg3.read_unread, harg4.read_unread, harg5.read_unread, harg7.read_unread, harg8.read_unread, harg9.read_unread,
    View.ld_unit_zero (S := S8x256) zero2, View.ld_unit_zero (S := S256x256) zero2, View.ld_unit_zero (S := S1x256) zero2, View.ld_unit_zero (S := S8x1) zero2, View.ld_unit_zero (S := S8x512) zero2,
    View.ld_unit_zero (S := S8x512x256) zero3, View.readCov_unit_zero (S := S8x1) arg7.view zero2, View.readCov_unit_zero (S := S8x1) arg8.view zero2, View.readCov_unit_zero (S := S8x256) arg9.view zero2]

theorem out0_C_7_eq (c : Dev nD) (i : grid0.Coords) (arg2 : Memref sig .tc .vmem S8x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S8x512x256 .f32) (harg5 : arg5.IsWhole) (arg6 : Memref sig .tc .vmem S8x512 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x256 .f32) (harg9 : arg9.IsWhole) (hc0 : ¬cond0_0 i) (hc1 : cond0_1 i)
    (x0 : Vec F S8x256 .f32) (x1 : Vec F S256x256 .bf16) (x2 : Vec F S1x256 .f32) (x3 : Vec F S8x512x256 .f32) (xo5 : Vec F S8x1 .f32) (xo6 : Vec F S8x1 .f32) (xo7 : Vec F S8x256 .f32) :
    out0_C_7 c i arg2 harg2 arg3 harg3 arg4 harg4 arg5 harg5 arg6 harg6 arg7 harg7 arg8 harg8 arg9 harg9 hc0 hc1 x0 x1 x2 x3 xo5 xo6 xo7 = k0_pay3 (k0_pay2 x3 (k0_pay9 x3 x1 x0 x2 xo5 xo5) (k0_pay10 x3 x1 x0 x2 xo5) xo7) (k0_pay1 (k0_pay9 x3 x1 x0 x2 xo5 xo5) (k0_pay10 x3 x1 x0 x2 xo5) xo6) := by
  unfold out0_C_7 kernelRun0_C
  dsimp only
  sl_unfold_words
  refine (View.read_writes_cons_unit_zero VO0_7 _ zero2 _ _ _).trans ?_
  simp only [View.readAt_eq_ld, harg2.read_unread, harg3.read_unread, harg4.read_unread, harg5.read_unread, harg7.read_unread, harg8.read_unread, harg9.read_unread,
    View.ld_unit_zero (S := S8x256) zero2, View.ld_unit_zero (S := S256x256) zero2, View.ld_unit_zero (S := S1x256) zero2, View.ld_unit_zero (S := S8x1) zero2, View.ld_unit_zero (S := S8x512) zero2,
    View.ld_unit_zero (S := S8x512x256) zero3, View.readCov_unit_zero (S := S8x1) arg7.view zero2, View.readCov_unit_zero (S := S8x1) arg8.view zero2, View.readCov_unit_zero (S := S8x256) arg9.view zero2]

end Cert.KernelIdeal.R0

end
-- ==== Proof.R0Payload.lean ====
/-
  The first launch's body arithmetic, read at an index, on the extended reals.

  For one grid point, with the blocks it reads — hp (8×256: the projected hidden rows of the batch tile), wt (256×256:
  W2 transposed), v (1×256) and e (8×512×256: the encoder rows of the tile) — and the running maximum, normalizer and
  context of the 8 rows as the point finds them:
    tile score  sc[r,q]  = Σ_k tanh(hp[r,k] + Σ_h e[r,q,h]·wt[h,k])·v[0,k]
    new maximum m'[r]    = max(m[r], max_q sc[r,q])
    rescale     α[r]     = exp(m[r] − m'[r]),     weights p[r,q] = exp(sc[r,q] − m'[r])
    normalizer  l'[r]    = α[r]·l[r] + Σ_q p[r,q]
    context     c'[r,h]  = α[r]·c[r,h] + Σ_q p[r,q]·e[r,q,h]       and at the last tile c'[r,h] / l'[r].
  Reshapes and broadcasts only move indices; a reduction along one axis is a sum (or a fold of max) over that axis's
  coordinates; a matrix product into a zero accumulator is the sum over the contracted axis.
-/
import proofs.«141412_j3788161155177_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.R0

open Cert.KernelIdeal Cert.KernelIdeal.Gen
open Idealize.ShloMosaic Idealize.ShloMosaic.ValueIdx

/-! ## Reshapes and broadcasts at an index -/

section Layout
variable {α : Type}

/-- [8] → [8,1]. -/
theorem cast_8_8x1 (x : S8.Idx → α) (h : S8.ShapeCasts S8x1) (r : Fin 8) :
    shapeCast S8x1 x h (ix2 r 0) = x (ix1 r) :=
  shapeCast_apply x h _ _ (by rw [Shape.rowMajor_val_one, Shape.rowMajor_val_two]; show r.val = r.val * 1 + 0; omega)

/-- [8,1] → [8,512]. -/
theorem bcast_8x1_8x512 (x : S8x1.Idx → α) (h : S8x1.Broadcasts S8x512) (r : Fin 8) (q : Fin 512) :
    broadcastTo S8x512 x h (ix2 r q) = x (ix2 r 0) :=
  broadcastTo_apply x h _ _ (fun a => by match a with | ⟨0, _⟩ => rfl | ⟨1, _⟩ => rfl)

/-- [8,1] → [8,256]. -/
theorem bcast_8x1_8x256 (x : S8x1.Idx → α) (h : S8x1.Broadcasts S8x256) (r : Fin 8) (k : Fin 256) :
    broadcastTo S8x256 x h (ix2 r k) = x (ix2 r 0) :=
  broadcastTo_apply x h _ _ (fun a => by match a with | ⟨0, _⟩ => rfl | ⟨1, _⟩ => rfl)

/-- [8,512] → [8,512,1]. -/
theorem cast_8x512_8x512x1 (x : S8x512.Idx → α) (h : S8x512.ShapeCasts S8x512x1) (r : Fin 8) (q : Fin 512) :
    shapeCast S8x512x1 x h (ix3 r q 0) = x (ix2 r q) :=
  shapeCast_apply x h _ _ (by rw [Shape.rowMajor_val_two, Shape.rowMajor_val_three]; show r.val * 512 + q.val = (r.val * 512 + q.val) * 1 + 0; omega)

/-- [8,512,1] → [8,512,256]. -/
theorem bcast_8x512x1_8x512x256 (x : S8x512x1.Idx → α) (h : S8x512x1.Broadcasts S8x512x256) (r : Fin 8) (q : Fin 512) (k : Fin 256) :
    broadcastTo S8x512x256 x h (ix3 r q k) = x (ix3 r q 0) :=
  broadcastTo_apply x h _ _ (fun a => by match a with | ⟨0, _⟩ => rfl | ⟨1, _⟩ => rfl | ⟨2, _⟩ => rfl)

/-- [8,256] → [8,1,256]. -/
theorem cast_8x256_8x1x256 (x : S8x256.Idx → α) (h : S8x256.ShapeCasts S8x1x256) (r : Fin 8) (k : Fin 256) :
    shapeCast S8x1x256 x h (ix3 r 0 k) = x (ix2 r k) :=
  shapeCast_apply x h _ _ (by rw [Shape.rowMajor_val_two, Shape.rowMajor_val_three]; show r.val * 256 + k.val = (r.val * 1 + 0) * 256 + k.val; omega)

/-- [8,1,256] → [8,512,256]. -/
theorem bcast_8x1x256_8x512x256 (x : S8x1x256.Idx → α) (h : S8x1x256.Broadcasts S8x512x256) (r : Fin 8) (q : Fin 512) (k : Fin 256) :
    broadcastTo S8x512x256 x h (ix3 r q k) = x (ix3 r 0 k) :=
  broadcastTo_apply x h _ _ (fun a => by match a with | ⟨0, _⟩ => rfl | ⟨1, _⟩ => rfl | ⟨2, _⟩ => rfl)

/-- [1,256] → [1,1,256]. -/
theorem cast_1x256_1x1x256 (x : S1x256.Idx → α) (h : S1x256.ShapeCasts S1x1x256) (k : Fin 256) :
    shapeCast S1x1x256 x h (ix3 0 0 k) = x (ix2 0 k) :=
  shapeCast_apply x h _ _ (by rw [Shape.rowMajor_val_two, Shape.rowMajor_val_three]; show 0 * 256 + k.val = (0 * 1 + 0) * 256 + k.val; omega)

/-- [1,1,256] → [8,512,256]. -/
theorem bcast_1x1x256_8x512x256 (x : S1x1x256.Idx → α) (h : S1x1x256.Broadcasts S8x512x256) (r : Fin 8) (q : Fin 512) (k : Fin 256) :
    broadcastTo S8x512x256 x h (ix3 r q k) = x (ix3 0 0 k) :=
  broadcastTo_apply x h _ _ (fun a => by match a with | ⟨0, _⟩ => rfl | ⟨1, _⟩ => rfl | ⟨2, _⟩ => rfl)

/-- Row r·512+q of the flattened tile is position (r, q). -/
theorem row_lt (r : Fin 8) (q : Fin 512) : r.val * 512 + q.val < 4096 := by omega

/-- [8,512,256] → [4096,256]. -/
theorem cast_flatten (x : S8x512x256.Idx → α) (h : S8x512x256.ShapeCasts S4096x256) (r : Fin 8) (q : Fin 512) (k : Fin 256) :
    shapeCast S4096x256 x h (ix2 ⟨r.val * 512 + q.val, row_lt r q⟩ k) = x (ix3 r q k) :=
  shapeCast_apply x h _ _ (by rw [Shape.rowMajor_val_two, Shape.rowMajor_val_three]; show (r.val * 512 + q.val) * 256 + k.val = (r.val * 512 + q.val) * 256 + k.val; rfl)

/-- [4096,256] → [8,512,256]. -/
theorem cast_unflatten (x : S4096x256.Idx → α) (h : S4096x256.ShapeCasts S8x512x256) (r : Fin 8) (q : Fin 512) (k : Fin 256) :
    shapeCast S8x512x256 x h (ix3 r q k) = x (ix2 ⟨r.val * 512 + q.val, row_lt r q⟩ k) :=
  shapeCast_apply x h _ _ (by rw [Shape.rowMajor_val_two, Shape.rowMajor_val_three]; show (r.val * 512 + q.val) * 256 + k.val = (r.val * 512 + q.val) * 256 + k.val; rfl)

end Layout

/-! ## The matrix product at an index -/

/-- The left operand's row is the result's row. -/
theorem lhs_row (i : S4096x256.Idx) (q : dot_S4096x256_S256x256_S4096x256_1_0_0_1_n_n.contr.Idx) : (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl

/-- The right operand's column is the result's column. -/
theorem rhs_col (i : S4096x256.Idx) (q : dot_S4096x256_S256x256_S4096x256_1_0_0_1_n_n.contr.Idx) : (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- Row a of the left operand against column k of the right one. -/
theorem matmul_at (l : FVec Ideal S4096x256 .bf16) (w : FVec Ideal S256x256 .bf16) (a : Fin 4096) (k : Fin 256) :
    matmul dot_S4096x256_S256x256_S4096x256_1_0_0_1_n_n none l w (constant S4096x256 .f32 0x00000000#32) (ix2 a k)
      = ∑ h : Fin 256, l (ix2 a h) * w (ix2 h k) := by
  simp only [matmul]
  rw [Ideal.matmul_constant_zero_apply, ← Equiv.sum_comp (ValueIdx.contrEquiv1 dot_S4096x256_S256x256_S4096x256_1_0_0_1_n_n 256 rfl rfl).symm]
  refine Finset.sum_congr rfl fun h _ => ?_
  have hk := ValueIdx.contrEquiv1_symm_val dot_S4096x256_S256x256_S4096x256_1_0_0_1_n_n 256 rfl rfl h
  have el : dot_S4096x256_S256x256_S4096x256_1_0_0_1_n_n.lhsIdx (ix2 a k) ((ValueIdx.contrEquiv1 dot_S4096x256_S256x256_S4096x256_1_0_0_1_n_n 256 rfl rfl).symm h) = ix2 a h := funext fun x => Fin.ext (by
    match x with
    | ⟨0, _⟩ => exact lhs_row _ _
    | ⟨1, _⟩ => exact (dot_S4096x256_S256x256_S4096x256_1_0_0_1_n_n.lhsIdx_val_of_single rfl _ _).trans hk)
  have er : dot_S4096x256_S256x256_S4096x256_1_0_0_1_n_n.rhsIdx (ix2 a k) ((ValueIdx.contrEquiv1 dot_S4096x256_S256x256_S4096x256_1_0_0_1_n_n 256 rfl rfl).symm h) = ix2 h k := funext fun x => Fin.ext (by
    match x with
    | ⟨0, _⟩ => exact (dot_S4096x256_S256x256_S4096x256_1_0_0_1_n_n.rhsIdx_val_of_single rfl _ _).trans hk
    | ⟨1, _⟩ => exact rhs_col _ _)
  rw [el, er]

/-! ## The index a reduction reads: the kept coordinates with the reduced one inserted -/

theorem lift_lane (hr : S8x512x256.Reduces [2] S8x512) (r : Fin 8) (q : Fin 512) (k : Fin 256) : hr.lift (ix2 r q) k = ix3 r q k :=
  funext fun a => Fin.ext (by match a with | ⟨0, _⟩ => rfl | ⟨1, _⟩ => rfl | ⟨2, _⟩ => rfl)

theorem lift_row (hr : S8x512.Reduces [1] S8) (r : Fin 8) (q : Fin 512) : hr.lift (ix1 r) q = ix2 r q :=
  funext fun a => Fin.ext (by match a with | ⟨0, _⟩ => rfl | ⟨1, _⟩ => rfl)

theorem lift_seq (hr : S8x512x256.Reduces [1] S8x256) (r : Fin 8) (h : Fin 256) (q : Fin 512) : hr.lift (ix2 r h) q = ix3 r q h :=
  funext fun a => Fin.ext (by match a with | ⟨0, _⟩ => rfl | ⟨1, _⟩ => rfl | ⟨2, _⟩ => rfl)

/-! ## The payloads at an index -/

section Payloads

variable (e : FVec Ideal S8x512x256 .f32) (wt : FVec Ideal S256x256 .bf16) (hp : FVec Ideal S8x256 .f32) (v : FVec Ideal S1x256 .f32)

/-- The tile's scores. -/
theorem tile_score_apply (r : Fin 8) (q : Fin 512) :
    k0_pay7 (F := Ideal) e wt hp v (ix2 r q)
      = ∑ k : Fin 256, Ideal.tanh (hp (ix2 r k) + ∑ h : Fin 256, e (ix3 r q h) * wt (ix2 h k)) * v (ix2 0 k) := by
  unfold k0_pay7
  dsimp only
  refine (Ideal.multiReduction_add_single _ _ _ _ _ (ix2 r q)).trans ?_
  refine Finset.sum_congr rfl fun (k : Fin 256) _ => ?_
  rw [lift_lane]
  show Ideal.tanh (broadcastTo S8x512x256 (shapeCast S8x1x256 (shapeCast S8x256 hp _) _) _ (ix3 r q k)
      + shapeCast S8x512x256 (matmul dot_S4096x256_S256x256_S4096x256_1_0_0_1_n_n none (truncf .bf16 (shapeCast S4096x256 e _) _) (shapeCast S256x256 wt _) (constant S4096x256 .f32 0x00000000#32)) _ (ix3 r q k))
      * broadcastTo S8x512x256 (shapeCast S1x1x256 v _) _ (ix3 r q k) = _
  rw [bcast_8x1x256_8x512x256, cast_8x256_8x1x256, shapeCast_self, cast_unflatten, matmul_at, bcast_1x1x256_8x512x256, cast_1x256_1x1x256, shapeCast_self]
  refine congrArg (fun z => Ideal.tanh (hp (ix2 r k) + z) * v (ix2 0 k)) (Finset.sum_congr rfl fun h _ => ?_)
  show shapeCast S4096x256 e _ (ix2 ⟨r.val * 512 + q.val, row_lt r q⟩ h) * wt (ix2 h k) = _
  rw [cast_flatten]

variable (m l : FVec Ideal S8x1 .f32) (ctx : FVec Ideal S8x256 .f32)

/-- The new running maximum. -/
theorem new_max_apply (r : Fin 8) :
    k0_pay8 (F := Ideal) e wt hp v m (ix2 r 0)
      = max (m (ix2 r 0)) ((Finset.univ : Finset (Fin 512)).fold max (Ideal.ofBits .f32 0xFF800000#32) fun q => k0_pay7 (F := Ideal) e wt hp v (ix2 r q)) := by
  unfold k0_pay8
  dsimp only
  show max (shapeCast S8x1 m _ (ix2 r 0)) (shapeCast S8x1 (multiReduction .maximumf [1] S8 (k0_pay7 (F := Ideal) e wt hp v) 0xFF800000#32 _ _ _) _ (ix2 r 0)) = _
  rw [shapeCast_self, cast_8_8x1]
  refine congrArg (max (m (ix2 r 0))) ?_
  refine (Ideal.multiReduction_maximumf_single _ _ _ _ _ (ix1 r)).trans ?_
  exact congrArg (fun f => Finset.fold max (Ideal.ofBits .f32 0xFF800000#32) f Finset.univ) (funext fun q => congrArg (k0_pay7 (F := Ideal) e wt hp v) (lift_row _ r q))

/-- The rescaling factor of what is kept. -/
theorem rescale_apply (m' : FVec Ideal S8x1 .f32) (r : Fin 8) :
    k0_pay9 (F := Ideal) e wt hp v m m' (ix2 r 0) = Ideal.exp (m' (ix2 r 0) - k0_pay8 (F := Ideal) e wt hp v m (ix2 r 0)) := by
  unfold k0_pay9
  show Ideal.exp (shapeCast S8x1 m' _ (ix2 r 0) - _) = _
  rw [shapeCast_self]

/-- The tile's unnormalized weights. -/
theorem weight_apply (r : Fin 8) (q : Fin 512) :
    k0_pay10 (F := Ideal) e wt hp v m (ix2 r q)
      = Ideal.exp (k0_pay7 (F := Ideal) e wt hp v (ix2 r q) - k0_pay8 (F := Ideal) e wt hp v m (ix2 r 0)) := by
  unfold k0_pay10
  show Ideal.exp (_ - broadcastTo S8x512 (k0_pay8 (F := Ideal) e wt hp v m) _ (ix2 r q)) = _
  rw [bcast_8x1_8x512]

/-- The new normalizer. -/
theorem new_norm_apply (a : FVec Ideal S8x1 .f32) (p : FVec Ideal S8x512 .f32) (r : Fin 8) :
    k0_pay1 (F := Ideal) a p l (ix2 r 0) = a (ix2 r 0) * l (ix2 r 0) + ∑ q : Fin 512, p (ix2 r q) := by
  unfold k0_pay1
  dsimp only
  show a (ix2 r 0) * shapeCast S8x1 l _ (ix2 r 0) + shapeCast S8x1 (multiReduction .add [1] S8 p 0x00000000#32 _ _ _) _ (ix2 r 0) = _
  rw [shapeCast_self, cast_8_8x1]
  refine congrArg (a (ix2 r 0) * l (ix2 r 0) + ·) ?_
  exact (Ideal.multiReduction_add_single _ _ _ _ _ (ix1 r)).trans (Finset.sum_congr rfl fun q _ => congrArg p (lift_row _ r q))

/-- The new context. -/
theorem new_ctx_apply (a : FVec Ideal S8x1 .f32) (p : FVec Ideal S8x512 .f32) (r : Fin 8) (h : Fin 256) :
    k0_pay2 (F := Ideal) e a p ctx (ix2 r h) = a (ix2 r 0) * ctx (ix2 r h) + ∑ q : Fin 512, p (ix2 r q) * e (ix3 r q h) := by
  unfold k0_pay2
  dsimp only
  show broadcastTo S8x256 a _ (ix2 r h) * shapeCast S8x256 ctx _ (ix2 r h) + multiReduction .add [1] S8x256 (mulf (broadcastTo S8x512x256 (shapeCast S8x512x1 p _) _) e) 0x00000000#32 _ _ _ (ix2 r h) = _
  rw [bcast_8x1_8x256, shapeCast_self]
  refine congrArg (a (ix2 r 0) * ctx (ix2 r h) + ·) ?_
  refine (Ideal.multiReduction_add_single _ _ _ _ _ (ix2 r h)).trans ?_
  refine Finset.sum_congr rfl fun (q : Fin 512) _ => ?_
  rw [lift_seq]
  show broadcastTo S8x512x256 (shapeCast S8x512x1 p _) _ (ix3 r q h) * e (ix3 r q h) = _
  rw [bcast_8x512x1_8x512x256, cast_8x512_8x512x1]

/-- The last tile's division. -/
theorem normalize_apply (r : Fin 8) (h : Fin 256) :
    k0_pay3 (F := Ideal) ctx l (ix2 r h) = Ideal.div (ctx (ix2 r h)) (l (ix2 r 0)) := by
  unfold k0_pay3
  show Ideal.div (shapeCast S8x256 ctx _ (ix2 r h)) (broadcastTo S8x256 (shapeCast S8x1 l _) _ (ix2 r h)) = _
  rw [shapeCast_self, bcast_8x1_8x256, shapeCast_self]

/-- The reset values. -/
theorem reset_max_apply (i : S8x1.Idx) : k0_pay4 (F := Ideal) i = Ideal.ofBits .f32 0xFF800000#32 := rfl
theorem reset_norm_apply (i : S8x1.Idx) : k0_pay5 (F := Ideal) i = Ideal.ofBits .f32 0x00000000#32 := rfl
theorem reset_ctx_apply (i : S8x256.Idx) : k0_pay6 (F := Ideal) i = Ideal.ofBits .f32 0x00000000#32 := rfl

end Payloads

end Cert.KernelIdeal.R0

end
-- ==== Proof.R0Blocks.lean ====
/-
  The first kernel's tiles, read off the arrays the region finds.

  The first kernel runs over a 2 × 16 grid: grid point t works on batch tile t / 16 (8 consecutive batch rows) and on
  sequence tile t % 16 (512 consecutive positions). At that point it reads rows 8·(t/16) … 8·(t/16)+7 of the projected
  hidden state, the whole of the transposed second weight matrix and of the scoring vector, and the encoder rows of
  the 8 × 512 positions of the tile. So the entry (r, q) of the tile's scores,
      Σ_k tanh(hp[r,k] + Σ_h e[r,q,h]·wt[h,k])·v[0,k]    over the blocks,
  is the score of batch row b = 8·(t/16) + r at position s = 512·(t%16) + q over the whole arrays: every entry a block
  holds is the array's entry at the block's offset plus the coordinate inside the block.
-/
import proofs.«141412_j3788161155177_2_alg».proof.Proof.Gen.KernelIdeal.Frame
import proofs.«141412_j3788161155177_2_alg».proof.Proof.R0Payload
import Idealize.ShloMosaic.Lib.Pipeline.Value
import Idealize.ShloMosaic.Lib.ValueIdx

noncomputable section

namespace Cert.KernelIdeal.R0

open Cert.KernelIdeal Cert.KernelIdeal.Gen Idealize.ShloMosaic Idealize.ShloMosaic.TcCoe Idealize.SL.Sem
open Idealize.ShloMosaic.Pipeline (Dat)
open Idealize.ShloMosaic.ValueIdx

/-! ## The score of one position, over the whole arrays -/

/-- The score of position s in batch row b, from the projected hidden state hp, the transposed second weight matrix wt,
    the scoring vector v and the encoder outputs e. -/
def kscore (hp : S16x256.Idx → EReal) (wt : S256x256.Idx → EReal) (v : S1x256.Idx → EReal) (e : S16x8192x256.Idx → EReal)
    (b : Fin 16) (s : Fin 8192) : EReal :=
  ∑ k : Fin 256, Ideal.tanh (hp (ix2 b k) + ∑ h : Fin 256, e (ix3 b s h) * wt (ix2 h k)) * v (ix2 0 k)

/-- The score formula over blocks whose entries are the arrays' entries of row b and position s is the score there. -/
theorem kscore_of_entries (hp : S16x256.Idx → EReal) (wt : S256x256.Idx → EReal) (v : S1x256.Idx → EReal)
    (e : S16x8192x256.Idx → EReal) (b : Fin 16) (s : Fin 8192)
    (hpB : S8x256.Idx → EReal) (wtB : S256x256.Idx → EReal) (vB : S1x256.Idx → EReal) (eB : S8x512x256.Idx → EReal)
    (r : Fin 8) (q : Fin 512)
    (h0 : ∀ k : Fin 256, hpB (ix2 r k) = hp (ix2 b k)) (h1 : ∀ h k : Fin 256, wtB (ix2 h k) = wt (ix2 h k))
    (h2 : ∀ k : Fin 256, vB (ix2 0 k) = v (ix2 0 k)) (h3 : ∀ h : Fin 256, eB (ix3 r q h) = e (ix3 b s h)) :
    (∑ k : Fin 256, Ideal.tanh (hpB (ix2 r k) + ∑ h : Fin 256, eB (ix3 r q h) * wtB (ix2 h k)) * vB (ix2 0 k))
      = kscore hp wt v e b s := by
  unfold kscore
  refine Finset.sum_congr rfl fun k _ => ?_
  rw [h0 k, h2 k]
  refine congrArg (fun z => Ideal.tanh (hp (ix2 b k) + z) * v (ix2 0 k)) (Finset.sum_congr rfl fun h _ => ?_)
  rw [h3 h, h1 h k]

/-! ## Where each window's tile sits, and what its blocks hold -/

section Region

variable (V : (c : Dev nD) → (b : Ref sig .tc) → Buf (Elt Ideal) ((c : Thread nD τ).loc b))

/-- Where each window's tile sits at grid point t: the projected hidden state and the three running results move with
    the batch tile t / 16 only; the encoder outputs and the scores with the batch tile and the sequence tile t % 16; the
    weight matrix and the scoring vector are read whole. -/
theorem tile_index0 : ∀ t : Fin cfg0.N,
    win0_0.index t (0 : Fin 2) = t.val / 16 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 16 ∧ win0_3.index t (1 : Fin 3) = t.val % 16 ∧ win0_3.index t (2 : Fin 3) = 0
    ∧ win0_4.index t (0 : Fin 2) = t.val / 16 ∧ win0_4.index t (1 : Fin 2) = t.val % 16
    ∧ win0_5.index t (0 : Fin 2) = t.val / 16 ∧ win0_5.index t (1 : Fin 2) = 0
    ∧ win0_6.index t (0 : Fin 2) = t.val / 16 ∧ win0_6.index t (1 : Fin 2) = 0
    ∧ win0_7.index t (0 : Fin 2) = t.val / 16 ∧ win0_7.index t (1 : Fin 2) = 0 :=
  (by decide +kernel : ∀ t : Fin grid0.N, _)

/-- Row r of the projected hidden state's block is row 8·(t/16) + r of the array. -/
theorem hp_block (c : Dev nD) (t : Fin cfg0.N) (r : Fin 8) (k : Fin 256) (b : Fin 16) (hb : b.val = 8 * (t.val / 16) + r.val) :
    iblk0 V c 0 t (ix2 r k) = V c main_v1 (ix2 b k) := by
  obtain ⟨e00, e01, -⟩ := tile_index0 t
  show V c main_v1 (((cfg0.win 0).blk t).view.emb (ix2 r k)) = V c main_v1 (ix2 b k)
  refine congrArg (V c main_v1) (funext fun a => Fin.ext ?_)
  match a with
  | ⟨0, _⟩ => show win0_0.index t (0 : Fin 2) * 8 + 1 * r.val = b.val; omega
  | ⟨1, _⟩ => show win0_0.index t (1 : Fin 2) * 256 + 1 * k.val = k.val; omega

/-- The weight matrix's block is the whole array. -/
theorem wt_block (c : Dev nD) (t : Fin cfg0.N) (h k : Fin 256) : iblk0 V c 1 t (ix2 h k) = V c main_v3 (ix2 h k) := by
  obtain ⟨-, -, e10, e11, -⟩ := tile_index0 t
  show V c main_v3 (((cfg0.win 1).blk t).view.emb (ix2 h k)) = V c main_v3 (ix2 h k)
  refine congrArg (V c main_v3) (funext fun a => Fin.ext ?_)
  match a with
  | ⟨0, _⟩ => show win0_1.index t (0 : Fin 2) * 256 + 1 * h.val = h.val; omega
  | ⟨1, _⟩ => show win0_1.index t (1 : Fin 2) * 256 + 1 * k.val = k.val; omega

/-- The scoring vector's block is the whole array. -/
theorem v_block (c : Dev nD) (t : Fin cfg0.N) (k : Fin 256) : iblk0 V c 2 t (ix2 0 k) = V c main_arg4 (ix2 0 k) := by
  obtain ⟨-, -, -, -, e20, e21, -⟩ := tile_index0 t
  show V c main_arg4 (((cfg0.win 2).blk t).view.emb (ix2 0 k)) = V c main_arg4 (ix2 0 k)
  refine congrArg (V c main_arg4) (funext fun a => Fin.ext ?_)
  match a with
  | ⟨0, _⟩ => show win0_2.index t (0 : Fin 2) * 1 + 1 * 0 = 0; omega
  | ⟨1, _⟩ => show win0_2.index t (1 : Fin 2) * 256 + 1 * k.val = k.val; omega

/-- Entry (r, q, h) of the encoder block is the encoder's entry of row 8·(t/16) + r at position 512·(t%16) + q. -/
theorem enc_block (c : Dev nD) (t : Fin cfg0.N) (r : Fin 8) (q : Fin 512) (h : Fin 256) (b : Fin 16) (s : Fin 8192)
    (hb : b.val = 8 * (t.val / 16) + r.val) (hs : s.val = 512 * (t.val % 16) + q.val) :
    iblk0 V c 3 t (ix3 r q h) = V c main_arg1 (ix3 b s h) := by
  obtain ⟨-, -, -, -, -, -, e30, e31, e32, -⟩ := tile_index0 t
  show V c main_arg1 (((cfg0.win 3).blk t).view.emb (ix3 r q h)) = V c main_arg1 (ix3 b s h)
  refine congrArg (V c main_arg1) (funext fun a => Fin.ext ?_)
  match a with
  | ⟨0, _⟩ => show win0_3.index t (0 : Fin 3) * 8 + 1 * r.val = b.val; omega
  | ⟨1, _⟩ => show win0_3.index t (1 : Fin 3) * 512 + 1 * q.val = s.val; omega
  | ⟨2, _⟩ => show win0_3.index t (2 : Fin 3) * 256 + 1 * h.val = h.val; omega

/-- The tile's score at (r, q) is the score of batch row 8·(t/16) + r at position 512·(t%16) + q. -/
theorem tile_score_block (c : Dev nD) (t : Fin cfg0.N) (r : Fin 8) (q : Fin 512) (b : Fin 16) (s : Fin 8192)
    (hb : b.val = 8 * (t.val / 16) + r.val) (hs : s.val = 512 * (t.val % 16) + q.val) :
    k0_pay7 (F := Ideal) (iblk0 V c 3 t) (iblk0 V c 1 t) (iblk0 V c 0 t) (iblk0 V c 2 t) (ix2 r q)
      = kscore (V c main_v1) (V c main_v3) (V c main_arg4) (V c main_arg1) b s :=
  (tile_score_apply (iblk0 V c 3 t) (iblk0 V c 1 t) (iblk0 V c 0 t) (iblk0 V c 2 t) r q).trans
    (kscore_of_entries (V c main_v1) (V c main_v3) (V c main_arg4) (V c main_arg1) b s
      (iblk0 V c 0 t) (iblk0 V c 1 t) (iblk0 V c 2 t) (iblk0 V c 3 t) r q
      (fun k => hp_block V c t r k b hb) (fun h k => wt_block V c t h k) (fun k => v_block V c t k)
      (fun h => enc_block V c t r q h b s hb hs))

end Region

end Cert.KernelIdeal.R0

end
-- ==== Proof.R0Scores.lean ====
/-
  The scores array after the first kernel.

  Whatever the sequence tile — the first of a batch tile, a middle one, the last — the kernel stores into the scores
  block the same thing: the tile's scores, a function of the four input blocks only (the running maximum, normalizer
  and context do not enter it). So grid point t writes back the restriction, to batch tile t / 16 and sequence tile
  t % 16, of ONE function of the arrays: the score of every batch row at every position. The 2 × 16 tiles partition
  the 16 × 8192 array (row b lies in batch tile b / 8, position s in sequence tile s / 512, so the point is
  16·(b/8) + s/512), and after the whole grid the array holds that function at every index.
-/
import proofs.«141412_j3788161155177_2_alg».proof.Proof.Gen.KernelIdeal.Frame
import proofs.«141412_j3788161155177_2_alg».proof.Proof.R0Pieces
import proofs.«141412_j3788161155177_2_alg».proof.Proof.R0Blocks
import Idealize.ShloMosaic.Lib.Pipeline.Value
import Idealize.ShloMosaic.Lib.ValueIdx

noncomputable section

namespace Cert.KernelIdeal.R0

open Cert.KernelIdeal Cert.KernelIdeal.Gen Idealize.ShloMosaic Idealize.ShloMosaic.TcCoe Idealize.SL.Sem
open Idealize.ShloMosaic.Pipeline (Dat)
open Idealize.ShloMosaic.ValueIdx

/-- The scores of every batch row at every position, as one function of the four arrays. -/
def scoresOf (hp : S16x256.Idx → EReal) (wt : S256x256.Idx → EReal) (v : S1x256.Idx → EReal) (e : S16x8192x256.Idx → EReal) :
    S16x8192.Idx → EReal :=
  fun i => kscore hp wt v e ⟨(i 0).val, (i 0).isLt⟩ ⟨(i 1).val, (i 1).isLt⟩

section Region

variable (V : (c : Dev nD) → (b : Ref sig .tc) → Buf (Elt Ideal) ((c : Thread nD τ).loc b))

/-- In each of the three cases the scores block after the body is the tile's scores of the four input blocks. -/
theorem scores_after (c : Dev nD) (t : Fin cfg0.N) :
    (dat0 V c).after 4 t = k0_pay7 (F := Ideal) (iblk0 V c 3 t) (iblk0 V c 1 t) (iblk0 V c 0 t) (iblk0 V c 2 t) := by
  rw [after0_4]
  by_cases h0 : t.val % 16 = 0
  · have h1 : ¬t.val % 16 = 15 := by omega
    rw [outsAt0_A V c t h0 h1]
    dsimp only
    exact out0_A_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      ((hcond0_0 t).mpr h0) (fun h => h1 ((hcond0_1 t).mp h)) (iblk0 V c 0 t) (iblk0 V c 1 t) (iblk0 V c 2 t) (iblk0 V c 3 t)
  · by_cases h1 : t.val % 16 = 15
    · rw [outsAt0_C V c t h0 h1]
      dsimp only
      exact out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
        (fun h => h0 ((hcond0_0 t).mp h)) ((hcond0_1 t).mpr h1) (iblk0 V c 0 t) (iblk0 V c 1 t) (iblk0 V c 2 t) (iblk0 V c 3 t)
        (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2
    · rw [outsAt0_B V c t h0 h1]
      dsimp only
      exact out0_B_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
        (fun h => h0 ((hcond0_0 t).mp h)) (fun h => h1 ((hcond0_1 t).mp h)) (iblk0 V c 0 t) (iblk0 V c 1 t) (iblk0 V c 2 t) (iblk0 V c 3 t)
        (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2

/-- The tile's score at any index of the tile is the score of the batch row and position the index stands for. -/
theorem tile_score_block_at (c : Dev nD) (t : Fin cfg0.N) (j : S8x512.Idx) (b : Fin 16) (s : Fin 8192)
    (hb : b.val = 8 * (t.val / 16) + (j 0).val) (hs : s.val = 512 * (t.val % 16) + (j 1).val) :
    k0_pay7 (F := Ideal) (iblk0 V c 3 t) (iblk0 V c 1 t) (iblk0 V c 0 t) (iblk0 V c 2 t) j
      = kscore (V c main_v1) (V c main_v3) (V c main_arg4) (V c main_arg1) b s := by
  obtain ⟨r, q, rfl⟩ : ∃ (r : Fin 8) (q : Fin 512), j = ix2 r q := ⟨j 0, j 1, eq_ix2 j⟩
  exact tile_score_block V c t r q b s hb hs

/-- What grid point t writes back to the scores array is the tile of scoresOf of the arrays the region finds. -/
theorem scores_written (c : Dev nD) (t : Fin cfg0.N) :
    (dat0 V c).flushed 4 t
      = ((cfg0.win 4).blk t).view.read (Elt Ideal) (scoresOf (V c main_v1) (V c main_v3) (V c main_arg4) (V c main_arg1)) := by
  show (cfg0.win 4).cut (grid0.coords t) ((dat0 V c).after 4 t) = _
  rw [scores_after]
  obtain ⟨-, -, -, -, -, -, -, -, -, e40, e41, -⟩ := tile_index0 t
  have hN : cfg0.N = 32 := N_0
  have ht : t.val < cfg0.N := t.isLt
  funext j
  have hj0 : (j 0).val < 8 := (j 0).isLt
  have hj1 : (j 1).val < 512 := (j 1).isLt
  have hb : 8 * (t.val / 16) + (j 0).val < 16 := by omega
  have hs : 512 * (t.val % 16) + (j 1).val < 8192 := by omega
  refine (tile_score_block_at V c t j ⟨8 * (t.val / 16) + (j 0).val, hb⟩ ⟨512 * (t.val % 16) + (j 1).val, hs⟩ rfl rfl).trans ?_
  -- the row and the position the tile index stands for are the coordinates of the array index under the tile
  have eb : (⟨8 * (t.val / 16) + (j 0).val, hb⟩ : Fin 16)
      = ⟨((((cfg0.win 4).blk t).view.emb j) 0).val, ((((cfg0.win 4).blk t).view.emb j) 0).isLt⟩ :=
    Fin.ext (by show 8 * (t.val / 16) + (j 0).val = win0_4.index t (0 : Fin 2) * 8 + 1 * (j 0).val; omega)
  have es : (⟨512 * (t.val % 16) + (j 1).val, hs⟩ : Fin 8192)
      = ⟨((((cfg0.win 4).blk t).view.emb j) 1).val, ((((cfg0.win 4).blk t).view.emb j) 1).isLt⟩ :=
    Fin.ext (by show 512 * (t.val % 16) + (j 1).val = win0_4.index t (1 : Fin 2) * 512 + 1 * (j 1).val; omega)
  rw [eb, es]
  rfl

/-- An index of the scores array lies in tile t iff each coordinate lies in the tile's range on its axis. -/
theorem mem_scoreTile (t : Fin cfg0.N) (i : S16x8192.Idx) :
    i ∈ ((cfg0.win 4).blk t).view.set ↔ ∀ a : Fin 2, win0_4.index t a * S8x512.size a ≤ (i a).val
      ∧ (i a).val < win0_4.index t a * S8x512.size a + S8x512.size a := by
  show i ∈ ((View.whole main_v4_0).slice (win0_4.rect t)).set ↔ _
  rw [View.set_slice_whole, Rect.mem_set_unit]
  exact Iff.rfl

/-- The tiles cover the scores array: row b at position s lies in the tile of point 16·(b/8) + s/512. -/
theorem scores_cover (i : S16x8192.Idx) :
    ∃ t : Fin cfg0.N, (cfg0.win 4).flush t = true ∧ i ∈ ((cfg0.win 4).blk t).view.set := by
  have hi0 : (i 0).val < 16 := (i 0).isLt
  have hi1 : (i 1).val < 8192 := (i 1).isLt
  have hN : cfg0.N = 32 := N_0
  let t : Fin cfg0.N := ⟨16 * ((i 0).val / 8) + (i 1).val / 512, by rw [hN]; omega⟩
  obtain ⟨-, -, -, -, -, -, -, -, -, e40, e41, -⟩ := tile_index0 t
  have ht : t.val = 16 * ((i 0).val / 8) + (i 1).val / 512 := rfl
  refine ⟨t, flush0_4 t, ?_⟩
  rw [mem_scoreTile]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 512 ≤ (i 1).val ∧ (i 1).val < win0_4.index t (1 : Fin 2) * 512 + 512; omega

/-- THE SCORES ARRAY after the whole grid: the score of batch row b at position s, at every index (b, s). -/
theorem scores_final (c : Dev nD) :
    (dat0 V c).arrAt 4 cfg0.N = scoresOf (V c main_v1) (V c main_v3) (V c main_arg4) (V c main_arg1) :=
  (dat0 V c).arrAt_eq_of_cover 4 (scoresOf (V c main_v1) (V c main_v3) (V c main_arg4) (V c main_arg1))
    (fun t _ => scores_written V c t) scores_cover

end Region

end Cert.KernelIdeal.R0

end
-- ==== Proof.R0KeptArrays.lean ====
/-
  The running maximum, the normalizer and the context after the first kernel, read off the recursion over grid points.

  These three results are accumulated over the 16 sequence tiles of a batch tile and written back only at the last of
  them: of the 2 × 16 grid points, the points 15 and 31. What such a point writes back is what the recursion over the
  points leaves there, whatever that is: no arithmetic is opened here. The block of a writing point t holds the batch
  rows 8·(t/16) … 8·(t/16)+7, so batch row a is written by the point 16·(a/8) + 15, at row a % 8 of the block; and
  since t % 16 = 15 at a writing point, the point recovered from any row of t's block is t itself. The two blocks
  partition the 16 rows, so after the whole grid each array is the recursion read at the last point of the row's batch
  tile.
-/
import proofs.«141412_j3788161155177_2_alg».proof.Proof.Gen.KernelIdeal.Frame
import proofs.«141412_j3788161155177_2_alg».proof.Proof.R0Blocks
import Idealize.ShloMosaic.Lib.Pipeline.Value
import Idealize.ShloMosaic.Lib.ValueIdx

noncomputable section

namespace Cert.KernelIdeal.R0

open Cert.KernelIdeal Cert.KernelIdeal.Gen Idealize.ShloMosaic Idealize.ShloMosaic.TcCoe Idealize.SL.Sem
open Idealize.ShloMosaic.Pipeline (Dat)
open Idealize.ShloMosaic.ValueIdx

/-- The last point of the batch tile of row a is a grid point. -/
theorem last_point_lt (a : ℕ) (ha : a < 16) : 16 * (a / 8) + 15 < cfg0.N := by
  have hN : cfg0.N = 32 := N_0
  rw [hN]; omega

section Region

variable (V : (c : Dev nD) → (b : Ref sig .tc) → Buf (Elt Ideal) ((c : Thread nD τ).loc b))

/-- The recursion over the points, at two spellings of one point. -/
theorem outsAt0_point (c : Dev nD) (n n' : ℕ) (h : n = n') (hn : n < cfg0.N) (hn' : n' < cfg0.N) :
    outsAt0 V c n hn = outsAt0 V c n' hn' := by
  subst h; rfl

/-- At a writing point t, the point recovered from a row a of t's batch tile is t. -/
theorem at_last_point (c : Dev nD) (t : Fin cfg0.N) (h15 : t.val % 16 = 15) (a : ℕ) (ha : a < 16) (hrow : a / 8 = t.val / 16) :
    outsAt0 V c (16 * (a / 8) + 15) (last_point_lt a ha) = outsAt0 V c t.val t.isLt :=
  outsAt0_point V c _ _ (by omega) _ _

/-! ## The running maximum -/

/-- The running maximum of batch row a after the last sequence tile of its batch tile. -/
def keptMax (c : Dev nD) : S16x1.Idx → EReal :=
  fun i => (outsAt0 V c (16 * ((i 0).val / 8) + 15) (last_point_lt _ (i 0).isLt)).2.1
    (ix2 ⟨(i 0).val % 8, Nat.mod_lt _ (by decide)⟩ ⟨(i 1).val, (i 1).isLt⟩)

/-- What a writing point t writes back to the maxima array is the block of keptMax under it. -/
theorem max_written (c : Dev nD) (t : Fin cfg0.N) (hf : (cfg0.win 5).flush t = true) :
    (dat0 V c).flushed 5 t = ((cfg0.win 5).blk t).view.read (Elt Ideal) (keptMax V c) := by
  have h15 : t.val % 16 = 15 := (flush0_5 t).mp hf
  show (cfg0.win 5).cut (grid0.coords t) ((dat0 V c).after 5 t) = _
  rw [after0_5]
  obtain ⟨-, -, -, -, -, -, -, -, -, -, -, e50, e51, -⟩ := tile_index0 t
  funext j
  have hj0 : (j 0).val < 8 := (j 0).isLt
  have hj1 : (j 1).val < 1 := (j 1).isLt
  -- where the block's index sits in the array: row 8·(t/16) + its row, the same second coordinate
  have e0 : ((((cfg0.win 5).blk t).view.emb j) 0).val = t.val / 16 * 8 + (j 0).val := by
    show win0_5.index t (0 : Fin 2) * 8 + 1 * (j 0).val = _; omega
  have e1 : ((((cfg0.win 5).blk t).view.emb j) 1).val = (j 1).val := by
    show win0_5.index t (1 : Fin 2) * 1 + 1 * (j 1).val = _; omega
  have hidx : (ix2 (⟨((((cfg0.win 5).blk t).view.emb j) 0).val % 8, Nat.mod_lt _ (by decide)⟩ : Fin 8)
      (⟨((((cfg0.win 5).blk t).view.emb j) 1).val, ((((cfg0.win 5).blk t).view.emb j) 1).isLt⟩ : Fin 1) : S8x1.Idx) = j :=
    funext fun a => Fin.ext (by
      match a with
      | ⟨0, _⟩ => show ((((cfg0.win 5).blk t).view.emb j) 0).val % 8 = (j 0).val; rw [e0]; omega
      | ⟨1, _⟩ => exact e1)
  show (outsAt0 V c t.val t.isLt).2.1 j
    = (outsAt0 V c (16 * (((((cfg0.win 5).blk t).view.emb j) 0).val / 8) + 15)
        (last_point_lt _ ((((cfg0.win 5).blk t).view.emb j) 0).isLt)).2.1
      (ix2 (⟨((((cfg0.win 5).blk t).view.emb j) 0).val % 8, Nat.mod_lt _ (by decide)⟩ : Fin 8)
        (⟨((((cfg0.win 5).blk t).view.emb j) 1).val, ((((cfg0.win 5).blk t).view.emb j) 1).isLt⟩ : Fin 1))
  rw [hidx, at_last_point V c t h15 _ ((((cfg0.win 5).blk t).view.emb j) 0).isLt (by rw [e0]; omega)]

/-- An index of the maxima array lies in block t iff each coordinate lies in the block's range on its axis. -/
theorem mem_maxBlk (t : Fin cfg0.N) (i : S16x1.Idx) :
    i ∈ ((cfg0.win 5).blk t).view.set ↔ ∀ a : Fin 2, win0_5.index t a * S8x1.size a ≤ (i a).val
      ∧ (i a).val < win0_5.index t a * S8x1.size a + S8x1.size a := by
  show i ∈ ((View.whole main_v4_1).slice (win0_5.rect t)).set ↔ _
  rw [View.set_slice_whole, Rect.mem_set_unit]
  exact Iff.rfl

/-- The writing points' blocks cover the maxima array: batch row a lies in the block of point 16·(a/8) + 15. -/
theorem max_cover (i : S16x1.Idx) :
    ∃ t : Fin cfg0.N, (cfg0.win 5).flush t = true ∧ i ∈ ((cfg0.win 5).blk t).view.set := by
  have hi0 : (i 0).val < 16 := (i 0).isLt
  have hi1 : (i 1).val < 1 := (i 1).isLt
  let t : Fin cfg0.N := ⟨16 * ((i 0).val / 8) + 15, last_point_lt _ hi0⟩
  obtain ⟨-, -, -, -, -, -, -, -, -, -, -, e50, e51, -⟩ := tile_index0 t
  have ht : t.val = 16 * ((i 0).val / 8) + 15 := rfl
  refine ⟨t, (flush0_5 t).mpr (by rw [ht]; omega), ?_⟩
  rw [mem_maxBlk]
  intro a
  match a with
  | ⟨0, _⟩ => show win0_5.index t (0 : Fin 2) * 8 ≤ (i 0).val ∧ (i 0).val < win0_5.index t (0 : Fin 2) * 8 + 8; omega
  | ⟨1, _⟩ => show win0_5.index t (1 : Fin 2) * 1 ≤ (i 1).val ∧ (i 1).val < win0_5.index t (1 : Fin 2) * 1 + 1; omega

/-- THE MAXIMA ARRAY after the whole grid. -/
theorem max_final (c : Dev nD) : (dat0 V c).arrAt 5 cfg0.N = keptMax V c :=
  (dat0 V c).arrAt_eq_of_cover 5 (keptMax V c) (fun t hf => max_written V c t hf) max_cover

/-! ## The normalizer -/

/-- The normalizer of batch row a after the last sequence tile of its batch tile. -/
def keptNorm (c : Dev nD) : S16x1.Idx → EReal :=
  fun i => (outsAt0 V c (16 * ((i 0).val / 8) + 15) (last_point_lt _ (i 0).isLt)).2.2.1
    (ix2 ⟨(i 0).val % 8, Nat.mod_lt _ (by decide)⟩ ⟨(i 1).val, (i 1).isLt⟩)

/-- What a writing point t writes back to the normalizers array is the block of keptNorm under it. -/
theorem norm_written (c : Dev nD) (t : Fin cfg0.N) (hf : (cfg0.win 6).flush t = true) :
    (dat0 V c).flushed 6 t = ((cfg0.win 6).blk t).view.read (Elt Ideal) (keptNorm V c) := by
  have h15 : t.val % 16 = 15 := (flush0_6 t).mp hf
  show (cfg0.win 6).cut (grid0.coords t) ((dat0 V c).after 6 t) = _
  rw [after0_6]
  obtain ⟨-, -, -, -, -, -, -, -, -, -, -, -, -, e60, e61, -⟩ := tile_index0 t
  funext j
  have hj0 : (j 0).val < 8 := (j 0).isLt
  have hj1 : (j 1).val < 1 := (j 1).isLt
  -- where the block's index sits in the array: row 8·(t/16) + its row, the same second coordinate
  have e0 : ((((cfg0.win 6).blk t).view.emb j) 0).val = t.val / 16 * 8 + (j 0).val := by
    show win0_6.index t (0 : Fin 2) * 8 + 1 * (j 0).val = _; omega
  have e1 : ((((cfg0.win 6).blk t).view.emb j) 1).val = (j 1).val := by
    show win0_6.index t (1 : Fin 2) * 1 + 1 * (j 1).val = _; omega
  have hidx : (ix2 (⟨((((cfg0.win 6).blk t).view.emb j) 0).val % 8, Nat.mod_lt _ (by decide)⟩ : Fin 8)
      (⟨((((cfg0.win 6).blk t).view.emb j) 1).val, ((((cfg0.win 6).blk t).view.emb j) 1).isLt⟩ : Fin 1) : S8x1.Idx) = j :=
    funext fun a => Fin.ext (by
      match a with
      | ⟨0, _⟩ => show ((((cfg0.win 6).blk t).view.emb j) 0).val % 8 = (j 0).val; rw [e0]; omega
      | ⟨1, _⟩ => exact e1)
  show (outsAt0 V c t.val t.isLt).2.2.1 j
    = (outsAt0 V c (16 * (((((cfg0.win 6).blk t).view.emb j) 0).val / 8) + 15)
        (last_point_lt _ ((((cfg0.win 6).blk t).view.emb j) 0).isLt)).2.2.1
      (ix2 (⟨((((cfg0.win 6).blk t).view.emb j) 0).val % 8, Nat.mod_lt _ (by decide)⟩ : Fin 8)
        (⟨((((cfg0.win 6).blk t).view.emb j) 1).val, ((((cfg0.win 6).blk t).view.emb j) 1).isLt⟩ : Fin 1))
  rw [hidx, at_last_point V c t h15 _ ((((cfg0.win 6).blk t).view.emb j) 0).isLt (by rw [e0]; omega)]

/-- An index of the normalizers array lies in block t iff each coordinate lies in the block's range on its axis. -/
theorem mem_normBlk (t : Fin cfg0.N) (i : S16x1.Idx) :
    i ∈ ((cfg0.win 6).blk t).view.set ↔ ∀ a : Fin 2, win0_6.index t a * S8x1.size a ≤ (i a).val
      ∧ (i a).val < win0_6.index t a * S8x1.size a + S8x1.size a := by
  show i ∈ ((View.whole main_v4_2).slice (win0_6.rect t)).set ↔ _
  rw [View.set_slice_whole, Rect.mem_set_unit]
  exact Iff.rfl

/-- The writing points' blocks cover the normalizers array: batch row a lies in the block of point 16·(a/8) + 15. -/
theorem norm_cover (i : S16x1.Idx) :
    ∃ t : Fin cfg0.N, (cfg0.win 6).flush t = true ∧ i ∈ ((cfg0.win 6).blk t).view.set := by
  have hi0 : (i 0).val < 16 := (i 0).isLt
  have hi1 : (i 1).val < 1 := (i 1).isLt
  let t : Fin cfg0.N := ⟨16 * ((i 0).val / 8) + 15, last_point_lt _ hi0⟩
  obtain ⟨-, -, -, -, -, -, -, -, -, -, -, -, -, e60, e61, -⟩ := tile_index0 t
  have ht : t.val = 16 * ((i 0).val / 8) + 15 := rfl
  refine ⟨t, (flush0_6 t).mpr (by rw [ht]; omega), ?_⟩
  rw [mem_normBlk]
  intro a
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 1 ≤ (i 1).val ∧ (i 1).val < win0_6.index t (1 : Fin 2) * 1 + 1; omega

/-- THE NORMALIZERS ARRAY after the whole grid. -/
theorem norm_final (c : Dev nD) : (dat0 V c).arrAt 6 cfg0.N = keptNorm V c :=
  (dat0 V c).arrAt_eq_of_cover 6 (keptNorm V c) (fun t hf => norm_written V c t hf) norm_cover

/-! ## The context -/

/-- The context of batch row a after the last sequence tile of its batch tile. -/
def keptCtx (c : Dev nD) : S16x256.Idx → EReal :=
  fun i => (outsAt0 V c (16 * ((i 0).val / 8) + 15) (last_point_lt _ (i 0).isLt)).2.2.2
    (ix2 ⟨(i 0).val % 8, Nat.mod_lt _ (by decide)⟩ ⟨(i 1).val, (i 1).isLt⟩)

/-- What a writing point t writes back to the context array is the block of keptCtx under it. -/
theorem ctx_written (c : Dev nD) (t : Fin cfg0.N) (hf : (cfg0.win 7).flush t = true) :
    (dat0 V c).flushed 7 t = ((cfg0.win 7).blk t).view.read (Elt Ideal) (keptCtx V c) := by
  have h15 : t.val % 16 = 15 := (flush0_7 t).mp hf
  show (cfg0.win 7).cut (grid0.coords t) ((dat0 V c).after 7 t) = _
  rw [after0_7]
  obtain ⟨-, -, -, -, -, -, -, -, -, -, -, -, -, -, -, e70, e71⟩ := tile_index0 t
  funext j
  have hj0 : (j 0).val < 8 := (j 0).isLt
  have hj1 : (j 1).val < 256 := (j 1).isLt
  -- where the block's index sits in the array: row 8·(t/16) + its row, the same second coordinate
  have e0 : ((((cfg0.win 7).blk t).view.emb j) 0).val = t.val / 16 * 8 + (j 0).val := by
    show win0_7.index t (0 : Fin 2) * 8 + 1 * (j 0).val = _; omega
  have e1 : ((((cfg0.win 7).blk t).view.emb j) 1).val = (j 1).val := by
    show win0_7.index t (1 : Fin 2) * 256 + 1 * (j 1).val = _; omega
  have hidx : (ix2 (⟨((((cfg0.win 7).blk t).view.emb j) 0).val % 8, Nat.mod_lt _ (by decide)⟩ : Fin 8)
      (⟨((((cfg0.win 7).blk t).view.emb j) 1).val, ((((cfg0.win 7).blk t).view.emb j) 1).isLt⟩ : Fin 256) : S8x256.Idx) = j :=
    funext fun a => Fin.ext (by
      match a with
      | ⟨0, _⟩ => show ((((cfg0.win 7).blk t).view.emb j) 0).val % 8 = (j 0).val; rw [e0]; omega
      | ⟨1, _⟩ => exact e1)
  show (outsAt0 V c t.val t.isLt).2.2.2 j
    = (outsAt0 V c (16 * (((((cfg0.win 7).blk t).view.emb j) 0).val / 8) + 15)
        (last_point_lt _ ((((cfg0.win 7).blk t).view.emb j) 0).isLt)).2.2.2
      (ix2 (⟨((((cfg0.win 7).blk t).view.emb j) 0).val % 8, Nat.mod_lt _ (by decide)⟩ : Fin 8)
        (⟨((((cfg0.win 7).blk t).view.emb j) 1).val, ((((cfg0.win 7).blk t).view.emb j) 1).isLt⟩ : Fin 256))
  rw [hidx, at_last_point V c t h15 _ ((((cfg0.win 7).blk t).view.emb j) 0).isLt (by rw [e0]; omega)]

/-- An index of the context array lies in block t iff each coordinate lies in the block's range on its axis. -/
theorem mem_ctxBlk (t : Fin cfg0.N) (i : S16x256.Idx) :
    i ∈ ((cfg0.win 7).blk t).view.set ↔ ∀ a : Fin 2, win0_7.index t a * S8x256.size a ≤ (i a).val
      ∧ (i a).val < win0_7.index t a * S8x256.size a + S8x256.size a := by
  show i ∈ ((View.whole main_v4_3).slice (win0_7.rect t)).set ↔ _
  rw [View.set_slice_whole, Rect.mem_set_unit]
  exact Iff.rfl

/-- The writing points' blocks cover the context array: batch row a lies in the block of point 16·(a/8) + 15. -/
theorem ctx_cover (i : S16x256.Idx) :
    ∃ t : Fin cfg0.N, (cfg0.win 7).flush t = true ∧ i ∈ ((cfg0.win 7).blk t).view.set := by
  have hi0 : (i 0).val < 16 := (i 0).isLt
  have hi1 : (i 1).val < 256 := (i 1).isLt
  let t : Fin cfg0.N := ⟨16 * ((i 0).val / 8) + 15, last_point_lt _ hi0⟩
  obtain ⟨-, -, -, -, -, -, -, -, -, -, -, -, -, -, -, e70, e71⟩ := tile_index0 t
  have ht : t.val = 16 * ((i 0).val / 8) + 15 := rfl
  refine ⟨t, (flush0_7 t).mpr (by rw [ht]; omega), ?_⟩
  rw [mem_ctxBlk]
  intro a
  match a with
  | ⟨0, _⟩ => show win0_7.index t (0 : Fin 2) * 8 ≤ (i 0).val ∧ (i 0).val < win0_7.index t (0 : Fin 2) * 8 + 8; omega
  | ⟨1, _⟩ => show win0_7.index t (1 : Fin 2) * 256 ≤ (i 1).val ∧ (i 1).val < win0_7.index t (1 : Fin 2) * 256 + 256; omega

/-- THE CONTEXT ARRAY after the whole grid. -/
theorem ctx_final (c : Dev nD) : (dat0 V c).arrAt 7 cfg0.N = keptCtx V c :=
  (dat0 V c).arrAt_eq_of_cover 7 (keptCtx V c) (fun t hf => ctx_written V c t hf) ctx_cover

end Region

end Cert.KernelIdeal.R0

end
-- ==== Proof.Spec.lean ====
/-
  The additive-attention block as one function of the five argument arrays, index by index.

  With hidden h (16×256), encoder outputs e (16×8192×256), W1, W2 (256×256) and V (1×256):
    h1[b,k]    = Σ_h h[b,h]·W1[k,h]
    h2[b,s,k]  = Σ_h e[b,s,h]·W2[k,h]
    score[b,s] = Σ_k tanh(h1[b,k] + h2[b,s,k])·V[0,k]
    P[b,s]     = exp(score[b,s]) / Σ_s' exp(score[b,s'])          (softmax along s)
    C[b,h]     = Σ_s P[b,s]·e[b,s,h]
  and the three results are C tiled along a new last axis, C, and P.

  A score is always a real number once V is finite, because tanh of any extended real is real; so the
  softmax and the weighted sum are stated over the reals, and a softmax is invariant under a common shift
  of its scores: exp(σ_s - μ)/Σ exp(σ_s' - μ) does not depend on μ. That invariance is what joins a
  computation that subtracts a running maximum with one that subtracts the global maximum.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## Sums of real numbers inside the extended reals -/

/-- A finite sum of coerced reals is the coerced sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The hyperbolic tangent of any extended real is a real number (its limits at the infinities are ±1). -/
theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

/-- An extended real that is neither infinity is the coercion of its real part. -/
theorem coe_toReal_of_finite {x : EReal} (h : x ≠ ⊤ ∧ x ≠ ⊥) : ((x.toReal : ℝ) : EReal) = x :=
  EReal.coe_toReal h.1 h.2

/-! ## The block's intermediate values -/

section Spec

variable (hid : (⟨2, ![16, 256]⟩ : Shape).Idx → EReal) (enc : (⟨3, ![16, 8192, 256]⟩ : Shape).Idx → EReal)
  (w1 w2 : (⟨2, ![256, 256]⟩ : Shape).Idx → EReal) (v : (⟨2, ![1, 256]⟩ : Shape).Idx → EReal)

/-- The projected hidden state: row b of hidden against row k of W1. -/
def h1 (b : Fin 16) (k : Fin 256) : EReal := ∑ h : Fin 256, hid (ix2 b h) * w1 (ix2 k h)

/-- The projected encoder output: position (b, s) against row k of W2. -/
def h2 (b : Fin 16) (s : Fin 8192) (k : Fin 256) : EReal := ∑ h : Fin 256, enc (ix3 b s h) * w2 (ix2 k h)

/-- The attention score of position s in batch row b. -/
def score (b : Fin 16) (s : Fin 8192) : EReal :=
  ∑ k : Fin 256, Ideal.tanh (h1 hid w1 b k + h2 enc w2 b s k) * v (ix2 0 k)

/-- The score as a real number. -/
def σ (b : Fin 16) (s : Fin 8192) : ℝ := (score hid enc w1 w2 v b s).toReal

/-- The encoder outputs as real numbers. -/
def xr (b : Fin 16) (s : Fin 8192) (h : Fin 256) : ℝ := (enc (ix3 b s h)).toReal

/-- With V finite, every score is a real number. -/
theorem score_real (hv : ∀ i, v i ≠ ⊤ ∧ v i ≠ ⊥) (b : Fin 16) (s : Fin 8192) :
    score hid enc w1 w2 v b s = ((σ hid enc w1 w2 v b s : ℝ) : EReal) := by
  have h : ∃ r : ℝ, score hid enc w1 w2 v b s = (r : EReal) := by
    unfold score
    have hk : ∀ k : Fin 256, ∃ r : ℝ, Ideal.tanh (h1 hid w1 b k + h2 enc w2 b s k) * v (ix2 0 k) = (r : EReal) := fun k => by
      obtain ⟨t, ht⟩ := tanh_real (h1 hid w1 b k + h2 enc w2 b s k)
      exact ⟨t * (v (ix2 0 k)).toReal, by rw [ht, EReal.coe_mul, coe_toReal_of_finite (hv _)]⟩
    choose r hr using hk
    exact ⟨∑ k, r k, by rw [← coe_sum]; exact Finset.sum_congr rfl fun k _ => hr k⟩
  obtain ⟨r, hr⟩ := h
  unfold σ; rw [hr, EReal.toReal_coe]

/-- The softmax weight of position s in batch row b. -/
def P (b : Fin 16) (s : Fin 8192) : ℝ :=
  Real.exp (σ hid enc w1 w2 v b s) / ∑ s' : Fin 8192, Real.exp (σ hid enc w1 w2 v b s')

/-- The context vector: the encoder outputs of row b averaged with the softmax weights. -/
def C (b : Fin 16) (h : Fin 256) : ℝ := ∑ s : Fin 8192, P hid enc w1 w2 v b s * xr enc b s h

/-- Result 2: the attention weights. -/
def outAttn : (⟨2, ![16, 8192]⟩ : Shape).Idx → EReal :=
  fun i => ((P hid enc w1 w2 v ⟨(i 0).val, (i 0).isLt⟩ ⟨(i 1).val, (i 1).isLt⟩ : ℝ) : EReal)

/-- Result 1: the context vectors. -/
def outCtx : (⟨2, ![16, 256]⟩ : Shape).Idx → EReal :=
  fun i => ((C hid enc w1 w2 v ⟨(i 0).val, (i 0).isLt⟩ ⟨(i 1).val, (i 1).isLt⟩ : ℝ) : EReal)

/-- Result 0: the context vectors repeated along a last axis of length 8192. -/
def outTiled : (⟨3, ![16, 256, 8192]⟩ : Shape).Idx → EReal :=
  fun i => ((C hid enc w1 w2 v ⟨(i 0).val, (i 0).isLt⟩ ⟨(i 1).val, (i 1).isLt⟩ : ℝ) : EReal)

end Spec

/-! ## The softmax does not see a common shift of its scores -/

section Shift

variable {ι : Type*} [Fintype ι]

/-- exp(σ_s - μ) / Σ exp(σ_s' - μ) is the same for every shift μ. -/
theorem softmax_shift (σ : ι → ℝ) (μ : ℝ) (s : ι) :
    Real.exp (σ s - μ) / ∑ s', Real.exp (σ s' - μ) = Real.exp (σ s) / ∑ s', Real.exp (σ s') := by
  have h : ∀ t, Real.exp (σ t - μ) = Real.exp (σ t) * Real.exp (-μ) := fun t => by
    rw [sub_eq_add_neg, Real.exp_add]
  simp only [h, ← Finset.sum_mul]
  rw [mul_div_mul_right _ _ (Real.exp_pos _).ne']

/-- The shifted weighted sum divided by the shifted normalizer is the softmax-weighted sum. -/
theorem weighted_shift (σ x : ι → ℝ) (μ : ℝ) :
    (∑ s, Real.exp (σ s - μ) * x s) / ∑ s', Real.exp (σ s' - μ)
      = ∑ s, (Real.exp (σ s) / ∑ s', Real.exp (σ s')) * x s := by
  rw [Finset.sum_div]
  refine Finset.sum_congr rfl fun s _ => ?_
  rw [mul_div_right_comm, softmax_shift]

end Shift

end Cert.Attn

end
-- ==== Proof.RowStep.lean ====
/-
  One row of one tile of the running softmax, on the extended reals.

  When the tile's scores and encoder entries are real numbers, every quantity of the step is a real number:
  the tile maximum is a real (a maximum of finitely many reals, taken from -inf, over a nonempty tile); with a real
  shift μ the weights exp(score − μ) are reals and their sums are the real sums; the rescaling factor
  exp(m − μ) is exp(−inf) = 0 when the kept maximum m is -inf (nothing kept yet) and the real exp(m − μ) when m is real.
-/
import proofs.«141412_j3788161155177_2_alg».proof.Proof.Spec

noncomputable section

namespace Cert.Attn.Row

open Idealize.ShloMosaic

/-- The pattern of f32's -inf is the bottom of the extended reals. -/
theorem neg_inf : Ideal.ofBits .f32 0xFF800000#32 = (⊥ : EReal) := by
  simp [Ideal.ofBits, Ideal.ieee]

variable {ι : Type*} [Fintype ι]

/-- A maximum, from -inf, of a nonempty finite family of reals is a real. -/
theorem fold_max_real [Nonempty ι] (sc : ι → EReal) (f : ι → ℝ) (hsc : ∀ q, sc q = (f q : EReal)) :
    ∃ τ : ℝ, (Finset.univ : Finset ι).fold max (Ideal.ofBits .f32 0xFF800000#32) sc = (τ : EReal) := by
  rw [neg_inf]
  have hlt : (Finset.univ : Finset ι).fold max (⊥ : EReal) sc < ⊤ :=
    (Finset.fold_max_lt (⊤ : EReal)).mpr ⟨bot_lt_top, fun x _ => by rw [hsc]; exact EReal.coe_lt_top _⟩
  have hgt : (⊥ : EReal) < (Finset.univ : Finset ι).fold max (⊥ : EReal) sc := by
    obtain ⟨x⟩ := (inferInstance : Nonempty ι)
    exact (Finset.lt_fold_max (⊥ : EReal)).mpr (Or.inr ⟨x, Finset.mem_univ x, by rw [hsc]; exact EReal.bot_lt_coe _⟩)
  exact ⟨_, (EReal.coe_toReal hlt.ne hgt.ne').symm⟩

/-- The tile's weights at a real shift sum to the real sum. -/
theorem sum_exp (sc : ι → EReal) (f : ι → ℝ) (hsc : ∀ q, sc q = (f q : EReal)) (μ : ℝ) :
    ∑ q, Ideal.exp (sc q - (μ : EReal)) = ((∑ q, Real.exp (f q - μ) : ℝ) : EReal) := by
  rw [← coe_sum]
  refine Finset.sum_congr rfl fun q _ => ?_
  rw [hsc, ← EReal.coe_sub, Ideal.exp_coe]

/-- The tile's weighted entries at a real shift sum to the real sum. -/
theorem sum_exp_mul (sc xe : ι → EReal) (f g : ι → ℝ) (hsc : ∀ q, sc q = (f q : EReal)) (hxe : ∀ q, xe q = (g q : EReal)) (μ : ℝ) :
    ∑ q, Ideal.exp (sc q - (μ : EReal)) * xe q = ((∑ q, Real.exp (f q - μ) * g q : ℝ) : EReal) := by
  rw [← coe_sum]
  refine Finset.sum_congr rfl fun q _ => ?_
  rw [hsc, hxe, ← EReal.coe_sub, Ideal.exp_coe, ← EReal.coe_mul]

/-- Nothing kept yet: the rescaling factor is exp(−inf) = 0. -/
theorem exp_bot_sub (μ : ℝ) : Ideal.exp ((⊥ : EReal) - (μ : EReal)) = 0 := by
  rw [EReal.bot_sub, Ideal.exp_bot]

/-- A real kept maximum: the rescaling factor is the real exponential. -/
theorem exp_coe_sub (μ₀ μ : ℝ) : Ideal.exp ((μ₀ : EReal) - (μ : EReal)) = ((Real.exp (μ₀ - μ) : ℝ) : EReal) := by
  rw [← EReal.coe_sub, Ideal.exp_coe]

/-- Dividing a real by a nonzero real. -/
theorem div_coe_coe (x y : ℝ) (hy : y ≠ 0) : Ideal.div (x : EReal) (y : EReal) = ((x / y : ℝ) : EReal) := by
  rw [Ideal.div_coe hy, ← EReal.coe_mul, mul_one_div]

end Cert.Attn.Row

end
-- ==== Proof.R0Row.lean ====
/-
  One row of one grid point of the first launch, when the tile's scores and encoder entries are real numbers.

  First tile of a batch tile (the kept maximum, normalizer and context are reset to -inf, 0, 0): the new maximum is
  the tile maximum μ, a real; the rescaling factor is exp(-inf) = 0, so the new normalizer is Σ_q exp(f q − μ) and the
  new context Σ_q exp(f q − μ)·g q.  A later tile, with real kept values μ₀, L₀, C₀: the new maximum is the real
  μ = max(μ₀, tile maximum), the new normalizer exp(μ₀ − μ)·L₀ + Σ_q exp(f q − μ), the new context
  exp(μ₀ − μ)·C₀ + Σ_q exp(f q − μ)·g q.  At the last tile the context is divided by the (nonzero) normalizer.
-/
import proofs.«141412_j3788161155177_2_alg».proof.Proof.R0Payload
import proofs.«141412_j3788161155177_2_alg».proof.Proof.RowStep

set_option maxRecDepth 16384

noncomputable section

namespace Cert.KernelIdeal.R0

open Cert.KernelIdeal Cert.KernelIdeal.Gen
open Idealize.ShloMosaic Idealize.ShloMosaic.ValueIdx
open Cert.Attn Cert.Attn.Row

/-- The coercion of the reals into the extended reals commutes with max. -/
theorem coe_max (a b : ℝ) : ((max a b : ℝ) : EReal) = max (a : EReal) (b : EReal) :=
  EReal.coe_strictMono.monotone.map_max

variable (e : FVec Ideal S8x512x256 .f32) (wt : FVec Ideal S256x256 .bf16) (hp : FVec Ideal S8x256 .f32) (v : FVec Ideal S1x256 .f32)
variable (r : Fin 8) (f : Fin 512 → ℝ) (g : Fin 256 → Fin 512 → ℝ)

/-- The first tile of a batch tile. -/
theorem row_first (hsc : ∀ q, k0_pay7 (F := Ideal) e wt hp v (ix2 r q) = (f q : EReal))
    (hxe : ∀ q h, e (ix3 r q h) = (g h q : EReal)) :
    ∃ μ : ℝ, k0_pay8 (F := Ideal) e wt hp v (k0_pay4 (F := Ideal)) (ix2 r 0) = (μ : EReal)
      ∧ k0_pay1 (F := Ideal) (k0_pay9 e wt hp v (k0_pay4 (F := Ideal)) (k0_pay4 (F := Ideal))) (k0_pay10 e wt hp v (k0_pay4 (F := Ideal))) (k0_pay5 (F := Ideal)) (ix2 r 0)
          = ((∑ q, Real.exp (f q - μ) : ℝ) : EReal)
      ∧ ∀ h : Fin 256, k0_pay2 (F := Ideal) e (k0_pay9 e wt hp v (k0_pay4 (F := Ideal)) (k0_pay4 (F := Ideal))) (k0_pay10 e wt hp v (k0_pay4 (F := Ideal))) (k0_pay6 (F := Ideal)) (ix2 r h)
          = ((∑ q, Real.exp (f q - μ) * g h q : ℝ) : EReal) := by
  obtain ⟨τ, hτ⟩ := fold_max_real (fun q => k0_pay7 (F := Ideal) e wt hp v (ix2 r q)) f hsc
  have hμ : k0_pay8 (F := Ideal) e wt hp v (k0_pay4 (F := Ideal)) (ix2 r 0) = (τ : EReal) := by
    rw [new_max_apply, hτ, reset_max_apply, neg_inf]
    exact max_eq_right bot_le
  have hw : ∀ q, k0_pay10 (F := Ideal) e wt hp v (k0_pay4 (F := Ideal)) (ix2 r q) = Ideal.exp (k0_pay7 (F := Ideal) e wt hp v (ix2 r q) - (τ : EReal)) := fun q => by
    rw [weight_apply, hμ]
  refine ⟨τ, hμ, ?_, fun h => ?_⟩
  · rw [new_norm_apply, rescale_apply, hμ, reset_max_apply, neg_inf, exp_bot_sub, reset_norm_apply, Ideal.ofBits_zero_f32, zero_mul, zero_add,
      ← sum_exp _ f hsc τ]
    exact Finset.sum_congr rfl fun q _ => hw q
  · rw [new_ctx_apply, rescale_apply, hμ, reset_max_apply, neg_inf, exp_bot_sub, reset_ctx_apply, Ideal.ofBits_zero_f32, zero_mul, zero_add,
      ← sum_exp_mul _ (fun q => e (ix3 r q h)) f (g h) hsc (fun q => hxe q h) τ]
    exact Finset.sum_congr rfl fun q _ => by rw [hw q]

variable (m l : FVec Ideal S8x1 .f32) (ctx : FVec Ideal S8x256 .f32)

/-- A later tile. -/
theorem row_next (hsc : ∀ q, k0_pay7 (F := Ideal) e wt hp v (ix2 r q) = (f q : EReal))
    (hxe : ∀ q h, e (ix3 r q h) = (g h q : EReal))
    (μ₀ L₀ : ℝ) (C₀ : Fin 256 → ℝ) (hm : m (ix2 r 0) = (μ₀ : EReal)) (hl : l (ix2 r 0) = (L₀ : EReal))
    (hc : ∀ h, ctx (ix2 r h) = (C₀ h : EReal)) :
    ∃ μ : ℝ, k0_pay8 (F := Ideal) e wt hp v m (ix2 r 0) = (μ : EReal)
      ∧ k0_pay1 (F := Ideal) (k0_pay9 e wt hp v m m) (k0_pay10 e wt hp v m) l (ix2 r 0)
          = ((Real.exp (μ₀ - μ) * L₀ + ∑ q, Real.exp (f q - μ) : ℝ) : EReal)
      ∧ ∀ h : Fin 256, k0_pay2 (F := Ideal) e (k0_pay9 e wt hp v m m) (k0_pay10 e wt hp v m) ctx (ix2 r h)
          = ((Real.exp (μ₀ - μ) * C₀ h + ∑ q, Real.exp (f q - μ) * g h q : ℝ) : EReal) := by
  obtain ⟨τ, hτ⟩ := fold_max_real (fun q => k0_pay7 (F := Ideal) e wt hp v (ix2 r q)) f hsc
  have hμ : k0_pay8 (F := Ideal) e wt hp v m (ix2 r 0) = ((max μ₀ τ : ℝ) : EReal) := by
    rw [new_max_apply, hτ, hm, coe_max]
  have hw : ∀ q, k0_pay10 (F := Ideal) e wt hp v m (ix2 r q) = Ideal.exp (k0_pay7 (F := Ideal) e wt hp v (ix2 r q) - ((max μ₀ τ : ℝ) : EReal)) := fun q => by
    rw [weight_apply, hμ]
  refine ⟨max μ₀ τ, hμ, ?_, fun h => ?_⟩
  · rw [new_norm_apply, rescale_apply, hμ, hm, exp_coe_sub, hl, EReal.coe_add, EReal.coe_mul, ← sum_exp _ f hsc (max μ₀ τ)]
    exact congrArg (_ + ·) (Finset.sum_congr rfl fun q _ => hw q)
  · rw [new_ctx_apply, rescale_apply, hμ, hm, exp_coe_sub, hc, EReal.coe_add, EReal.coe_mul,
      ← sum_exp_mul _ (fun q => e (ix3 r q h)) f (g h) hsc (fun q => hxe q h) (max μ₀ τ)]
    exact congrArg (_ + ·) (Finset.sum_congr rfl fun q _ => by rw [hw q])

/-- The last tile's division, of reals by a nonzero real. -/
theorem row_last (h : Fin 256) (C L : ℝ) (hL : L ≠ 0) (hc : ctx (ix2 r h) = (C : EReal)) (hl : l (ix2 r 0) = (L : EReal)) :
    k0_pay3 (F := Ideal) ctx l (ix2 r h) = ((C / L : ℝ) : EReal) := by
  rw [normalize_apply, hc, hl, div_coe_coe _ _ hL]

end Cert.KernelIdeal.R0

end
-- ==== Proof.LibOnlineSoftmax.lean ====
/-
  The running (online) softmax, over the reals.

  Scores arrive tile by tile. After n tiles, with any shift μ, keep the normalizer
    L n μ = Σ_{j<n} Σ_q exp(f j q − μ)      and the weighted sum      C n μ = Σ_{j<n} Σ_q exp(f j q − μ)·g j q.
  Changing the shift from μ to μ' multiplies both by exp(μ − μ'), because exp(μ − μ')·exp(x − μ) = exp(x − μ').
  So one step — rescale what is kept to the new shift, add the new tile at the new shift — gives L (n+1) μ' and
  C (n+1) μ'. Whatever shifts were used along the way, C n μ / L n μ is the softmax-weighted mean of g.
-/
import Mathlib.Analysis.SpecialFunctions.Exp

open scoped BigOperators

namespace Cert.LibOnlineSoftmax

open Finset

variable {κ : Type*} [Fintype κ]

/-- The normalizer of the first n tiles at shift μ. -/
noncomputable def accL (f : ℕ → κ → ℝ) (n : ℕ) (μ : ℝ) : ℝ := ∑ j ∈ range n, ∑ q, Real.exp (f j q - μ)

/-- The weighted sum of the first n tiles at shift μ. -/
noncomputable def accC (f g : ℕ → κ → ℝ) (n : ℕ) (μ : ℝ) : ℝ := ∑ j ∈ range n, ∑ q, Real.exp (f j q - μ) * g j q

theorem accL_zero (f : ℕ → κ → ℝ) (μ : ℝ) : accL f 0 μ = 0 := by simp [accL]

theorem accC_zero (f g : ℕ → κ → ℝ) (μ : ℝ) : accC f g 0 μ = 0 := by simp [accC]

theorem accL_succ (f : ℕ → κ → ℝ) (n : ℕ) (μ : ℝ) : accL f (n + 1) μ = accL f n μ + ∑ q, Real.exp (f n q - μ) :=
  sum_range_succ _ _

theorem accC_succ (f g : ℕ → κ → ℝ) (n : ℕ) (μ : ℝ) :
    accC f g (n + 1) μ = accC f g n μ + ∑ q, Real.exp (f n q - μ) * g n q :=
  sum_range_succ _ _

/-- Changing the shift multiplies the normalizer by exp(μ − μ'). -/
theorem accL_rescale (f : ℕ → κ → ℝ) (n : ℕ) (μ μ' : ℝ) : Real.exp (μ - μ') * accL f n μ = accL f n μ' := by
  unfold accL
  rw [mul_sum]
  refine sum_congr rfl fun j _ => ?_
  rw [mul_sum]
  refine sum_congr rfl fun q _ => ?_
  rw [← Real.exp_add]
  congr 1; ring

/-- Changing the shift multiplies the weighted sum by exp(μ − μ'). -/
theorem accC_rescale (f g : ℕ → κ → ℝ) (n : ℕ) (μ μ' : ℝ) : Real.exp (μ - μ') * accC f g n μ = accC f g n μ' := by
  unfold accC
  rw [mul_sum]
  refine sum_congr rfl fun j _ => ?_
  rw [mul_sum]
  refine sum_congr rfl fun q _ => ?_
  rw [← mul_assoc, ← Real.exp_add]
  congr 2; ring

/-- One step of the running normalizer. -/
theorem accL_step (f : ℕ → κ → ℝ) (n : ℕ) (μ μ' : ℝ) :
    Real.exp (μ - μ') * accL f n μ + ∑ q, Real.exp (f n q - μ') = accL f (n + 1) μ' := by
  rw [accL_rescale, accL_succ]

/-- One step of the running weighted sum. -/
theorem accC_step (f g : ℕ → κ → ℝ) (n : ℕ) (μ μ' : ℝ) :
    Real.exp (μ - μ') * accC f g n μ + ∑ q, Real.exp (f n q - μ') * g n q = accC f g (n + 1) μ' := by
  rw [accC_rescale, accC_succ]

/-- The normalizer of at least one nonempty tile is positive. -/
theorem accL_pos [Nonempty κ] (f : ℕ → κ → ℝ) (n : ℕ) (μ : ℝ) : 0 < accL f (n + 1) μ := by
  unfold accL
  refine sum_pos (fun j _ => sum_pos (fun q _ => Real.exp_pos _) univ_nonempty) ⟨0, by simp⟩

end Cert.LibOnlineSoftmax
-- ==== Proof.Tiles.lean ====
/-
  The sequence axis cut into 16 tiles of 512 consecutive positions.

  Position s = 512·j + q is position q of tile j. A function of the position is read tile by tile through
  `tileOf`, which is the function at 512·j + q when that is a position (below 8192) and 0 beyond.
-/
import proofs.«141412_j3788161155177_2_alg».proof.Proof.LibOnlineSoftmax

noncomputable section

namespace Cert.Attn

/-- Entry q of tile j of a function of the 8192 positions. -/
def tileOf (σ : Fin 8192 → ℝ) (j : ℕ) (q : Fin 512) : ℝ :=
  if h : 512 * j + q.val < 8192 then σ ⟨512 * j + q.val, h⟩ else 0

theorem tileOf_of_eq (σ : Fin 8192 → ℝ) (j : ℕ) (q : Fin 512) (s : Fin 8192) (hs : s.val = 512 * j + q.val) :
    tileOf σ j q = σ s := by
  unfold tileOf
  rw [dif_pos (by rw [← hs]; exact s.isLt)]
  exact congrArg σ (Fin.ext hs.symm)

end Cert.Attn

end
-- ==== Proof.R0Inv.lean ====
/-
  The running softmax of the first launch, point by point.

  Fix a batch row b and follow the 16 sequence tiles of its batch tile. With V finite every score is a real number σ,
  and with the encoder outputs finite every entry is a real x. Then after tile j the three kept blocks hold, in row b,
  a real shift μ (the running maximum), the normalizer Σ_{j' ≤ j} Σ_q exp(σ − μ) and the weighted sums
  Σ_{j' ≤ j} Σ_q exp(σ − μ)·x at that shift — and after the last tile the weighted sums divided by the normalizer.
  Induction on the point: the first tile resets and the kept values at -inf, 0, 0 contribute nothing; a later tile
  rescales what the tile before left by exp(μ₀ − μ) and adds its own terms, which is one step of the running sums.
-/
import proofs.«141412_j3788161155177_2_alg».proof.Proof.Gen.KernelIdeal.Frame
import proofs.«141412_j3788161155177_2_alg».proof.Proof.R0Pieces
import proofs.«141412_j3788161155177_2_alg».proof.Proof.R0Row
import proofs.«141412_j3788161155177_2_alg».proof.Proof.R0Blocks
import proofs.«141412_j3788161155177_2_alg».proof.Proof.Tiles
import proofs.«141412_j3788161155177_2_alg».proof.Proof.LibOnlineSoftmax
import proofs.«141412_j3788161155177_2_alg».proof.Proof.Spec

set_option maxRecDepth 16384

noncomputable section

namespace Cert.KernelIdeal.R0

open Cert.KernelIdeal Cert.KernelIdeal.Gen
open Idealize.ShloMosaic Idealize.ShloMosaic.TcCoe Idealize.SL.Sem Idealize.ShloMosaic.ValueIdx
open Cert.Attn Cert.LibOnlineSoftmax

section Inv

variable (V : (c : Dev nD) → (b : Ref sig .tc) → Buf (Elt Ideal) ((c : Thread nD τ).loc b)) (c : Dev nD)

/-- The four arrays the first launch finds, as plain extended-real functions of their indices. -/
abbrev aHp : S16x256.Idx → EReal := V c main_v1
abbrev aWt : S256x256.Idx → EReal := V c main_v3
abbrev aV : S1x256.Idx → EReal := V c main_arg4
abbrev aE : S16x8192x256.Idx → EReal := V c main_arg1

/-- The score of position s of batch row b, as the first launch computes it from the arrays it finds: its real part. -/
def σk (b : Fin 16) (s : Fin 8192) : ℝ := (kscore (aHp V c) (aWt V c) (aV V c) (aE V c) b s).toReal

/-- The encoder entry (b, s, h): its real part. -/
def xk (b : Fin 16) (h : Fin 256) (s : Fin 8192) : ℝ := (aE V c (ix3 b s h)).toReal

/-- With V finite the score is its real part. -/
theorem kscore_real (hv : ∀ i, aV V c i ≠ ⊤ ∧ aV V c i ≠ ⊥) (b : Fin 16) (s : Fin 8192) :
    kscore (aHp V c) (aWt V c) (aV V c) (aE V c) b s = ((σk V c b s : ℝ) : EReal) := by
  have h : ∃ x : ℝ, kscore (aHp V c) (aWt V c) (aV V c) (aE V c) b s = (x : EReal) := by
    unfold kscore
    have hk : ∀ k : Fin 256, ∃ x : ℝ, Ideal.tanh (aHp V c (ix2 b k) + ∑ h : Fin 256, aE V c (ix3 b s h) * aWt V c (ix2 h k)) * aV V c (ix2 0 k) = (x : EReal) := fun k => by
      obtain ⟨y, hy⟩ := tanh_real (aHp V c (ix2 b k) + ∑ h : Fin 256, aE V c (ix3 b s h) * aWt V c (ix2 h k))
      exact ⟨y * (aV V c (ix2 0 k)).toReal, by rw [hy, EReal.coe_mul, coe_toReal_of_finite (hv _)]⟩
    choose x hx using hk
    exact ⟨∑ k, x k, by rw [← coe_sum]; exact Finset.sum_congr rfl fun k _ => hx k⟩
  obtain ⟨x, hx⟩ := h
  unfold σk; rw [hx, EReal.toReal_coe]

variable (hv : ∀ i, aV V c i ≠ ⊤ ∧ aV V c i ≠ ⊥)
  (he : ∀ i, aE V c i ≠ ⊤ ∧ aE V c i ≠ ⊥)

include hv in
/-- The tile's scores in row r are the reals of tile t % 16 of batch row b. -/
theorem tile_scores_real (t : Fin cfg0.N) (r : Fin 8) (b : Fin 16) (hb : b.val = 8 * (t.val / 16) + r.val) (q : Fin 512) :
    k0_pay7 (F := Ideal) (iblk0 V c 3 t) (iblk0 V c 1 t) (iblk0 V c 0 t) (iblk0 V c 2 t) (ix2 r q)
      = ((tileOf (σk V c b) (t.val % 16) q : ℝ) : EReal) := by
  have hq := q.isLt
  have hs : 512 * (t.val % 16) + q.val < 8192 := by omega
  rw [tile_score_block V c t r q b ⟨512 * (t.val % 16) + q.val, hs⟩ hb rfl, kscore_real V c hv,
    tileOf_of_eq (σk V c b) (t.val % 16) q ⟨512 * (t.val % 16) + q.val, hs⟩ rfl]

include he in
/-- The tile's encoder entries in row r are the reals of tile t % 16 of batch row b. -/
theorem tile_enc_real (t : Fin cfg0.N) (r : Fin 8) (b : Fin 16) (hb : b.val = 8 * (t.val / 16) + r.val) (q : Fin 512) (h : Fin 256) :
    (iblk0 V c 3 t : S8x512x256.Idx → EReal) (ix3 r q h) = ((tileOf (xk V c b h) (t.val % 16) q : ℝ) : EReal) := by
  have hq := q.isLt
  have hs : 512 * (t.val % 16) + q.val < 8192 := by omega
  rw [enc_block V c t r q h b ⟨512 * (t.val % 16) + q.val, hs⟩ hb rfl,
    tileOf_of_eq (xk V c b h) (t.val % 16) q ⟨512 * (t.val % 16) + q.val, hs⟩ rfl]
  exact (coe_toReal_of_finite (he _)).symm

include hv he in
/-- The first tile of a batch tile: the kept values after it. -/
theorem first_point (t : Fin cfg0.N) (h0 : t.val % 16 = 0) (h1 : ¬t.val % 16 = 15) (r : Fin 8) (b : Fin 16)
    (hb : b.val = 8 * (t.val / 16) + r.val) :
    ∃ μ : ℝ, (outsAt0 V c t.val t.isLt).2.1 (ix2 r 0) = (μ : EReal)
      ∧ (outsAt0 V c t.val t.isLt).2.2.1 (ix2 r 0) = ((∑ q, Real.exp (tileOf (σk V c b) (t.val % 16) q - μ) : ℝ) : EReal)
      ∧ ∀ h : Fin 256, (outsAt0 V c t.val t.isLt).2.2.2 (ix2 r h) = ((∑ q, Real.exp (tileOf (σk V c b) (t.val % 16) q - μ) * tileOf (xk V c b h) (t.val % 16) q : ℝ) : EReal) := by
  have hA := outsAt0_A V c t h0 h1
  obtain ⟨μ, hμ, hL, hC⟩ := row_first (iblk0 V c 3 t) (iblk0 V c 1 t) (iblk0 V c 0 t) (iblk0 V c 2 t) r
    (tileOf (σk V c b) (t.val % 16)) (fun h => tileOf (xk V c b h) (t.val % 16))
    (fun q => tile_scores_real V c hv t r b hb q) (fun q h => tile_enc_real V c he t r b hb q h)
  refine ⟨μ, ?_, ?_, fun h => ?_⟩
  · rw [hA]; dsimp only
    exact (congrFun (out0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t) (iblk0 V c 2 t) (iblk0 V c 3 t)) (ix2 r 0)).trans hμ
  · rw [hA]; dsimp only
    exact (congrFun (out0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t) (iblk0 V c 2 t) (iblk0 V c 3 t)) (ix2 r 0)).trans hL
  · rw [hA]; dsimp only
    exact (congrFun (out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t) (iblk0 V c 2 t) (iblk0 V c 3 t)) (ix2 r h)).trans (hC h)

include hv he in
/-- A middle tile: the kept values after it, from those before it. -/
theorem middle_point (t : Fin cfg0.N) (h0 : ¬t.val % 16 = 0) (h1 : ¬t.val % 16 = 15) (r : Fin 8) (b : Fin 16)
    (hb : b.val = 8 * (t.val / 16) + r.val) (μ₀ L₀ : ℝ) (C₀ : Fin 256 → ℝ)
    (hm : (outsAt0 V c (t.val - 1) (Nat.lt_of_le_of_lt (Nat.sub_le _ _) t.isLt)).2.1 (ix2 r 0) = (μ₀ : EReal)) (hl : (outsAt0 V c (t.val - 1) (Nat.lt_of_le_of_lt (Nat.sub_le _ _) t.isLt)).2.2.1 (ix2 r 0) = (L₀ : EReal))
    (hc : ∀ h : Fin 256, (outsAt0 V c (t.val - 1) (Nat.lt_of_le_of_lt (Nat.sub_le _ _) t.isLt)).2.2.2 (ix2 r h) = (C₀ h : EReal)) :
    ∃ μ : ℝ, (outsAt0 V c t.val t.isLt).2.1 (ix2 r 0) = (μ : EReal)
      ∧ (outsAt0 V c t.val t.isLt).2.2.1 (ix2 r 0) = ((Real.exp (μ₀ - μ) * L₀ + ∑ q, Real.exp (tileOf (σk V c b) (t.val % 16) q - μ) : ℝ) : EReal)
      ∧ ∀ h : Fin 256, (outsAt0 V c t.val t.isLt).2.2.2 (ix2 r h) = ((Real.exp (μ₀ - μ) * C₀ h + ∑ q, Real.exp (tileOf (σk V c b) (t.val % 16) q - μ) * tileOf (xk V c b h) (t.val % 16) q : ℝ) : EReal) := by
  have hB := outsAt0_B V c t h0 h1
  obtain ⟨μ, hμ, hL, hC⟩ := row_next (iblk0 V c 3 t) (iblk0 V c 1 t) (iblk0 V c 0 t) (iblk0 V c 2 t) r
    (tileOf (σk V c b) (t.val % 16)) (fun h => tileOf (xk V c b h) (t.val % 16))
    (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2
    (fun q => tile_scores_real V c hv t r b hb q) (fun q h => tile_enc_real V c he t r b hb q h)
    μ₀ L₀ C₀ hm hl hc
  refine ⟨μ, ?_, ?_, fun h => ?_⟩
  · rw [hB]; dsimp only
    exact (congrFun (out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) (ix2 r 0)).trans hμ
  · rw [hB]; dsimp only
    exact (congrFun (out0_B_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) (ix2 r 0)).trans hL
  · rw [hB]; dsimp only
    exact (congrFun (out0_B_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) (ix2 r h)).trans (hC h)

include hv he in
/-- The last tile: as a middle tile, and the context divided by the normalizer. -/
theorem last_point (t : Fin cfg0.N) (h0 : ¬t.val % 16 = 0) (h1 : t.val % 16 = 15) (r : Fin 8) (b : Fin 16)
    (hb : b.val = 8 * (t.val / 16) + r.val) (μ₀ L₀ : ℝ) (hL₀ : 0 ≤ L₀) (C₀ : Fin 256 → ℝ)
    (hm : (outsAt0 V c (t.val - 1) (Nat.lt_of_le_of_lt (Nat.sub_le _ _) t.isLt)).2.1 (ix2 r 0) = (μ₀ : EReal)) (hl : (outsAt0 V c (t.val - 1) (Nat.lt_of_le_of_lt (Nat.sub_le _ _) t.isLt)).2.2.1 (ix2 r 0) = (L₀ : EReal))
    (hc : ∀ h : Fin 256, (outsAt0 V c (t.val - 1) (Nat.lt_of_le_of_lt (Nat.sub_le _ _) t.isLt)).2.2.2 (ix2 r h) = (C₀ h : EReal)) :
    ∃ μ : ℝ, (outsAt0 V c t.val t.isLt).2.1 (ix2 r 0) = (μ : EReal)
      ∧ (outsAt0 V c t.val t.isLt).2.2.1 (ix2 r 0) = ((Real.exp (μ₀ - μ) * L₀ + ∑ q, Real.exp (tileOf (σk V c b) (t.val % 16) q - μ) : ℝ) : EReal)
      ∧ ∀ h : Fin 256, (outsAt0 V c t.val t.isLt).2.2.2 (ix2 r h)
          = (((Real.exp (μ₀ - μ) * C₀ h + ∑ q, Real.exp (tileOf (σk V c b) (t.val % 16) q - μ) * tileOf (xk V c b h) (t.val % 16) q) / (Real.exp (μ₀ - μ) * L₀ + ∑ q, Real.exp (tileOf (σk V c b) (t.val % 16) q - μ)) : ℝ) : EReal) := by
  have hB := outsAt0_C V c t h0 h1
  obtain ⟨μ, hμ, hL, hC⟩ := row_next (iblk0 V c 3 t) (iblk0 V c 1 t) (iblk0 V c 0 t) (iblk0 V c 2 t) r
    (tileOf (σk V c b) (t.val % 16)) (fun h => tileOf (xk V c b h) (t.val % 16))
    (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2
    (fun q => tile_scores_real V c hv t r b hb q) (fun q h => tile_enc_real V c he t r b hb q h)
    μ₀ L₀ C₀ hm hl hc
  have hpos : Real.exp (μ₀ - μ) * L₀ + ∑ q, Real.exp (tileOf (σk V c b) (t.val % 16) q - μ) ≠ 0 :=
    (add_pos_of_nonneg_of_pos (mul_nonneg (Real.exp_pos _).le hL₀) (Finset.sum_pos (fun q _ => Real.exp_pos _) Finset.univ_nonempty)).ne'
  refine ⟨μ, ?_, ?_, fun h => ?_⟩
  · rw [hB]; dsimp only
    exact (congrFun (out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) (ix2 r 0)).trans hμ
  · rw [hB]; dsimp only
    exact (congrFun (out0_C_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) (ix2 r 0)).trans hL
  · rw [hB]; dsimp only
    exact (congrFun (out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) (ix2 r h)).trans (row_last r _ _ h _ _ hpos (hC h) hL)

include hv he in
/-- THE INVARIANT: what the three kept blocks hold in row r after point n. -/
theorem kept_after : ∀ (n : ℕ) (hn : n < cfg0.N) (r : Fin 8) (b : Fin 16), b.val = 8 * (n / 16) + r.val →
    ∃ μ : ℝ, (outsAt0 V c n hn).2.1 (ix2 r 0) = (μ : EReal)
      ∧ (outsAt0 V c n hn).2.2.1 (ix2 r 0) = ((accL (tileOf (σk V c b)) (n % 16 + 1) μ : ℝ) : EReal)
      ∧ ∀ h : Fin 256, (outsAt0 V c n hn).2.2.2 (ix2 r h)
          = if n % 16 = 15 then ((accC (tileOf (σk V c b)) (tileOf (xk V c b h)) 16 μ / accL (tileOf (σk V c b)) 16 μ : ℝ) : EReal)
            else ((accC (tileOf (σk V c b)) (tileOf (xk V c b h)) (n % 16 + 1) μ : ℝ) : EReal) := by
  intro n
  induction n with
  | zero =>
    intro hn r b hb
    obtain ⟨μ, hμ, hL, hC⟩ := first_point V c hv he ⟨0, hn⟩ rfl (by show ¬(0 % 16 = 15); decide) r b hb
    refine ⟨μ, hμ, hL.trans ?_, fun h => (hC h).trans ?_⟩
    · show _ = ((accL (tileOf (σk V c b)) (0 + 1) μ : ℝ) : EReal)
      rw [accL_succ, accL_zero, zero_add]
      rfl
    · rw [if_neg (by decide)]
      show _ = ((accC (tileOf (σk V c b)) (tileOf (xk V c b h)) (0 + 1) μ : ℝ) : EReal)
      rw [accC_succ, accC_zero, zero_add]
      rfl
  | succ n ih =>
    intro hn r b hb
    have hN : cfg0.N = 32 := N_0
    have hn' : n < cfg0.N := Nat.lt_of_succ_lt hn
    by_cases h0 : (n + 1) % 16 = 0
    · -- the first tile of the second batch tile
      obtain ⟨μ, hμ, hL, hC⟩ := first_point V c hv he ⟨n + 1, hn⟩ h0 (by show ¬(n + 1) % 16 = 15; omega) r b hb
      refine ⟨μ, hμ, hL.trans ?_, fun h => (hC h).trans ?_⟩
      · show ((∑ q, Real.exp (tileOf (σk V c b) ((n + 1) % 16) q - μ) : ℝ) : EReal) = _
        rw [h0, accL_succ, accL_zero, zero_add]
      · rw [if_neg (by omega)]
        show ((∑ q, Real.exp (tileOf (σk V c b) ((n + 1) % 16) q - μ) * tileOf (xk V c b h) ((n + 1) % 16) q : ℝ) : EReal) = _
        rw [h0, accC_succ, accC_zero, zero_add]
    · have hb' : b.val = 8 * (n / 16) + r.val := by omega
      have hk : (n + 1) % 16 = n % 16 + 1 := by omega
      have hn15 : ¬n % 16 = 15 := by omega
      obtain ⟨μ₀, hm₀, hl₀, hc₀⟩ := ih hn' r b hb'
      have hc₀' : ∀ h : Fin 256, (outsAt0 V c n hn').2.2.2 (ix2 r h) = ((accC (tileOf (σk V c b)) (tileOf (xk V c b h)) (n % 16 + 1) μ₀ : ℝ) : EReal) := fun h => by
        rw [hc₀ h, if_neg hn15]
      by_cases h1 : (n + 1) % 16 = 15
      · -- the last tile
        obtain ⟨μ, hμ, hL, hC⟩ := last_point V c hv he ⟨n + 1, hn⟩ h0 h1 r b hb μ₀ _ (accL_pos _ _ _).le
          (fun h => accC (tileOf (σk V c b)) (tileOf (xk V c b h)) (n % 16 + 1) μ₀) hm₀ hl₀ hc₀'
        have hLs : Real.exp (μ₀ - μ) * accL (tileOf (σk V c b)) (n % 16 + 1) μ₀ + ∑ q, Real.exp (tileOf (σk V c b) ((n + 1) % 16) q - μ)
            = accL (tileOf (σk V c b)) 16 μ := by
          rw [hk, accL_step, ← hk, h1]
        refine ⟨μ, hμ, hL.trans ?_, fun h => (hC h).trans ?_⟩
        · show ((Real.exp (μ₀ - μ) * accL (tileOf (σk V c b)) (n % 16 + 1) μ₀ + ∑ q, Real.exp (tileOf (σk V c b) ((n + 1) % 16) q - μ) : ℝ) : EReal) = _
          rw [hLs, h1]
        · rw [if_pos h1]
          show (((Real.exp (μ₀ - μ) * accC (tileOf (σk V c b)) (tileOf (xk V c b h)) (n % 16 + 1) μ₀
              + ∑ q, Real.exp (tileOf (σk V c b) ((n + 1) % 16) q - μ) * tileOf (xk V c b h) ((n + 1) % 16) q)
              / (Real.exp (μ₀ - μ) * accL (tileOf (σk V c b)) (n % 16 + 1) μ₀ + ∑ q, Real.exp (tileOf (σk V c b) ((n + 1) % 16) q - μ)) : ℝ) : EReal) = _
          rw [hLs, hk, accC_step, ← hk, h1]
      · obtain ⟨μ, hμ, hL, hC⟩ := middle_point V c hv he ⟨n + 1, hn⟩ h0 h1 r b hb μ₀ _
          (fun h => accC (tileOf (σk V c b)) (tileOf (xk V c b h)) (n % 16 + 1) μ₀) hm₀ hl₀ hc₀'
        refine ⟨μ, hμ, hL.trans ?_, fun h => (hC h).trans ?_⟩
        · show ((Real.exp (μ₀ - μ) * accL (tileOf (σk V c b)) (n % 16 + 1) μ₀ + ∑ q, Real.exp (tileOf (σk V c b) ((n + 1) % 16) q - μ) : ℝ) : EReal) = _
          rw [hk, accL_step]
        · rw [if_neg h1]
          show ((Real.exp (μ₀ - μ) * accC (tileOf (σk V c b)) (tileOf (xk V c b h)) (n % 16 + 1) μ₀
              + ∑ q, Real.exp (tileOf (σk V c b) ((n + 1) % 16) q - μ) * tileOf (xk V c b h) ((n + 1) % 16) q : ℝ) : EReal) = _
          rw [hk, accC_step]

end Inv

end Cert.KernelIdeal.R0

end
-- ==== Proof.HostSide.lean ====
/-
  What the first kernel launch finds in the buffers the host prepared.

  Before the first launch the program transposes W1, contracts the hidden state with the transposed W1 over
  the shared axis, transposes W2 and changes its format. A transposed matrix read at (h, k) is the matrix at
  (k, h), and a change of format is the identity on extended reals; so the contraction at (b, k) is
  Σ_h hidden[b,h]·W1[k,h], the projected hidden state h1[b,k], and the prepared W2 at (h, k) is W2[k,h].
  The encoder outputs and V are written by no host operation: the launch finds them as they were given.
-/
import proofs.«141412_j3788161155177_2_alg».proof.Proof.Gen.KernelIdeal.Frame
import proofs.«141412_j3788161155177_2_alg».proof.Proof.Spec
import Idealize.ShloMosaic.Lib.ValueLayout
import Idealize.ShloMosaic.Lib.StableHlo.Run
import Idealize.ShloMosaic.PureOps.Ideal.Laws

noncomputable section

namespace Cert.KernelIdeal.HostSide

open Cert.KernelIdeal Cert.KernelIdeal.Gen Idealize.ShloMosaic Idealize.ShloMosaic.TcCoe Idealize.ShloMosaic.ValueIdx
open Idealize.SL.Sem Idealize.ShloMosaic.StableHlo

/-! ## The contraction against a transposed matrix, at an index -/

theorem lhs_0 (i : S16x256.Idx) (q : dot_S16x256_S256x256_S16x256_1_0_0_1_n_n.contr.Idx) :
    (dot_S16x256_S256x256_S16x256_1_0_0_1_n_n.lhsIdx i q 0).val = (i 0).val := by
  unfold DotDims.lhsIdx
  rw [dif_neg (show ¬(0 : Fin S16x256.rank) ∈ dot_S16x256_S256x256_S16x256_1_0_0_1_n_n.lhsBatch by decide),
    dif_pos (show (0 : Fin S16x256.rank) ∈ dot_S16x256_S256x256_S16x256_1_0_0_1_n_n.lhsNonContracting by decide)]
  rfl
theorem lhs_1 (i : S16x256.Idx) (q : dot_S16x256_S256x256_S16x256_1_0_0_1_n_n.contr.Idx) :
    (dot_S16x256_S256x256_S16x256_1_0_0_1_n_n.lhsIdx i q 1).val = (q ⟨0, by decide⟩).val :=
  dot_S16x256_S256x256_S16x256_1_0_0_1_n_n.lhsIdx_val_of_single rfl i q
theorem rhs_0 (i : S16x256.Idx) (q : dot_S16x256_S256x256_S16x256_1_0_0_1_n_n.contr.Idx) :
    (dot_S16x256_S256x256_S16x256_1_0_0_1_n_n.rhsIdx i q 0).val = (q ⟨0, by decide⟩).val :=
  dot_S16x256_S256x256_S16x256_1_0_0_1_n_n.rhsIdx_val_of_single rfl i q
theorem rhs_1 (i : S16x256.Idx) (q : dot_S16x256_S256x256_S16x256_1_0_0_1_n_n.contr.Idx) :
    (dot_S16x256_S256x256_S16x256_1_0_0_1_n_n.rhsIdx i q 1).val = (i 1).val := by
  unfold DotDims.rhsIdx
  rw [dif_neg (show ¬(1 : Fin S256x256.rank) ∈ dot_S16x256_S256x256_S16x256_1_0_0_1_n_n.rhsBatch by decide),
    dif_pos (show (1 : Fin S256x256.rank) ∈ dot_S16x256_S256x256_S16x256_1_0_0_1_n_n.rhsNonContracting by decide)]
  rfl

/-- The contraction of a [16,256] array with a [256,256] array over axis 1 of the first and axis 0 of the second, at
    (b, k), is the sum over h of the first at (b, h) times the second at (h, k). -/
theorem dot_apply (l : FVec Ideal S16x256 .f32) (r : FVec Ideal S256x256 .f32) (b : Fin 16) (k : Fin 256) :
    Host.dotGeneral (F := Ideal) dot_S16x256_S256x256_S16x256_1_0_0_1_n_n none l r (ix2 b k)
      = ∑ h : Fin 256, l (ix2 b h) * r (ix2 h k) := by
  simp only [Host.dotGeneral]
  rw [Ideal.dotGeneral_apply, ← Equiv.sum_comp (ValueIdx.contrEquiv1 dot_S16x256_S256x256_S16x256_1_0_0_1_n_n 256 rfl rfl).symm]
  refine Finset.sum_congr rfl fun h _ => ?_
  have hk := ValueIdx.contrEquiv1_symm_val dot_S16x256_S256x256_S16x256_1_0_0_1_n_n 256 rfl rfl h
  have el : dot_S16x256_S256x256_S16x256_1_0_0_1_n_n.lhsIdx (ix2 b k)
      ((ValueIdx.contrEquiv1 dot_S16x256_S256x256_S16x256_1_0_0_1_n_n 256 rfl rfl).symm h) = ix2 b h :=
    funext fun a => Fin.ext (by
      match a with
      | ⟨0, _⟩ => exact lhs_0 _ _
      | ⟨1, _⟩ => exact (lhs_1 _ _).trans hk)
  have er : dot_S16x256_S256x256_S16x256_1_0_0_1_n_n.rhsIdx (ix2 b k)
      ((ValueIdx.contrEquiv1 dot_S16x256_S256x256_S16x256_1_0_0_1_n_n 256 rfl rfl).symm h) = ix2 h k :=
    funext fun a => Fin.ext (by
      match a with
      | ⟨0, _⟩ => exact (rhs_0 _ _).trans hk
      | ⟨1, _⟩ => exact rhs_1 _ _)
  rw [el, er]

section Entry

variable (m : (ℓ : Loc nD τ sig) → Buf (Elt Ideal) ℓ) (ρ : Dev nD → PrngReg) (c : Dev nD)

/-- The projected hidden state as the first launch finds it. -/
theorem V1_main_v1 (b : Fin 16) (k : Fin 256) :
    (V1 m ρ c main_v1 : S16x256.Idx → EReal) (ix2 b k)
      = Cert.Attn.h1 (m ((c : Thread nD τ).loc main_arg0)) (m ((c : Thread nD τ).loc main_arg2)) b k := by
  have e : (V1 m ρ c main_v1 : S16x256.Idx → EReal)
      = Host.dotGeneral (F := Ideal) (φ₁ := .f32) (φ₂ := .f32) dot_S16x256_S256x256_S16x256_1_0_0_1_n_n none
          (m ((c : Thread nD τ).loc main_arg0))
          (transpose (s := S256x256) (α := EReal) S256x256 [1, 0] (m ((c : Thread nD τ).loc main_arg2))
            transposes_S256x256_S256x256_1_0) := by
    dsimp only [Gen.V1, Gen.W1, Gen.hostOps0]
    after_results
  refine (congrFun e (ix2 b k)).trans ((dot_apply _ _ b k).trans ?_)
  unfold Cert.Attn.h1
  refine Finset.sum_congr rfl fun h _ => ?_
  rw [transpose_ix2_apply]

/-- The prepared W2 as the first launch finds it: W2 transposed. -/
theorem V1_main_v3 (h k : Fin 256) :
    (V1 m ρ c main_v3 : S256x256.Idx → EReal) (ix2 h k) = (m ((c : Thread nD τ).loc main_arg3) : S256x256.Idx → EReal) (ix2 k h) := by
  have e : (V1 m ρ c main_v3 : S256x256.Idx → EReal)
      = (truncf (F := Ideal) (φ := .f32) .bf16 (transpose (s := S256x256) (α := EReal) S256x256 [1, 0]
            (m ((c : Thread nD τ).loc main_arg3)) transposes_S256x256_S256x256_1_0) bitsLt_bf16_f32 : FVec Ideal S256x256 .bf16) := by
    dsimp only [Gen.V1, Gen.W1, Gen.hostOps0]
    after_results
  rw [e, truncf_apply, transpose_ix2_apply]

/-- No host operation writes the encoder outputs. -/
theorem V1_main_arg1 : V1 m ρ c main_arg1 = m ((c : Thread nD τ).loc main_arg1) := by
  dsimp only [Gen.V1, Gen.W1, Gen.hostOps0]
  after_results

/-- No host operation writes V. -/
theorem V1_main_arg4 : V1 m ρ c main_arg4 = m ((c : Thread nD τ).loc main_arg4) := by
  dsimp only [Gen.V1, Gen.W1, Gen.hostOps0]
  after_results

end Entry

end Cert.KernelIdeal.HostSide

end
-- ==== Proof.LibBlockSum.lean ====
/-
  A finite sum read block by block.

  The indices below `a * b` are the pairs (block `p` below `a`, position `q` below `b`) through `j = p * b + q`; in a
  commutative monoid the order of summation does not matter, so the sum over all `j` is the sum over the blocks of the
  sum inside each block.
-/
import Mathlib.Algebra.BigOperators.Fin
import Mathlib.Logic.Equiv.Fin.Basic

open scoped BigOperators

namespace Cert.LibBlockSum

/-- Position `q` of block `p`, among `a` blocks of length `b`, is an index below `a * b`. -/
theorem block_lt {a b : ℕ} (p : Fin a) (q : Fin b) : p.val * b + q.val < a * b := by
  have hp : p.val + 1 ≤ a := p.isLt
  have hq : q.val < b := q.isLt
  calc p.val * b + q.val < p.val * b + b := Nat.add_lt_add_left hq _
    _ = (p.val + 1) * b := (Nat.succ_mul _ _).symm
    _ ≤ a * b := Nat.mul_le_mul_right b hp

/-- In a commutative additive monoid, the sum of `f` over the indices below `a * b` is the sum over the `a` consecutive
    blocks of length `b` of the sums of `f` inside each block: `∑ j, f j = ∑ p, ∑ q, f (p * b + q)`. -/
theorem sum_blocks {M : Type*} [AddCommMonoid M] (a b : ℕ) (f : Fin (a * b) → M) :
    ∑ j : Fin (a * b), f j = ∑ p : Fin a, ∑ q : Fin b, f ⟨p.val * b + q.val, block_lt p q⟩ := by
  rw [← Equiv.sum_comp (finProdFinEquiv (m := a) (n := b)) f, Fintype.sum_prod_type]
  refine Finset.sum_congr rfl fun p _ => Finset.sum_congr rfl fun q _ => congrArg f (Fin.ext ?_)
  show q.val + b * p.val = p.val * b + q.val
  rw [Nat.mul_comm, Nat.add_comm]

/-- The instance for 1024 = 8 · 128: a sum over 1024 indices is the sum over 8 blocks of 128 consecutive indices. -/
theorem sum_8x128 {M : Type*} [AddCommMonoid M] (f : Fin 1024 → M) :
    ∑ j : Fin 1024, f j = ∑ p : Fin 8, ∑ q : Fin 128, f ⟨p.val * 128 + q.val, by omega⟩ :=
  sum_blocks 8 128 f

end Cert.LibBlockSum
-- ==== Proof.TilesSum.lean ====
/-
  The sixteen tiles together are the whole sequence axis.

  Every position s below 8192 is 512·j + q for exactly one tile j below 16 and one q below 512, so a sum over
  the tiles of the sums inside each tile is the sum over all positions. Hence the normalizer and the weighted
  sum kept after all sixteen tiles, at any shift μ, are Σ_s exp(σ_s - μ) and Σ_s exp(σ_s - μ)·x_s; and since a
  softmax does not see a common shift of its scores, exp(σ_s - μ) over that normalizer is the softmax weight of
  s, and the weighted sum over the normalizer is the softmax-weighted sum of x.
-/
import proofs.«141412_j3788161155177_2_alg».proof.Proof.Tiles
import proofs.«141412_j3788161155177_2_alg».proof.Proof.LibOnlineSoftmax
import proofs.«141412_j3788161155177_2_alg».proof.Proof.LibBlockSum
import proofs.«141412_j3788161155177_2_alg».proof.Proof.Spec

noncomputable section

namespace Cert.Attn

open Cert.LibOnlineSoftmax

/-- A sum over the sixteen tiles of a quantity that, at entry q of tile j, is F at position 512·j + q, is the sum of F
    over all positions. -/
theorem sum_tiles_eq_sum_positions (G : ℕ → Fin 512 → ℝ) (F : Fin 8192 → ℝ)
    (hG : ∀ (j : ℕ) (q : Fin 512) (s : Fin 8192), s.val = 512 * j + q.val → G j q = F s) :
    ∑ j ∈ Finset.range 16, ∑ q : Fin 512, G j q = ∑ s : Fin 8192, F s := by
  rw [Finset.sum_range]
  refine Eq.trans ?_ (Cert.LibBlockSum.sum_blocks 16 512 F).symm
  refine Finset.sum_congr rfl fun p _ => Finset.sum_congr rfl fun q _ => ?_
  exact hG p.val q _ (Nat.mul_comm p.val 512 ▸ rfl)

/-- The normalizer after all sixteen tiles is the sum over all positions. -/
theorem accL_all (σ : Fin 8192 → ℝ) (μ : ℝ) : accL (tileOf σ) 16 μ = ∑ s : Fin 8192, Real.exp (σ s - μ) := by
  unfold accL
  exact sum_tiles_eq_sum_positions (fun j q => Real.exp (tileOf σ j q - μ)) (fun s => Real.exp (σ s - μ))
    (fun j q s hs => by rw [tileOf_of_eq σ j q s hs])

/-- The weighted sum after all sixteen tiles is the sum over all positions. -/
theorem accC_all (σ x : Fin 8192 → ℝ) (μ : ℝ) :
    accC (tileOf σ) (tileOf x) 16 μ = ∑ s : Fin 8192, Real.exp (σ s - μ) * x s := by
  unfold accC
  exact sum_tiles_eq_sum_positions (fun j q => Real.exp (tileOf σ j q - μ) * tileOf x j q)
    (fun s => Real.exp (σ s - μ) * x s)
    (fun j q s hs => by rw [tileOf_of_eq σ j q s hs, tileOf_of_eq x j q s hs])

/-- A shifted exponential over the final normalizer is the softmax weight. -/
theorem attn_value (σ : Fin 8192 → ℝ) (μ : ℝ) (s : Fin 8192) :
    Real.exp (σ s - μ) / accL (tileOf σ) 16 μ = Real.exp (σ s) / ∑ s' : Fin 8192, Real.exp (σ s') := by
  rw [accL_all, softmax_shift σ μ s]

/-- The final weighted sum over the final normalizer is the softmax-weighted sum. -/
theorem ctx_value (σ x : Fin 8192 → ℝ) (μ : ℝ) :
    accC (tileOf σ) (tileOf x) 16 μ / accL (tileOf σ) 16 μ
      = ∑ s : Fin 8192, (Real.exp (σ s) / ∑ s' : Fin 8192, Real.exp (σ s')) * x s := by
  rw [accC_all, accL_all, weighted_shift σ x μ]

end Cert.Attn

end
-- ==== Proof.KValue.lean ====
/-
  The idealized kernel's three results as functions of its five arguments.

  The first launch reads the projected hidden state h1 = hidden·W1ᵀ and W2ᵀ, which the host operations before it
  computed, and the arguments V and encoder_outputs themselves; so the score it computes at (b, s) is the block's
  score. Its three kept arrays hold, per batch row, a real shift μ, the normalizer Σ_s exp(σ_s − μ) and the
  weighted sums Σ_s exp(σ_s − μ)·x_s divided by that normalizer. The second launch divides exp(score − μ) by the
  normalizer and tiles the context. A softmax does not see the shift μ, so the attention weights are the softmax of
  the scores and the context is the softmax-weighted sum of the encoder outputs.
-/
import proofs.«141412_j3788161155177_2_alg».proof.Proof.Gen.KernelIdeal.Frame
import proofs.«141412_j3788161155177_2_alg».proof.Proof.Region1
import proofs.«141412_j3788161155177_2_alg».proof.Proof.R0Scores
import proofs.«141412_j3788161155177_2_alg».proof.Proof.R0KeptArrays
import proofs.«141412_j3788161155177_2_alg».proof.Proof.R0Inv
import proofs.«141412_j3788161155177_2_alg».proof.Proof.HostSide
import proofs.«141412_j3788161155177_2_alg».proof.Proof.TilesSum
import proofs.«141412_j3788161155177_2_alg».proof.Proof.RowStep
import proofs.«141412_j3788161155177_2_alg».proof.Proof.Spec

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx
open Cert.Attn Cert.Attn.Row Cert.LibOnlineSoftmax Cert.KernelIdeal.R0 Cert.KernelIdeal.R1

/-- The launch's score over arrays holding h1 and W2 transposed is the block's score. -/
theorem kscore_eq_score (hp : S16x256.Idx → EReal) (wt : S256x256.Idx → EReal) (v : S1x256.Idx → EReal) (e : S16x8192x256.Idx → EReal)
    (hid : S16x256.Idx → EReal) (w1 w2 : S256x256.Idx → EReal) (b : Fin 16) (s : Fin 8192)
    (h0 : ∀ k : Fin 256, hp (ix2 b k) = h1 hid w1 b k) (hw : ∀ h k : Fin 256, wt (ix2 h k) = w2 (ix2 k h)) :
    kscore hp wt v e b s = score hid e w1 w2 v b s := by
  unfold kscore score h2
  refine Finset.sum_congr rfl fun k _ => ?_
  rw [h0 k]
  refine congrArg (fun z => Ideal.tanh (h1 hid w1 b k + z) * v (ix2 0 k)) (Finset.sum_congr rfl fun h _ => ?_)
  rw [hw h k]

section Results

variable (m : (ℓ : Loc nD τ sig) → Buf (Elt Ideal) ℓ) (ρ : Dev nD → PrngReg) (c : Dev nD)

/-- The five argument arrays as plain extended-real functions of their indices. -/
abbrev a0 : S16x256.Idx → EReal := m ((c : Thread nD τ).loc main_arg0)
abbrev a1 : S16x8192x256.Idx → EReal := m ((c : Thread nD τ).loc main_arg1)
abbrev a2 : S256x256.Idx → EReal := m ((c : Thread nD τ).loc main_arg2)
abbrev a3 : S256x256.Idx → EReal := m ((c : Thread nD τ).loc main_arg3)
abbrev a4 : S1x256.Idx → EReal := m ((c : Thread nD τ).loc main_arg4)

theorem aV_eq : aV (V1 m ρ) c = a4 m c := HostSide.V1_main_arg4 m ρ c
theorem aE_eq : aE (V1 m ρ) c = a1 m c := HostSide.V1_main_arg1 m ρ c

/-- The launch's scores are the block's scores. -/
theorem kscore_V1 (b : Fin 16) (s : Fin 8192) :
    kscore (aHp (V1 m ρ) c) (aWt (V1 m ρ) c) (aV (V1 m ρ) c) (aE (V1 m ρ) c) b s = score (a0 m c) (a1 m c) (a2 m c) (a3 m c) (a4 m c) b s := by
  rw [aV_eq, aE_eq]
  exact kscore_eq_score _ _ _ _ (a0 m c) (a2 m c) (a3 m c) b s (fun k => HostSide.V1_main_v1 m ρ c b k) (fun h k => HostSide.V1_main_v3 m ρ c h k)

theorem σk_eq (b : Fin 16) : σk (V1 m ρ) c b = σ (a0 m c) (a1 m c) (a2 m c) (a3 m c) (a4 m c) b := by
  funext s
  unfold σk σ
  exact congrArg EReal.toReal (kscore_V1 m ρ c b s)

theorem xk_eq (b : Fin 16) (h : Fin 256) : xk (V1 m ρ) c b h = fun s => xr (a1 m c) b s h := by
  funext s
  unfold xk xr
  rw [aE_eq]

variable (hx1 : ∀ i, a1 m c i ≠ ⊤ ∧ a1 m c i ≠ ⊥) (hx4 : ∀ i, a4 m c i ≠ ⊤ ∧ a4 m c i ≠ ⊥)

include hx1 hx4 in
/-- What the three kept arrays hold in batch row b after the first launch. -/
theorem kept (b : Fin 16) :
    ∃ μ : ℝ, keptMax (V1 m ρ) c (ix2 b 0) = (μ : EReal)
      ∧ keptNorm (V1 m ρ) c (ix2 b 0) = ((accL (tileOf (σ (a0 m c) (a1 m c) (a2 m c) (a3 m c) (a4 m c) b)) 16 μ : ℝ) : EReal)
      ∧ ∀ h : Fin 256, keptCtx (V1 m ρ) c (ix2 b h)
          = ((accC (tileOf (σ (a0 m c) (a1 m c) (a2 m c) (a3 m c) (a4 m c) b)) (tileOf fun s => xr (a1 m c) b s h) 16 μ
              / accL (tileOf (σ (a0 m c) (a1 m c) (a2 m c) (a3 m c) (a4 m c) b)) 16 μ : ℝ) : EReal) := by
  have hv : ∀ i, aV (V1 m ρ) c i ≠ ⊤ ∧ aV (V1 m ρ) c i ≠ ⊥ := by rw [aV_eq]; exact hx4
  have he : ∀ i, aE (V1 m ρ) c i ≠ ⊤ ∧ aE (V1 m ρ) c i ≠ ⊥ := by rw [aE_eq]; exact hx1
  have hb8 : b.val % 8 < 8 := Nat.mod_lt _ (by decide)
  have hbl := b.isLt
  have hb : b.val = 8 * ((16 * (b.val / 8) + 15) / 16) + (⟨b.val % 8, hb8⟩ : Fin 8).val := by
    show b.val = 8 * ((16 * (b.val / 8) + 15) / 16) + b.val % 8
    omega
  have e15 : (16 * (b.val / 8) + 15) % 16 = 15 := by omega
  obtain ⟨μ, hm, hl, hc⟩ := kept_after (V1 m ρ) c hv he (16 * (b.val / 8) + 15) (last_point_lt _ b.isLt) ⟨b.val % 8, hb8⟩ b hb
  rw [e15, σk_eq] at hl
  refine ⟨μ, hm, hl, fun h => ?_⟩
  have := hc h
  rw [if_pos e15, σk_eq, xk_eq] at this
  exact this

include hx1 hx4 in
/-- The attention weights. -/
theorem attn_result : W3 m ρ c (Proc.devRef .tc main_v5_1) = outAttn (a0 m c) (a1 m c) (a2 m c) (a3 m c) (a4 m c) := by
  refine (W3_arr m ρ c 5).trans ((attn_final (V2 m ρ) c).trans ?_)
  have e0 : (V2 m ρ c main_v4_0 : S16x8192.Idx → EReal) = scoresOf (aHp (V1 m ρ) c) (aWt (V1 m ρ) c) (aV (V1 m ρ) c) (aE (V1 m ρ) c) :=
    (hF0 m ρ c 4).symm.trans (scores_final (V1 m ρ) c)
  have e1 : (V2 m ρ c main_v4_1 : S16x1.Idx → EReal) = keptMax (V1 m ρ) c := (hF0 m ρ c 5).symm.trans (max_final (V1 m ρ) c)
  have e2 : (V2 m ρ c main_v4_2 : S16x1.Idx → EReal) = keptNorm (V1 m ρ) c := (hF0 m ρ c 6).symm.trans (norm_final (V1 m ρ) c)
  rw [e0, e1, e2]
  funext i
  obtain ⟨b, s, rfl⟩ : ∃ (b : Fin 16) (s : Fin 8192), i = ix2 b s := ⟨i 0, i 1, eq_ix2 i⟩
  obtain ⟨μ, hm, hl, -⟩ := kept m ρ c hx1 hx4 b
  have hsc : scoresOf (aHp (V1 m ρ) c) (aWt (V1 m ρ) c) (aV (V1 m ρ) c) (aE (V1 m ρ) c) (ix2 b s)
      = ((σ (a0 m c) (a1 m c) (a2 m c) (a3 m c) (a4 m c) b s : ℝ) : EReal) := by
    show kscore (aHp (V1 m ρ) c) (aWt (V1 m ρ) c) (aV (V1 m ρ) c) (aE (V1 m ρ) c) b s = _
    rw [kscore_V1]
    exact score_real _ _ _ _ _ hx4 b s
  show Ideal.div (Ideal.exp (scoresOf (aHp (V1 m ρ) c) (aWt (V1 m ρ) c) (aV (V1 m ρ) c) (aE (V1 m ρ) c) (ix2 b s) - keptMax (V1 m ρ) c (ix2 b 0)))
      (keptNorm (V1 m ρ) c (ix2 b 0)) = ((P (a0 m c) (a1 m c) (a2 m c) (a3 m c) (a4 m c) b s : ℝ) : EReal)
  rw [hsc, hm, hl, exp_coe_sub, div_coe_coe _ _ (accL_pos _ 15 μ).ne']
  exact congrArg _ (attn_value _ μ s)

include hx1 hx4 in
/-- The context vectors, as the first launch leaves them. -/
theorem ctx_kept (b : Fin 16) (h : Fin 256) :
    keptCtx (V1 m ρ) c (ix2 b h) = ((C (a0 m c) (a1 m c) (a2 m c) (a3 m c) (a4 m c) b h : ℝ) : EReal) := by
  obtain ⟨μ, -, -, hc⟩ := kept m ρ c hx1 hx4 b
  rw [hc h]
  exact congrArg _ (ctx_value _ _ μ)

include hx1 hx4 in
/-- The context vectors. -/
theorem ctx_result : W3 m ρ c (Proc.devRef .tc main_v4_3) = outCtx (a0 m c) (a1 m c) (a2 m c) (a3 m c) (a4 m c) := by
  refine (W3_arr m ρ c 3).trans (((dat1 (V2 m ρ) c).arrAt_in 3 rfl _).trans ((A_eq1 (V2 m ρ) c 3).trans ?_))
  refine ((hF0 m ρ c 7).symm.trans (ctx_final (V1 m ρ) c)).trans ?_
  funext i
  obtain ⟨b, h, rfl⟩ : ∃ (b : Fin 16) (h : Fin 256), i = ix2 b h := ⟨i 0, i 1, eq_ix2 i⟩
  exact ctx_kept m ρ c hx1 hx4 b h

include hx1 hx4 in
/-- The tiled context. -/
theorem tiled_result : W3 m ρ c (Proc.devRef .tc main_v5_0) = outTiled (a0 m c) (a1 m c) (a2 m c) (a3 m c) (a4 m c) := by
  refine (W3_arr m ρ c 4).trans ((tiled_final (V2 m ρ) c).trans ?_)
  have e3 : (V2 m ρ c main_v4_3 : S16x256.Idx → EReal) = keptCtx (V1 m ρ) c := (hF0 m ρ c 7).symm.trans (ctx_final (V1 m ρ) c)
  rw [e3]
  funext i
  obtain ⟨b, h, s, rfl⟩ : ∃ (b : Fin 16) (h : Fin 256) (s : Fin 8192), i = ix3 b h s := ⟨i 0, i 1, i 2, eq_ix3 i⟩
  exact ctx_kept m ρ c hx1 hx4 b h

end Results

/-- The three results. -/
theorem results (m : (ℓ : Loc nD τ sig) → Buf (Elt Ideal) ℓ) (ρ : Dev nD → PrngReg) (c : Dev nD)
    (h1 : ∀ i : S16x8192x256.Idx, m ((c : Thread nD τ).loc main_arg1) i ≠ (⊤ : EReal) ∧ m ((c : Thread nD τ).loc main_arg1) i ≠ (⊥ : EReal))
    (h4 : ∀ i : S1x256.Idx, m ((c : Thread nD τ).loc main_arg4) i ≠ (⊤ : EReal) ∧ m ((c : Thread nD τ).loc main_arg4) i ≠ (⊥ : EReal)) :
    W3 m ρ c (Proc.devRef .tc main_v5_0) = Cert.Attn.outTiled (m ((c : Thread nD τ).loc main_arg0)) (m ((c : Thread nD τ).loc main_arg1)) (m ((c : Thread nD τ).loc main_arg2)) (m ((c : Thread nD τ).loc main_arg3)) (m ((c : Thread nD τ).loc main_arg4))
    ∧ W3 m ρ c (Proc.devRef .tc main_v4_3) = Cert.Attn.outCtx (m ((c : Thread nD τ).loc main_arg0)) (m ((c : Thread nD τ).loc main_arg1)) (m ((c : Thread nD τ).loc main_arg2)) (m ((c : Thread nD τ).loc main_arg3)) (m ((c : Thread nD τ).loc main_arg4))
    ∧ W3 m ρ c (Proc.devRef .tc main_v5_1) = Cert.Attn.outAttn (m ((c : Thread nD τ).loc main_arg0)) (m ((c : Thread nD τ).loc main_arg1)) (m ((c : Thread nD τ).loc main_arg2)) (m ((c : Thread nD τ).loc main_arg3)) (m ((c : Thread nD τ).loc main_arg4)) :=
  ⟨tiled_result m ρ c h1 h4, ctx_result m ρ c h1 h4, attn_result m ρ c h1 h4⟩

end Cert.KernelIdeal.KValue

end
-- ==== Proof.RefSide.lean ====
/-
  The reference computation of the additive-attention block, read stage by stage, is the block of the
  specification.

  Its sixth stage is the score: the two projections are the sums h1 and h2, their sum goes through tanh, and
  the contraction with V gives score[b,s]. With V finite every score is a real number σ[b,s].

  The reference then subtracts from every score of row b the maximum M[b] of that row (a fold of max from -∞
  over the 8192 scores), exponentiates, and divides by the sum of the exponentials. Nothing about M[b] is
  needed but that it is a real number: a fold of max from -∞ over a nonempty family of reals is one of them.
  Then exp(σ[b,s] - M[b]) / (0 + Σ_s' exp(σ[b,s'] - M[b])) is the softmax weight P[b,s], because a softmax does
  not see a common shift of its scores.

  The context is 0 + Σ_s P[b,s]·e[b,s,h]; with the encoder outputs finite each product is a product of reals
  and the sum is the real number C[b,h]. The tiled result repeats C along a new last axis.
-/
import proofs.«141412_j3788161155177_2_alg».proof.Proof.Gen.ReferenceIdeal.Read
import proofs.«141412_j3788161155177_2_alg».proof.Proof.Spec

noncomputable section

namespace Cert.Attn.Ref

open Cert.ReferenceIdeal Cert.ReferenceIdeal.Gen Cert.ReferenceIdeal.Read Idealize.ShloMosaic Idealize.ShloMosaic.ValueIdx

/-! ## A maximum of real numbers is a real number -/

/-- A fold of max from -∞ over a finite family of reals is -∞ when the family is empty and one real otherwise. -/
theorem fold_max_real {ι : Type*} (f : ι → EReal) (hf : ∀ k, ∃ r : ℝ, f k = (r : EReal)) (S : Finset ι) :
    (S.fold max (⊥ : EReal) f = ⊥ ∧ S = ∅) ∨ ∃ M : ℝ, S.fold max (⊥ : EReal) f = (M : EReal) := by
  classical
  induction S using Finset.induction_on with
  | empty => exact Or.inl ⟨Finset.fold_empty, rfl⟩
  | insert a S ha ih =>
    refine Or.inr ?_
    rw [Finset.fold_insert ha]
    obtain ⟨r, hr⟩ := hf a
    rcases ih with ⟨h0, _⟩ | ⟨M, hM⟩
    · exact ⟨r, by rw [h0, hr, max_bot_right]⟩
    · rw [hr, hM]
      rcases max_choice ((r : ℝ) : EReal) ((M : ℝ) : EReal) with h | h
      · exact ⟨r, h⟩
      · exact ⟨M, h⟩

/-- Over a nonempty family the fold is a real number. -/
theorem fold_max_real_of_nonempty {ι : Type*} (f : ι → EReal) (hf : ∀ k, ∃ r : ℝ, f k = (r : EReal)) (S : Finset ι)
    (hS : S.Nonempty) : ∃ M : ℝ, S.fold max (⊥ : EReal) f = (M : EReal) := by
  rcases fold_max_real f hf S with ⟨_, h0⟩ | h
  · exact absurd h0 hS.ne_empty
  · exact h

/-- The word 0xFF800000 is -∞. -/
theorem ofBits_neg_inf : Ideal.ofBits .f32 0xFF800000#32 = (⊥ : EReal) := by simp [Ideal.ofBits, Ideal.ieee]

section Stages

variable (x0 : (⟨S16x256, .f32⟩ : BufTy).Contents (Elt Ideal)) (x1 : (⟨S16x8192x256, .f32⟩ : BufTy).Contents (Elt Ideal))
  (x2 x3 : (⟨S256x256, .f32⟩ : BufTy).Contents (Elt Ideal)) (x4 : (⟨S1x256, .f32⟩ : BufTy).Contents (Elt Ideal))

/-! ## The scores -/

/-- The sixth stage at (b, s, 0) is the score of position s in row b. -/
theorem v6_score (b : Fin 16) (s : Fin 8192) (c : Fin 1) :
    val_main_v6 (F := Ideal) x0 x1 x2 x3 x4 (ix3 b s c) = score x0 x1 x2 x3 x4 b s := by
  rw [val_main_v6_apply]
  unfold score
  refine Finset.sum_congr rfl fun k _ => ?_
  rw [val_main_v5_apply, val_main_v4_apply, val_main_v3_apply, val_main_v1_apply, val_main_v0_apply, val_main_v2_apply]
  have e1 : ∀ h : Fin 256, lidx_main_v0 (idx_main_v1 (idx_main_v3 (lidx_main_v6 (ix3 b s c) k))) h = ix2 b h :=
    fun h => funext fun a => by match a with | ⟨0, _⟩ => rfl | ⟨1, _⟩ => rfl
  have e2 : ∀ h : Fin 256, ridx_main_v0 (idx_main_v1 (idx_main_v3 (lidx_main_v6 (ix3 b s c) k))) h = ix2 k h :=
    fun h => funext fun a => by match a with | ⟨0, _⟩ => rfl | ⟨1, _⟩ => rfl
  have e3 : ∀ h : Fin 256, lidx_main_v2 (lidx_main_v6 (ix3 b s c) k) h = ix3 b s h :=
    fun h => funext fun a => by match a with | ⟨0, _⟩ => rfl | ⟨1, _⟩ => rfl | ⟨2, _⟩ => rfl
  have e4 : ∀ h : Fin 256, ridx_main_v2 (lidx_main_v6 (ix3 b s c) k) h = ix2 k h :=
    fun h => funext fun a => by match a with | ⟨0, _⟩ => rfl | ⟨1, _⟩ => rfl
  have e5 : ridx_main_v6 (ix3 b s c) k = ix2 (0 : Fin 1) k :=
    funext fun a => by match a with | ⟨0, _⟩ => exact Fin.ext (Nat.lt_one_iff.mp c.isLt) | ⟨1, _⟩ => rfl
  simp only [e1, e2, e3, e4, e5, Ideal.hostUnary_tanh_def, Ideal.addf_def]
  rfl

/-- With V finite the sixth stage is a real number at every index. -/
theorem v6_real (hx4 : ∀ i, x4 i ≠ ⊤ ∧ x4 i ≠ ⊥) (b : Fin 16) (s : Fin 8192) (c : Fin 1) :
    val_main_v6 (F := Ideal) x0 x1 x2 x3 x4 (ix3 b s c) = ((σ x0 x1 x2 x3 x4 b s : ℝ) : EReal) := by
  rw [v6_score, score_real x0 x1 x2 x3 x4 hx4]

/-! ## The row maximum is a real number -/

/-- The maximum over axis 1, from -∞, of an array of real numbers is a real number at every index. -/
theorem reduce_max_real (y : S16x8192x1.Idx → EReal) (hy : ∀ i, ∃ r : ℝ, y i = (r : EReal)) (j : S16x1.Idx) :
    ∃ M : ℝ, Host.reduce (FloatOps.maximumf (F := Ideal) (φ := .f32)) y (val_main_cst (F := Ideal))
      reducesTo_S16x8192x1_S16x1_d1 h_S_ j = (M : EReal) := by
  have h : S16x8192x1.Reduces [1] S16x1 := by decide
  rw [Host.reduce_eq_fold_single (FloatOps.maximumf (F := Ideal) (φ := .f32)) y _ reducesTo_S16x8192x1_S16x1_d1 h h_S_ j, val_main_cst_apply,
    Ideal.ofBits_def, ofBits_neg_inf]
  exact fold_max_real_of_nonempty (y ∘ h.lift j) (fun k => hy _) Finset.univ
    ⟨⟨0, by show 0 < 8192; norm_num⟩, Finset.mem_univ _⟩

/-- With V finite the ninth stage, the row maximum, is a real number. -/
theorem v9_real (hx4 : ∀ i, x4 i ≠ ⊤ ∧ x4 i ≠ ⊥) (j : S16x1.Idx) :
    ∃ M : ℝ, val_main_v9 (F := Ideal) x0 x1 x2 x3 x4 j = (M : EReal) := by
  have hy : ∀ i, ∃ r : ℝ, val_main_v6 (F := Ideal) x0 x1 x2 x3 x4 i = (r : EReal) := fun i => by
    obtain ⟨b, s, c, rfl⟩ : ∃ (b : Fin 16) (s : Fin 8192) (c : Fin 1), i = ix3 b s c := ⟨i 0, i 1, i 2, eq_ix3 i⟩
    exact ⟨_, v6_real x0 x1 x2 x3 x4 hx4 b s c⟩
  rw [val_main_v9_apply, val_main_v8_apply, val_main_cst_0_apply, Ideal.ofBits_def, ofBits_neg_inf, Ideal.maximumf_def,
    max_bot_left]
  unfold val_main_v7
  exact reduce_max_real _ hy j

/-! ## The softmax weights -/

/-- The thirteenth stage: the exponential of the score less the row maximum M. -/
theorem v13_exp (hx4 : ∀ i, x4 i ≠ ⊤ ∧ x4 i ≠ ⊥) (b : Fin 16) (s : Fin 8192) (c : Fin 1) (M : ℝ)
    (hM : val_main_v9 (F := Ideal) x0 x1 x2 x3 x4 (ix2 b (0 : Fin 1)) = (M : EReal)) :
    val_main_v13 (F := Ideal) x0 x1 x2 x3 x4 (ix3 b s c)
      = ((Real.exp (σ x0 x1 x2 x3 x4 b s - M) : ℝ) : EReal) := by
  rw [val_main_v13_apply, val_main_v12_apply, val_main_v11_apply, val_main_v10_apply]
  have e : idx_main_v10 (idx_main_v11 (ix3 b s c)) = ix2 b (0 : Fin 1) :=
    funext fun a => by match a with | ⟨0, _⟩ => rfl | ⟨1, _⟩ => rfl
  rw [e, hM, v6_real x0 x1 x2 x3 x4 hx4, Ideal.hostUnary_exp_def, Ideal.subf_def, ← EReal.coe_sub, Ideal.exp_coe]

/-- The fourteenth stage: the sum over the row of those exponentials. -/
theorem v14_sum (hx4 : ∀ i, x4 i ≠ ⊤ ∧ x4 i ≠ ⊥) (b : Fin 16) (M : ℝ)
    (hM : val_main_v9 (F := Ideal) x0 x1 x2 x3 x4 (ix2 b (0 : Fin 1)) = (M : EReal)) :
    val_main_v14 (F := Ideal) x0 x1 x2 x3 x4 (ix2 b (0 : Fin 1))
      = ((∑ s : Fin 8192, Real.exp (σ x0 x1 x2 x3 x4 b s - M) : ℝ) : EReal) := by
  rw [val_main_v14_apply, val_main_cst_1_apply, Ideal.ofBits_def, Ideal.ofBits_zero_f32, zero_add, ← coe_sum]
  refine Finset.sum_congr rfl fun s _ => ?_
  have e : idx_main_v14 (ix2 b (0 : Fin 1)) s = ix3 b s (0 : Fin 1) :=
    funext fun a => by match a with | ⟨0, _⟩ => rfl | ⟨1, _⟩ => rfl | ⟨2, _⟩ => rfl
  rw [e, v13_exp x0 x1 x2 x3 x4 hx4 b s 0 M hM]

/-- The seventeenth stage is the softmax weight: the common shift M drops out. -/
theorem v17_softmax (hx4 : ∀ i, x4 i ≠ ⊤ ∧ x4 i ≠ ⊥) (b : Fin 16) (s : Fin 8192) (c : Fin 1) :
    val_main_v17 (F := Ideal) x0 x1 x2 x3 x4 (ix3 b s c) = ((P x0 x1 x2 x3 x4 b s : ℝ) : EReal) := by
  obtain ⟨M, hM⟩ := v9_real x0 x1 x2 x3 x4 hx4 (ix2 b (0 : Fin 1))
  rw [val_main_v17_apply, val_main_v16_apply, val_main_v15_apply]
  have e : idx_main_v15 (idx_main_v16 (ix3 b s c)) = ix2 b (0 : Fin 1) :=
    funext fun a => by match a with | ⟨0, _⟩ => rfl | ⟨1, _⟩ => rfl
  have hZ : (∑ s' : Fin 8192, Real.exp (σ x0 x1 x2 x3 x4 b s' - M)) ≠ 0 :=
    (Finset.sum_pos (fun s' _ => Real.exp_pos _) ⟨⟨0, by norm_num⟩, Finset.mem_univ _⟩).ne'
  rw [e, v13_exp x0 x1 x2 x3 x4 hx4 b s c M hM, v14_sum x0 x1 x2 x3 x4 hx4 b M hM, Ideal.hostDivf_def,
    Ideal.div_coe hZ, ← EReal.coe_mul, mul_one_div, softmax_shift (σ x0 x1 x2 x3 x4 b) M s]
  rfl

/-- Result 2 of the reference is the array of softmax weights. -/
theorem attn_eq (hx4 : ∀ i, x4 i ≠ ⊤ ∧ x4 i ≠ ⊥) :
    val_main_v23 (F := Ideal) x0 x1 x2 x3 x4 = outAttn x0 x1 x2 x3 x4 := by
  funext i
  obtain ⟨b, s, rfl⟩ : ∃ (b : Fin 16) (s : Fin 8192), i = ix2 b s := ⟨i 0, i 1, eq_ix2 i⟩
  have e : idx_main_v23 (ix2 b s) = ix3 b s (0 : Fin 1) := funext fun a => Fin.ext (by
    have hb : b.val < 16 := b.isLt
    have hs : s.val < 8192 := s.isLt
    match a with
    | ⟨0, _⟩ => show (b.val * 8192 + s.val) / 8192 = b.val; omega
    | ⟨1, _⟩ => show (b.val * 8192 + s.val) / 1 % 8192 = s.val; omega
    | ⟨2, _⟩ => rfl)
  rw [val_main_v23_apply, e, v17_softmax x0 x1 x2 x3 x4 hx4 b s 0]
  rfl

/-! ## The context -/

/-- The twentieth stage is the context vector: each term is a product of two real numbers. -/
theorem v20_ctx (hx1 : ∀ i, x1 i ≠ ⊤ ∧ x1 i ≠ ⊥) (hx4 : ∀ i, x4 i ≠ ⊤ ∧ x4 i ≠ ⊥) (b : Fin 16) (h : Fin 256) :
    val_main_v20 (F := Ideal) x0 x1 x2 x3 x4 (ix2 b h) = ((C x0 x1 x2 x3 x4 b h : ℝ) : EReal) := by
  rw [val_main_v20_apply, val_main_cst_2_apply, Ideal.ofBits_def, Ideal.ofBits_zero_f32, zero_add]
  unfold C
  rw [← coe_sum]
  refine Finset.sum_congr rfl fun s _ => ?_
  have e1 : idx_main_v20 (ix2 b h) s = ix3 b s h :=
    funext fun a => by match a with | ⟨0, _⟩ => rfl | ⟨1, _⟩ => rfl | ⟨2, _⟩ => rfl
  have e2 : idx_main_v18 (ix3 b s h) = ix3 b s (0 : Fin 1) :=
    funext fun a => by match a with | ⟨0, _⟩ => rfl | ⟨1, _⟩ => rfl | ⟨2, _⟩ => rfl
  rw [e1, val_main_v19_apply, val_main_v18_apply, e2, v17_softmax x0 x1 x2 x3 x4 hx4 b s 0, Ideal.mulf_def, EReal.coe_mul]
  unfold xr
  rw [coe_toReal_of_finite (hx1 _)]

/-- Result 1 of the reference is the array of context vectors. -/
theorem ctx_eq (hx1 : ∀ i, x1 i ≠ ⊤ ∧ x1 i ≠ ⊥) (hx4 : ∀ i, x4 i ≠ ⊤ ∧ x4 i ≠ ⊥) :
    val_main_v20 (F := Ideal) x0 x1 x2 x3 x4 = outCtx x0 x1 x2 x3 x4 := by
  funext i
  obtain ⟨b, h, rfl⟩ : ∃ (b : Fin 16) (h : Fin 256), i = ix2 b h := ⟨i 0, i 1, eq_ix2 i⟩
  rw [v20_ctx x0 x1 x2 x3 x4 hx1 hx4 b h]
  rfl

/-- Result 0 of the reference is the context repeated along the last axis. -/
theorem tiled_eq (hx1 : ∀ i, x1 i ≠ ⊤ ∧ x1 i ≠ ⊥) (hx4 : ∀ i, x4 i ≠ ⊤ ∧ x4 i ≠ ⊥) :
    val_main_v22 (F := Ideal) x0 x1 x2 x3 x4 = outTiled x0 x1 x2 x3 x4 := by
  funext i
  obtain ⟨b, h, t, rfl⟩ : ∃ (b : Fin 16) (h : Fin 256) (t : Fin 8192), i = ix3 b h t := ⟨i 0, i 1, i 2, eq_ix3 i⟩
  have e : idx_main_v21 (idx_main_v22 (ix3 b h t)) = ix2 b h :=
    funext fun a => by match a with | ⟨0, _⟩ => rfl | ⟨1, _⟩ => rfl
  rw [val_main_v22_apply, val_main_v21_apply, e, v20_ctx x0 x1 x2 x3 x4 hx1 hx4 b h]
  rfl

end Stages

end Cert.Attn.Ref

end
-- ==== Proof.Finite.lean ====
/-
  The precondition is the conjunction, over the five argument arrays, of "every entry has absolute value
  below +∞". The absolute value of an extended real x is max(x, -x), which is +∞ at both infinities; so an
  entry whose absolute value is below +∞ is a real number. Read at the encoder outputs and at V this gives
  the two finiteness facts the softmax and the weighted sum need.
-/
import proofs.«141412_j3788161155177_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Attn.Finite

open Idealize.ShloMosaic Idealize.ShloMosaic.ValueIdx Cert.Pre_finite_inputs

/-- The scalar shape has one index. -/
instance : Subsingleton S_.Idx := ⟨fun _ _ => funext fun d => d.elim0⟩

/-- The word 0x7F800000 is +∞. -/
theorem ofBits_pos_inf : Ideal.ofBits .f32 0x7F800000#32 = (⊤ : EReal) := by simp [Ideal.ofBits, Ideal.ieee]

/-- An extended real whose absolute value max(x, -x) is below +∞ is neither infinity. -/
theorem finite_of_abs_lt (x : EReal)
    (h : Ideal.cmp .olt (max x (-x)) (Ideal.ofBits .f32 0x7F800000#32) = 1#1) : x ≠ ⊤ ∧ x ≠ ⊥ := by
  rw [ofBits_pos_inf] at h
  induction x using EReal.rec with
  | bot => exact absurd h (by simp [Ideal.cmp])
  | coe r => exact ⟨EReal.coe_ne_top r, EReal.coe_ne_bot r⟩
  | top => exact absurd h (by simp [Ideal.cmp])

variable [Facts]

/-- Under the precondition every encoder output and every entry of V is a real number. -/
theorem finite_of_pre (a0 : FVec Ideal S16x256 .f32) (a1 : FVec Ideal S16x8192x256 .f32)
    (a2 a3 : FVec Ideal S256x256 .f32) (a4 : FVec Ideal S1x256 .f32)
    (h : fn (F := Ideal) a0 a1 a2 a3 a4 = fun _ => 1#1) :
    (∀ i, a1 i ≠ ⊤ ∧ a1 i ≠ ⊥) ∧ (∀ i, a4 i ≠ ⊤ ∧ a4 i ≠ ⊥) := by
  have h0 := congrFun h ix0
  dsimp only [fn, fn_part1] at h0
  obtain ⟨h18, h22⟩ := IntOp.andi_eq_one.1 h0
  obtain ⟨h13, _⟩ := IntOp.andi_eq_one.1 h18
  obtain ⟨h8, _⟩ := IntOp.andi_eq_one.1 h13
  obtain ⟨_, h7⟩ := IntOp.andi_eq_one.1 h8
  refine ⟨fun i => ?_, fun i => ?_⟩
  · exact finite_of_abs_lt _ (Host.reduce_andi_all _ _ _ _ _ h7 i)
  · exact finite_of_abs_lt _ (Host.reduce_andi_all _ _ _ _ _ h22 i)

end Cert.Attn.Finite

end
-- ==== Proof.lean ====
/-
  The kernel computes the additive-attention block with a running softmax over tiles of the sequence axis; the
  reference computes it with a softmax that subtracts the row maximum. Both are the block of the specification:
  with the encoder outputs and V finite, every score is a real number, the softmax weights P and the context C
  are real numbers, and the three results are C tiled, C and P as functions of the five argument arrays
  (a softmax does not see a common shift of its scores, so the shift each side subtracts drops out).

  The frames: each program runs and leaves its argument arrays as launched. The kernel's idealization rewrote
  nothing. For the algebraic claim both runs end with the same three functions of the argument arrays: the
  kernel's results by its value theorem, the reference's by reading its operations stage by stage; the finiteness
  both need is the precondition read at the encoder outputs and at V.
-/
import proofs.«141412_j3788161155177_2_alg».proof.Defs
import proofs.«141412_j3788161155177_2_alg».proof.Proof.Gen.Kernel
import proofs.«141412_j3788161155177_2_alg».proof.Proof.Gen.Kernel.Skeleton
import proofs.«141412_j3788161155177_2_alg».proof.Proof.Gen.Kernel.Launch
import proofs.«141412_j3788161155177_2_alg».proof.Proof.Gen.Kernel.Points
import proofs.«141412_j3788161155177_2_alg».proof.Proof.Gen.Kernel.Frame
import proofs.«141412_j3788161155177_2_alg».proof.Proof.Gen.KernelIdeal
import proofs.«141412_j3788161155177_2_alg».proof.Proof.Gen.KernelIdeal.Skeleton
import proofs.«141412_j3788161155177_2_alg».proof.Proof.Gen.KernelIdeal.Launch
import proofs.«141412_j3788161155177_2_alg».proof.Proof.Gen.KernelIdeal.Points
import proofs.«141412_j3788161155177_2_alg».proof.Proof.Gen.KernelIdeal.Frame
import proofs.«141412_j3788161155177_2_alg».proof.Proof.Gen.ReferenceIdeal
import proofs.«141412_j3788161155177_2_alg».proof.Proof.Gen.ReferenceIdeal.Run
import proofs.«141412_j3788161155177_2_alg».proof.Proof.Gen.ReferenceIdeal.Read
import proofs.«141412_j3788161155177_2_alg».proof.Proof.Gen.Pre_finite_inputs
import proofs.«141412_j3788161155177_2_alg».proof.Proof.KRun
import proofs.«141412_j3788161155177_2_alg».proof.Proof.KValue
import proofs.«141412_j3788161155177_2_alg».proof.Proof.RefSide
import proofs.«141412_j3788161155177_2_alg».proof.Proof.Finite
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run, with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the five arguments, with the precondition, both programs end with C tiled, C and P of
    those arguments. -/
theorem algebraic : Cert.algebraic_KernelIdeal_ReferenceIdeal := by
  intro m ρ m' ρ' hpre hagree
  have hfin := fun c : Dev Cert.KernelIdeal.nD => Cert.Attn.Finite.finite_of_pre _ _ _ _ _ (hpre c)
  refine ⟨
    fun c => Cert.Attn.outTiled (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => Cert.Attn.outCtx (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => Cert.Attn.outAttn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    ?_, ?_⟩
  · refine (θ_run Cert.KernelIdeal.defs _ _).mono (fun _ h c => ?_) (Cert.KernelIdeal.Whole.run (F := Ideal) m ρ)
    obtain ⟨r0, r1, r2, rest⟩ := h c
    obtain ⟨k0, k1, k2⟩ := Cert.KernelIdeal.KValue.results m ρ c (hfin c).1 (hfin c).2
    exact ⟨r0.trans k0, r1.trans k1, r2.trans k2, rest⟩
  · refine (θ_run Cert.ReferenceIdeal.defs _ _).mono (fun _ h c => ?_) (Cert.ReferenceIdeal.Value.run (F := Ideal) m' ρ')
    obtain ⟨r0, r1, r2, rest⟩ := h c
    obtain ⟨a0, a1, a2, a3, a4⟩ := hagree c
    refine ⟨r0.trans ?_, r1.trans ?_, r2.trans ?_, rest⟩
    · rw [Cert.ReferenceIdeal.Read.val_main_v22_eq, a0, a1, a2, a3, a4]
      exact Cert.Attn.Ref.tiled_eq _ _ _ _ _ (hfin c).1 (hfin c).2
    · rw [Cert.ReferenceIdeal.Read.val_main_v20_eq, a0, a1, a2, a3, a4]
      exact Cert.Attn.Ref.ctx_eq _ _ _ _ _ (hfin c).1 (hfin c).2
    · rw [Cert.ReferenceIdeal.Read.val_main_v23_eq, a0, a1, a2, a3, a4]
      exact Cert.Attn.Ref.attn_eq _ _ _ _ _ (hfin c).2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
